-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S2x8x2048x2048 : Shape := ⟨4, ![2, 8, 2048, 2048]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x8x2048x2048 : S_.BroadcastsInDim S2x8x2048x2048 (![] : Fin 0 → Fin S2x8x2048x2048.rank)
  reducesTo_S2x8x2048x2048_S_d0_1_2_3 : S2x8x2048x2048.ReducesTo [0, 1, 2, 3] S_

variable [Facts]

def fn_part1 {F : FTy → Type} [FloatOps F] (main_v13 : IVec S_ 1) (main_v16 : IVec S2x8x2048x2048 1) : IVec S_ 1 :=
  let main_c_5 : IVec S_ 1 := constantI S_ 1 1#1
  let main_v17 : IVec S_ 1 := (fun x v => Host.reduce IntOp.andi x v reducesTo_S2x8x2048x2048_S_d0_1_2_3 h_S_) main_v16 main_c_5
  let main_v18 : IVec S_ 1 := andi main_v13 main_v17
  main_v18

def fn {F : FTy → Type} [FloatOps F] (main_arg0 : FVec F S2x8x2048x64 .f32) (main_arg1 : FVec F S2x8x2048x64 .f32) (main_arg2 : FVec F S2x8x2048x64 .f32) (main_arg3 : FVec F S2x8x2048x2048 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2048x2048 .f32 := Host.absf main_arg3
  let main_cst_4 : FVec F S_ .f32 := constant S_ .f32 0x7F800000#32
  let main_v15 : FVec F S2x8x2048x2048 .f32 := broadcastInDim S2x8x2048x2048 ![] bcast_S_S2x8x2048x2048 main_cst_4
  let main_v16 : IVec S2x8x2048x2048 1 := cmpf .olt main_v14 main_v15
  fn_part1 (F := F) main_v13 main_v16
-- ==== Kernel.lean ====
abbrev S2x8x2048x64 : Shape := ⟨4, ![2, 8, 2048, 64]⟩
abbrev S2x8x2048x2048 : Shape := ⟨4, ![2, 8, 2048, 2048]⟩
abbrev S16x2048x64 : Shape := ⟨3, ![16, 2048, 64]⟩
abbrev S16x2048x2048 : Shape := ⟨3, ![16, 2048, 2048]⟩
abbrev S1x512x64 : Shape := ⟨3, ![1, 512, 64]⟩
abbrev S1x512x512 : Shape := ⟨3, ![1, 512, 512]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S16x2048x2048, .f32⟩
  | .hbm, ⟨8, _⟩ => ⟨S16x2048x64, .f32⟩
  | .hbm, ⟨9, _⟩ => ⟨S16x2048x2048, .f32⟩
  | .hbm, ⟨10, _⟩ => ⟨S2x8x2048x64, .f32⟩
  | .hbm, ⟨11, _⟩ => ⟨S2x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x512, .f32⟩
  | .local _ .vmem, ⟨7, _⟩ => ⟨S1x512x512, .f32⟩
  | .local _ .vmem, ⟨8, _⟩ => ⟨S1x512x64, .f32⟩
  | .local _ .vmem, ⟨9, _⟩ => ⟨S1x512x64, .f32⟩
  | .local _ .vmem, ⟨10, _⟩ => ⟨S1x512x512, .f32⟩
  | .local _ .vmem, ⟨11, _⟩ => ⟨S1x512x512, .f32⟩
  | .local _ .vmem, ⟨12, _⟩ => ⟨S512x1, .f32⟩
  | .local _ .vmem, ⟨13, _⟩ => ⟨S512x1, .f32⟩
  | .local _ .vmem, ⟨14, _⟩ => ⟨S512x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg2 : BitVec 32 := BitVec.ofNat 32 (i 2).val
  let arg1 : BitVec 32 := BitVec.ofNat 32 (i 1).val
  let v5 : BitVec 1 := Scalar.cmpi .sle arg2 arg1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S2x8x2048x64_S16x2048x64 : S2x8x2048x64.ShapeCasts S16x2048x64
  shapeCasts_S2x8x2048x2048_S16x2048x2048 : S2x8x2048x2048.ShapeCasts S16x2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d0_w32 : S512x512.Iotas .tc 32 [0]
  iota_S512x512_d1_w32 : S512x512.Iotas .tc 32 [1]
  shapeCasts_S512x512_S1x512x512 : S512x512.ShapeCasts S1x512x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  bitsLt_bf16_f32 : FTy.bits .bf16 < FTy.bits .f32
  shapeCasts_S512x64_S1x512x64 : S512x64.ShapeCasts S1x512x64
  shapeCasts_S16x2048x64_S2x8x2048x64 : S16x2048x64.ShapeCasts S2x8x2048x64
  shapeCasts_S16x2048x2048_S2x8x2048x2048 : S16x2048x2048.ShapeCasts S2x8x2048x2048
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x2048x64.size a
  hwx0_1 : ∀ i : grid0.Coords, EltTy.bits .f32 = 32 ∨ (Rect.block (s := S16x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x2048x2048.size a
  hwx0_3 : ∀ i : grid0.Coords, EltTy.bits .f32 = 32 ∨ (Rect.block (s := S16x2048x2048) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S16x2048x2048.size a
  hwx0_5 : ∀ i : grid0.Coords, EltTy.bits .f32 = 32 ∨ (Rect.block (s := S16x2048x2048) S1x512x512.size (cc0_transform_5 i) (hinb0_5 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S_ : Shape := ⟨0, ![]⟩
abbrev S2048x2048 : Shape := ⟨2, ![2048, 2048]⟩
abbrev S2x8x2048 : Shape := ⟨3, ![2, 8, 2048]⟩
abbrev S2x8x2048x1 : Shape := ⟨4, ![2, 8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2x8x2048x2048, .f32⟩
  | .hbm, ⟨9, _⟩ => ⟨S_, .i1⟩
  | .hbm, ⟨10, _⟩ => ⟨S2048x2048, .i1⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .i1⟩
  | .hbm, ⟨18, _⟩ => ⟨S2048x2048, .i1⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S2x8x2048x2048, .i1⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S_, .f32⟩
  | .hbm, ⟨28, _⟩ => ⟨S2x8x2048, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v5 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  bcast_S_S2048x2048 : S_.BroadcastsInDim S2048x2048 (![] : Fin 0 → Fin S2048x2048.rank)
  bcast_S2048x2048_S2x8x2048x2048_2_3 : S2048x2048.BroadcastsInDim S2x8x2048x2048 (![2, 3] : Fin 2 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.BodyDefsK.lean ====
/-
  The attention kernel's body at one grid point, as a function of what it finds — the word-level program's copy of
  BodyDefs: the same definitions over the program as printed (they are stated for any float instance).
-/
import proofs.«169443_j85478439125336_2_alg».proof.Proof.Gen.Kernel.Frame
import proofs.«169443_j85478439125336_2_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the key tile is the row's first. -/
abbrev cond1 (i : grid0.Coords) : Prop := (Scalar.cmpi .ne (Scalar.extui (Scalar.cmpi .eq (BitVec.ofNat 32 (i 2).val) 0#32)) 0#32) = 1#1
/-- The query tile's first row and the key tile's first column, as the body computes them. -/
abbrev qoff (i : grid0.Coords) : BitVec 32 := Scalar.muli (BitVec.ofNat 32 (i 1).val) 512#32
abbrev koff (i : grid0.Coords) : BitVec 32 := Scalar.muli (BitVec.ofNat 32 (i 2).val) 512#32

theorem hz2 : (![0, 0] : Fin 2 → Nat) = fun _ => 0 := by funext a; fin_cases a <;> rfl
theorem hz3 : (![0, 0, 0] : Fin 3 → Nat) = fun _ => 0 := by funext a; fin_cases a <;> rfl

/-! ## The body as a function of what it finds

At a grid point the body finds the four input blocks (`xq xk xv xp`), the two output staging buffers (`y4 y5`) and the three
carried buffers: the running row maxima `s0`, the running normalizers `s1` and the running accumulator `s2`.  Its four
branches (first key tile: reset; key tile not past the diagonal: update; key tile past the diagonal: fill with -∞; last key
tile: normalize) leave the contents below, each a composition of the body's own arithmetic (the skeleton's payloads). -/

/-- The carried buffers after the reset branch. -/
def m1 (i : grid0.Coords) (s0 : Vec F S512x1 .f32) : Vec F S512x1 .f32 := if cond1 i then k0_pay1 else s0
def l1 (i : grid0.Coords) (s1 : Vec F S512x1 .f32) : Vec F S512x1 .f32 := if cond1 i then k0_pay2 else s1
def a1 (i : grid0.Coords) (s2 : Vec F S512x64 .f32) : Vec F S512x64 .f32 := if cond1 i then k0_pay3 else s2

/-- The running maxima after the point. -/
def mNext (i : grid0.Coords) (xq xk : Vec F S1x512x64 .f32) (xp : Vec F S1x512x512 .f32) (s0 : Vec F S512x1 .f32) : Vec F S512x1 .f32 :=
  if k0_cond2 i = 1#1 then k0_pay6 (k0_pay12 (qoff i) (koff i) xq xk xp (m1 i s0)) else m1 i s0
/-- The running normalizers after the point. -/
def lNext (i : grid0.Coords) (xq xk : Vec F S1x512x64 .f32) (xp : Vec F S1x512x512 .f32) (s0 s1 : Vec F S512x1 .f32) : Vec F S512x1 .f32 :=
  if k0_cond2 i = 1#1 then k0_pay4 (k0_pay14 (qoff i) (koff i) xq xk xp (m1 i s0)) (k0_pay15 (qoff i) (koff i) xq xk xp (m1 i s0) (l1 i s1)) else l1 i s1
/-- The running accumulator after the point. -/
def aNext (i : grid0.Coords) (xq xk xv : Vec F S1x512x64 .f32) (xp : Vec F S1x512x512 .f32) (s0 : Vec F S512x1 .f32) (s2 : Vec F S512x64 .f32) : Vec F S512x64 .f32 :=
  if k0_cond2 i = 1#1 then k0_pay5 (k0_pay9 xv) (k0_pay13 (qoff i) (koff i) xq xk xp (m1 i s0)) (k0_pay14 (qoff i) (koff i) xq xk xp (m1 i s0)) (a1 i s2) else a1 i s2
/-- The score block's staging buffer after the point. -/
def scNext (i : grid0.Coords) (xq xk : Vec F S1x512x64 .f32) (xp : Vec F S1x512x512 .f32) (y5 : Vec F S1x512x512 .f32) : Vec F S1x512x512 .f32 :=
  if k0_cond3 i = 1#1 then k0_pay7 else if k0_cond2 i = 1#1 then k0_pay11 (qoff i) (koff i) xq xk xp else y5
/-- The context block's staging buffer after the point. -/
def ctxNext (i : grid0.Coords) (xq xk xv : Vec F S1x512x64 .f32) (xp : Vec F S1x512x512 .f32) (s0 s1 : Vec F S512x1 .f32) (s2 : Vec F S512x64 .f32) (y4 : Vec F S1x512x64 .f32) : Vec F S1x512x64 .f32 :=
  if k0_cond4 i = 1#1 then k0_pay8 (aNext i xq xk xv xp s0 s2) (lNext i xq xk xp s0 s1) else y4

end Cert.Kernel.Hand

end
-- ==== Proof.BodyRunK.lean ====
/-
  The attention kernel's body, run at one grid point: from the four input blocks, the two output staging buffers and the
  three carried buffers at any contents, it ends with the inputs as they were and the other five at the contents
  BodyDefs names — whichever of its four branches the point takes.  One run per combination of branches the grid
  meets (first key tile; a later key tile before the last, on or before the diagonal; the last key tile on the diagonal;
  a key tile past the diagonal, before the last or the last), then the combination.
-/
import proofs.«169443_j85478439125336_2_alg».proof.Proof.Gen.Kernel.Frame
import proofs.«169443_j85478439125336_2_alg».proof.Proof.Gen.Kernel.Skeleton
import Idealize.ShloMosaic.Lib.Pipeline.Value
import proofs.«169443_j85478439125336_2_alg».proof.Proof.BodyDefsK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer holds after stores the last of which covers its whole rectangle: that store's payload. -/
theorem read_store_last {sg : RefSig} {κ : Kind} {sp : Space} {Val : EltTy → Type} [∀ e, Nonempty (Val e)] {S : Shape} {e : EltTy}
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero hz inb y⟩), View.canon_cons_unit_zero hz]

set_option maxHeartbeats 1600000 in
/-- First key tile of a row: reset, then update. -/
theorem body_first (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : cond1 i) (h2 : k0_cond2 i = 1#1) (h3 : ¬k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_pos h1, if_pos h2, if_neg h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- A later key tile on or before the diagonal, not the last: update. -/
theorem body_mid (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : k0_cond2 i = 1#1) (h3 : ¬k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_pos h2, if_neg h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- The last key tile, on the diagonal: update, then normalize. -/
theorem body_last (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : k0_cond2 i = 1#1) (h3 : ¬k0_cond3 i = 1#1) (h4 : k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_pos h2, if_neg h3, if_pos h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (sl_unfold_run_names; refine (read_store_last (S := S1x512x64) _ _ hz3 inb_S1x512x64_S1x512x64_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- A key tile past the diagonal, not the last: fill with -∞. -/
theorem body_past (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : ¬k0_cond2 i = 1#1) (h3 : k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_neg h2, if_pos h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

set_option maxHeartbeats 1600000 in
/-- The last key tile, past the diagonal: fill with -∞, then normalize. -/
theorem body_past_last (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : ¬k0_cond2 i = 1#1) (h3 : k0_cond3 i = 1#1) (h4 : k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_neg h2, if_pos h3, if_pos h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (sl_unfold_run_names; refine (read_store_last (S := S1x512x64) _ _ hz3 inb_S1x512x64_S1x512x64_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

/-- The body at any point where the update and the fill exclude each other and the first key tile is updated and is
    not the last (true at every grid point). -/
theorem body_spec (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (hx : k0_cond3 i = 1#1 ↔ ¬k0_cond2 i = 1#1) (h1x : cond1 i → k0_cond2 i = 1#1 ∧ ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  by_cases h2 : k0_cond2 i = 1#1
  · have h3 : ¬k0_cond3 i = 1#1 := fun h => (hx.mp h) h2
    by_cases h1 : cond1 i
    · exact body_first c i arg3 harg3 arg4 harg4 arg5 harg5 arg6 harg6 arg7 harg7 arg8 harg8 arg9 harg9 arg10 harg10 arg11 harg11 h1 h2 h3 (h1x h1).2 xq xk xv xp y4 y5 s0 s1 s2 E K
    · by_cases h4 : k0_cond4 i = 1#1
      · exact body_last c i arg3 harg3 arg4 harg4 arg5 harg5 arg6 harg6 arg7 harg7 arg8 harg8 arg9 harg9 arg10 harg10 arg11 harg11 h1 h2 h3 h4 xq xk xv xp y4 y5 s0 s1 s2 E K
      · exact body_mid c i arg3 harg3 arg4 harg4 arg5 harg5 arg6 harg6 arg7 harg7 arg8 harg8 arg9 harg9 arg10 harg10 arg11 harg11 h1 h2 h3 h4 xq xk xv xp y4 y5 s0 s1 s2 E K
  · have h3 : k0_cond3 i = 1#1 := hx.mpr h2
    have h1 : ¬cond1 i := fun h => h2 (h1x h).1
    by_cases h4 : k0_cond4 i = 1#1
    · exact body_past_last c i arg3 harg3 arg4 harg4 arg5 harg5 arg6 harg6 arg7 harg7 arg8 harg8 arg9 harg9 arg10 harg10 arg11 harg11 h1 h2 h3 h4 xq xk xv xp y4 y5 s0 s1 s2 E K
    · exact body_past c i arg3 harg3 arg4 harg4 arg5 harg5 arg6 harg6 arg7 harg7 arg8 harg8 arg9 harg9 arg10 harg10 arg11 harg11 h1 h2 h3 h4 xq xk xv xp y4 y5 s0 s1 s2 E K

end Cert.Kernel.Hand

end
-- ==== Proof.TrackK.lean ====
/-
  What the kernel's buffers hold point by point.  The grid's points are numbered t = 16·(batch·head) + 4·(query tile) +
  (key tile); the key tile is t mod 4 and the query tile (t / 4) mod 4.  The three carried buffers after point t are
  given by recursion on t (each point applies the body's function to what the point before left; a row's first key
  tile resets them, so what they held before point 0 does not matter).  The score block a point leaves is a function
  of that point's input blocks alone; the context block, written at a row's last key tile, is accumulator /
  normalizer of the carried state there.
-/
import proofs.«169443_j85478439125336_2_alg».proof.Proof.Gen.Kernel.Frame
import proofs.«169443_j85478439125336_2_alg».proof.Proof.Gen.Kernel.Skeleton
import Idealize.ShloMosaic.Lib.Pipeline.Value
import proofs.«169443_j85478439125336_2_alg».proof.Proof.BodyDefsK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)
theorem hcond3 : ∀ t : Fin cfg0.N, k0_cond3 (grid0.coords t) = 1#1 ↔ t.val / 4 % 4 < t.val % 4 :=
  (by decide +kernel : ∀ t : Fin grid0.N, k0_cond3 (grid0.coords t) = 1#1 ↔ t.val / 4 % 4 < t.val % 4)
theorem hcond4 : ∀ t : Fin cfg0.N, k0_cond4 (grid0.coords t) = 1#1 ↔ t.val % 4 = 3 :=
  (by decide +kernel : ∀ t : Fin grid0.N, k0_cond4 (grid0.coords t) = 1#1 ↔ t.val % 4 = 3)

/-- The update and the fill exclude each other and one of them happens. -/
theorem hx (t : Fin cfg0.N) : k0_cond3 (grid0.coords t) = 1#1 ↔ ¬k0_cond2 (grid0.coords t) = 1#1 := by
  rw [hcond3, hcond2]; omega
/-- A row's first key tile is updated and is not the last. -/
theorem h1x (t : Fin cfg0.N) : cond1 (grid0.coords t) → k0_cond2 (grid0.coords t) = 1#1 ∧ ¬k0_cond4 (grid0.coords t) = 1#1 := by
  rw [hcond1, hcond2, hcond4]; omega

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The score window is stored into at every point. -/
theorem live5 : ∀ t : Fin cfg0.N, cfg0.idle 5 (grid0.coords t) = false :=
  (by decide +kernel : ∀ t : Fin grid0.N, cfg0.idle 5 (grid0.coords t) = false)
/-- The context window is stored into exactly at a row's last key tile, and written back exactly there. -/
theorem live4 : ∀ t : Fin cfg0.N, k0_cond4 (grid0.coords t) = 1#1 → cfg0.idle 4 (grid0.coords t) = false :=
  (by decide +kernel : ∀ t : Fin grid0.N, k0_cond4 (grid0.coords t) = 1#1 → cfg0.idle 4 (grid0.coords t) = false)
theorem idle4 : ∀ t : Fin cfg0.N, ¬k0_cond4 (grid0.coords t) = 1#1 → cfg0.idle 4 (grid0.coords t) = true :=
  (by decide +kernel : ∀ t : Fin grid0.N, ¬k0_cond4 (grid0.coords t) = 1#1 → cfg0.idle 4 (grid0.coords t) = true)
theorem noFlush4 : ∀ t : Fin cfg0.N, ¬k0_cond4 (grid0.coords t) = 1#1 → (cfg0.win 4).flush t = false :=
  (by decide +kernel : ∀ t : Fin grid0.N, ¬k0_cond4 (grid0.coords t) = 1#1 → win0_4.flush t = false)

/-! ## The memrefs the body is called with -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The carried buffers: whole scoped buffers of the kernel's own. -/
abbrev scM0 : Memref sig .tc .vmem S512x1 .f32 := Memref.whole cc0_scratch0
abbrev scM1 : Memref sig .tc .vmem S512x1 .f32 := Memref.whole cc0_scratch1
abbrev scM2 : Memref sig .tc .vmem S512x64 .f32 := Memref.whole cc0_scratch2

/-- What the launch hands the region beside the windows: the three carried buffers at some contents, and the
    generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The input blocks and the carried state -/

/-- The query, key, value and residual blocks at point `t`. -/
abbrev bQ (c : Dev nD) (t : Fin cfg0.N) : Vec F S1x512x64 .f32 := iblk m c 0 t
abbrev bK (c : Dev nD) (t : Fin cfg0.N) : Vec F S1x512x64 .f32 := iblk m c 1 t
abbrev bV (c : Dev nD) (t : Fin cfg0.N) : Vec F S1x512x64 .f32 := iblk m c 2 t
abbrev bP (c : Dev nD) (t : Fin cfg0.N) : Vec F S1x512x512 .f32 := iblk m c 3 t

/-- The carried buffers' contents: row maxima, normalizers, accumulator. -/
abbrev St (F : FTy → Type) := Vec F S512x1 .f32 × Vec F S512x1 .f32 × Vec F S512x64 .f32

/-- One point's action on the carried buffers. -/
def stNext (c : Dev nD) (t : Fin cfg0.N) (s : St F) : St F :=
  (mNext (grid0.coords t) (bQ m c t) (bK m c t) (bP m c t) s.1,
   lNext (grid0.coords t) (bQ m c t) (bK m c t) (bP m c t) s.1 s.2.1,
   aNext (grid0.coords t) (bQ m c t) (bK m c t) (bV m c t) (bP m c t) s.1 s.2.2)

/-- The carried buffers after point `n`. -/
def stAt (c : Dev nD) : (n : ℕ) → n < cfg0.N → St F
  | 0, h => stNext m c ⟨0, h⟩ (k0_pay1, k0_pay2, k0_pay3)
  | n + 1, h => stNext m c ⟨n + 1, h⟩ (stAt c n (Nat.lt_of_succ_lt h))

theorem stAt_pos (c : Dev nD) (t : Fin cfg0.N) (ht : t.val ≠ 0) :
    stAt m c t.val t.isLt = stNext m c t (stAt m c (t.val - 1) (Nat.lt_of_le_of_lt (Nat.sub_le _ _) t.isLt)) := by
  obtain ⟨n, hn⟩ := t
  cases n with
  | zero => exact absurd rfl ht
  | succ n => rfl

/-- At a row's first key tile the point's action does not depend on what the buffers held. -/
theorem stNext_reset (c : Dev nD) (t : Fin cfg0.N) (h : cond1 (grid0.coords t)) (s s' : St F) : stNext m c t s = stNext m c t s' := by
  unfold stNext mNext lNext aNext m1 l1 a1; simp only [if_pos h]

theorem stAt_zero (c : Dev nD) (t : Fin cfg0.N) (ht : t.val = 0) (s : St F) : stAt m c t.val t.isLt = stNext m c t s := by
  obtain ⟨n, hn⟩ := t
  cases n with
  | zero => exact stNext_reset m c ⟨0, hn⟩ ((hcond1 ⟨0, hn⟩).mpr rfl) _ _
  | succ n => exact absurd ht (Nat.succ_ne_zero n)

/-- The context block's staging buffer after a row's last key tile. -/
def ctxAt (c : Dev nD) (t : Fin cfg0.N) : Vec F S1x512x64 .f32 :=
  k0_pay8 (stAt m c t.val t.isLt).2.2 (stAt m c t.val t.isLt).2.1
/-- The score block's staging buffer after point `t`. -/
def scAt (c : Dev nD) (t : Fin cfg0.N) : Vec F S1x512x512 .f32 :=
  scNext (grid0.coords t) (bQ m c t) (bK m c t) (bP m c t) k0_pay7

/-- What the score buffer held before does not matter: every point stores the whole block. -/
theorem scAt_any (c : Dev nD) (t : Fin cfg0.N) (y : Vec F S1x512x512 .f32) :
    scAt m c t = scNext (grid0.coords t) (bQ m c t) (bK m c t) (bP m c t) y := by
  unfold scAt scNext
  by_cases h3 : k0_cond3 (grid0.coords t) = 1#1
  · rw [if_pos h3, if_pos h3]
  · have h2 : k0_cond2 (grid0.coords t) = 1#1 := by
      by_contra h; exact h3 ((hx t).mpr h)
    rw [if_neg h3, if_neg h3, if_pos h2, if_pos h2]

/-! ## The invariant and the proof data -/

/-- The region invariant before position `n`: before the first point what the launch hands over; afterwards the three
    carried buffers at what the point before left, and the generator register. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1 ∗ owns (c : Thread nD τ) scM2 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1 ∗ owns (c : Thread nD τ) scM2 fullShare (stAt m c n hn).2.2) ∗ (∃ r, prngReg c r)) := rfl
theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1 ∗ owns (c : Thread nD τ) scM2 fullShare (stAt m c (n - 1) (by omega)).2.2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ctxAt m c t
    | ⟨5, _⟩ => scAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = ctxAt m c t := by dsimp only [dats]
theorem after5 (c : Dev nD) (t : Fin cfg0.N) : (dats m 0 c).after 5 t = scAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Hand

end
-- ==== Proof.ObligK.lean ====
/-
  The body obligation of the pipeline, the run of @main, and the frame: at every grid point the body, handed the
  carried buffers at what the point before left and every window's staging buffer at what it then holds, leaves the
  carried buffers at this point's contents, the input blocks in place, the score block at this point's scores, and
  the context block either untouched (before a row's last key tile, where it is neither stored into nor written
  back) or at accumulator / normalizer (at the last key tile).
-/
import proofs.«169443_j85478439125336_2_alg».proof.Proof.Gen.Kernel.Frame
import proofs.«169443_j85478439125336_2_alg».proof.Proof.Gen.Kernel.Skeleton
import Idealize.ShloMosaic.Lib.Pipeline.Value
import proofs.«169443_j85478439125336_2_alg».proof.Proof.BodyRunK
import proofs.«169443_j85478439125336_2_alg».proof.Proof.TrackK
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 5 t = owns (c : Thread nD τ) (ms5 t) fullShare ((dats m 0 c).after 5 t) from by
    unfold Dat.leavesExact; rw [live5 t], after5]
  by_cases h4 : k0_cond4 (grid0.coords t) = 1#1
  · -- a row's last key tile: the context block is stored
    have hz : t.val ≠ 0 := by have := (hcond4 t).mp h4; omega
    rw [show (dats m 0 c).leavesExact 4 t = owns (c : Thread nD τ) (ms4 t) fullShare ((dats m 0 c).after 4 t) from by
      unfold Dat.leavesExact; rw [live4 t h4], after4]
    rw [PhiS_castSucc m c t, PhiS_pos m c _ _ hz]
    unfold ctxAt
    rw [stAt_pos m c t hz]
    unfold stNext
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    rw [scAt_any m c t ((dats m 0 c).before 5 t d5)]
    iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]
    · unfold ctxNext; rw [if_pos h4]; iexact H4
    iexact H5
  · -- any other point: the context block is handed back untouched
    rw [Dat.leavesExact_idle (dats m 0 c) 4 t (idle4 t h4) (noFlush4 t h4)]
    by_cases hz : t.val = 0
    · rw [PhiS_castSucc m c t, PhiS_zero m c _ _ hz, PhiA0_eq]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩⟩
      rw [scAt_any m c t ((dats m 0 c).before 5 t d5), stAt_zero m c t hz (e0, e1, e2)]
      unfold stNext
      iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold ctxNext; rw [if_neg h4]; iexists _; iexact H4
      iexact H5
    · rw [PhiS_castSucc m c t, PhiS_pos m c _ _ hz]
      rw [stAt_pos m c t hz]
      unfold stNext
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      rw [scAt_any m c t ((dats m 0 c).before 5 t d5)]
      iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold ctxNext; rw [if_neg h4]; iexists _; iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, and ends with every array of the pipeline at what the proof data
    gives it and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.BodyDefs.lean ====
/-
  The attention kernel's body at one grid point, as a function of what it finds.

  A grid point is (batch·head, query tile, key tile).  The body keeps three buffers between points — per query row the
  largest score seen so far, the normalizer, and per row and feature the accumulator — and has four branches: at a
  row's first key tile it resets them (-∞, 0, 0); at a key tile not past the diagonal it computes the masked, scaled
  scores of the tile, stores them, and folds them into the three buffers; at a key tile past the diagonal it stores
  -∞ scores; at the last key tile it stores accumulator / normalizer as the context block.  Below, what each buffer
  holds after the body, written over the body's own arithmetic (the skeleton's payloads).
-/
import proofs.«169443_j85478439125336_2_alg».proof.Proof.Gen.KernelIdeal.Frame
import proofs.«169443_j85478439125336_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the key tile is the row's first. -/
abbrev cond1 (i : grid0.Coords) : Prop := (Scalar.cmpi .ne (Scalar.extui (Scalar.cmpi .eq (BitVec.ofNat 32 (i 2).val) 0#32)) 0#32) = 1#1
/-- The query tile's first row and the key tile's first column, as the body computes them. -/
abbrev qoff (i : grid0.Coords) : BitVec 32 := Scalar.muli (BitVec.ofNat 32 (i 1).val) 512#32
abbrev koff (i : grid0.Coords) : BitVec 32 := Scalar.muli (BitVec.ofNat 32 (i 2).val) 512#32

theorem hz2 : (![0, 0] : Fin 2 → Nat) = fun _ => 0 := by funext a; fin_cases a <;> rfl
theorem hz3 : (![0, 0, 0] : Fin 3 → Nat) = fun _ => 0 := by funext a; fin_cases a <;> rfl

/-! ## The body as a function of what it finds

At a grid point the body finds the four input blocks (`xq xk xv xp`), the two output staging buffers (`y4 y5`) and the three
carried buffers: the running row maxima `s0`, the running normalizers `s1` and the running accumulator `s2`.  Its four
branches (first key tile: reset; key tile not past the diagonal: update; key tile past the diagonal: fill with -∞; last key
tile: normalize) leave the contents below, each a composition of the body's own arithmetic (the skeleton's payloads). -/

/-- The carried buffers after the reset branch. -/
def m1 (i : grid0.Coords) (s0 : Vec F S512x1 .f32) : Vec F S512x1 .f32 := if cond1 i then k0_pay1 else s0
def l1 (i : grid0.Coords) (s1 : Vec F S512x1 .f32) : Vec F S512x1 .f32 := if cond1 i then k0_pay2 else s1
def a1 (i : grid0.Coords) (s2 : Vec F S512x64 .f32) : Vec F S512x64 .f32 := if cond1 i then k0_pay3 else s2

/-- The running maxima after the point. -/
def mNext (i : grid0.Coords) (xq xk : Vec F S1x512x64 .f32) (xp : Vec F S1x512x512 .f32) (s0 : Vec F S512x1 .f32) : Vec F S512x1 .f32 :=
  if k0_cond2 i = 1#1 then k0_pay6 (k0_pay12 (qoff i) (koff i) xq xk xp (m1 i s0)) else m1 i s0
/-- The running normalizers after the point. -/
def lNext (i : grid0.Coords) (xq xk : Vec F S1x512x64 .f32) (xp : Vec F S1x512x512 .f32) (s0 s1 : Vec F S512x1 .f32) : Vec F S512x1 .f32 :=
  if k0_cond2 i = 1#1 then k0_pay4 (k0_pay14 (qoff i) (koff i) xq xk xp (m1 i s0)) (k0_pay15 (qoff i) (koff i) xq xk xp (m1 i s0) (l1 i s1)) else l1 i s1
/-- The running accumulator after the point. -/
def aNext (i : grid0.Coords) (xq xk xv : Vec F S1x512x64 .f32) (xp : Vec F S1x512x512 .f32) (s0 : Vec F S512x1 .f32) (s2 : Vec F S512x64 .f32) : Vec F S512x64 .f32 :=
  if k0_cond2 i = 1#1 then k0_pay5 (k0_pay9 xv) (k0_pay13 (qoff i) (koff i) xq xk xp (m1 i s0)) (k0_pay14 (qoff i) (koff i) xq xk xp (m1 i s0)) (a1 i s2) else a1 i s2
/-- The score block's staging buffer after the point. -/
def scNext (i : grid0.Coords) (xq xk : Vec F S1x512x64 .f32) (xp : Vec F S1x512x512 .f32) (y5 : Vec F S1x512x512 .f32) : Vec F S1x512x512 .f32 :=
  if k0_cond3 i = 1#1 then k0_pay7 else if k0_cond2 i = 1#1 then k0_pay11 (qoff i) (koff i) xq xk xp else y5
/-- The context block's staging buffer after the point. -/
def ctxNext (i : grid0.Coords) (xq xk xv : Vec F S1x512x64 .f32) (xp : Vec F S1x512x512 .f32) (s0 s1 : Vec F S512x1 .f32) (s2 : Vec F S512x64 .f32) (y4 : Vec F S1x512x64 .f32) : Vec F S1x512x64 .f32 :=
  if k0_cond4 i = 1#1 then k0_pay8 (aNext i xq xk xv xp s0 s2) (lNext i xq xk xp s0 s1) else y4

end Cert.KernelIdeal.Hand

end
-- ==== Proof.BodyRun.lean ====
/-
  The attention kernel's body, run at one grid point: from the four input blocks, the two output staging buffers and the
  three carried buffers at any contents, it ends with the inputs as they were and the other five at the contents
  BodyDefs names — whichever of its four branches the point takes.  One run per combination of branches the grid
  meets (first key tile; a later key tile before the last, on or before the diagonal; the last key tile on the diagonal;
  a key tile past the diagonal, before the last or the last), then the combination.
-/
import proofs.«169443_j85478439125336_2_alg».proof.Proof.Gen.KernelIdeal.Frame
import proofs.«169443_j85478439125336_2_alg».proof.Proof.Gen.KernelIdeal.Skeleton
import Idealize.ShloMosaic.Lib.Pipeline.Value
import proofs.«169443_j85478439125336_2_alg».proof.Proof.BodyDefs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer holds after stores the last of which covers its whole rectangle: that store's payload. -/
theorem read_store_last {sg : RefSig} {κ : Kind} {sp : Space} {Val : EltTy → Type} [∀ e, Nonempty (Val e)] {S : Shape} {e : EltTy}
    (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero hz inb y⟩), View.canon_cons_unit_zero hz]

set_option maxHeartbeats 1600000 in
/-- First key tile of a row: reset, then update. -/
theorem body_first (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : cond1 i) (h2 : k0_cond2 i = 1#1) (h3 : ¬k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_pos h1, if_pos h2, if_neg h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- A later key tile on or before the diagonal, not the last: update. -/
theorem body_mid (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : k0_cond2 i = 1#1) (h3 : ¬k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_pos h2, if_neg h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- The last key tile, on the diagonal: update, then normalize. -/
theorem body_last (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : k0_cond2 i = 1#1) (h3 : ¬k0_cond3 i = 1#1) (h4 : k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_pos h2, if_neg h3, if_pos h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (sl_unfold_run_names; refine (read_store_last (S := S1x512x64) _ _ hz3 inb_S1x512x64_S1x512x64_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H10]
  · iexists _; isplitr; swap; · iexact H10
    ipureintro; (sl_unfold_run_names; refine (read_store_last (S := S512x1) _ _ hz2 inb_S512x1_S512x1_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  iexists _; isplitr; swap; · iexact H11
  ipureintro; (sl_unfold_run_names; refine (read_store_last (S := S512x64) _ _ hz2 inb_S512x64_S512x64_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)

set_option maxHeartbeats 1600000 in
/-- A key tile past the diagonal, not the last: fill with -∞. -/
theorem body_past (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : ¬k0_cond2 i = 1#1) (h3 : k0_cond3 i = 1#1) (h4 : ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_neg h2, if_pos h3, if_neg h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

set_option maxHeartbeats 1600000 in
/-- The last key tile, past the diagonal: fill with -∞, then normalize. -/
theorem body_past_last (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (h1 : ¬cond1 i) (h2 : ¬k0_cond2 i = 1#1) (h3 : k0_cond3 i = 1#1) (h4 : k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  simp only [ctxNext, scNext, mNext, lNext, aNext, m1, l1, a1, if_neg h1, if_neg h2, if_pos h3, if_pos h4]
  simp only [cc0__attn_kernel_eq_skeleton]; unfold cc0__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  sl_exec (disch := first | exact h1 | exact h2 | exact h3 | exact h4)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; (sl_unfold_run_names; refine (read_store_last (S := S1x512x64) _ _ hz3 inb_S1x512x64_S1x512x64_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H8]
  · iexists _; isplitr; swap; · iexact H8
    ipureintro; (sl_unfold_run_names; refine (read_store_last (S := S1x512x512) _ _ hz3 inb_S1x512x512_S1x512x512_0_0_0 _ _).trans ?_; (try simp only [View.readAt_eq_ld, Memref.IsWhole.read_unread, View.ld_unit_zero (S := S1x512x64) hz3, View.ld_unit_zero (S := S1x512x512) hz3, View.ld_unit_zero (S := S512x1) hz2, View.ld_unit_zero (S := S512x64) hz2, View.readCov_unit_zero (S := S1x512x64) _ hz3, View.readCov_unit_zero (S := S1x512x512) _ hz3, View.readCov_unit_zero (S := S512x1) _ hz2, View.readCov_unit_zero (S := S512x64) _ hz2]); try rfl)
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

/-- The body at any point where the update and the fill exclude each other and the first key tile is updated and is
    not the last (true at every grid point). -/
theorem body_spec (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x512 .f32) (harg6 : arg6.IsWhole) (arg7 : Memref sig .tc .vmem S1x512x64 .f32) (harg7 : arg7.IsWhole) (arg8 : Memref sig .tc .vmem S1x512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x64 .f32) (harg11 : arg11.IsWhole)
    (hx : k0_cond3 i = 1#1 ↔ ¬k0_cond2 i = 1#1) (h1x : cond1 i → k0_cond2 i = 1#1 ∧ ¬k0_cond4 i = 1#1)
    (xq xk xv : Vec F S1x512x64 .f32) (xp : Vec F S1x512x512 .f32) (y4 : Vec F S1x512x64 .f32) (y5 : Vec F S1x512x512 .f32)
    (s0 s1 : Vec F S512x1 .f32) (s2 : Vec F S512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xp ∗ owns (c : Thread nD τ) arg7 fullShare y4 ∗ owns (c : Thread nD τ) arg8 fullShare y5
        ∗ owns (c : Thread nD τ) arg9 fullShare s0 ∗ owns (c : Thread nD τ) arg10 fullShare s1 ∗ owns (c : Thread nD τ) arg11 fullShare s2
        ∗ (iprop(owns (c : Thread nD τ) arg3 fullShare xq ∗ owns (c : Thread nD τ) arg4 fullShare xk ∗ owns (c : Thread nD τ) arg5 fullShare xv
            ∗ owns (c : Thread nD τ) arg6 fullShare xp ∗ owns (c : Thread nD τ) arg7 fullShare (ctxNext i xq xk xv xp s0 s1 s2 y4)
            ∗ owns (c : Thread nD τ) arg8 fullShare (scNext i xq xk xp y5)
            ∗ owns (c : Thread nD τ) arg9 fullShare (mNext i xq xk xp s0) ∗ owns (c : Thread nD τ) arg10 fullShare (lNext i xq xk xp s0 s1)
            ∗ owns (c : Thread nD τ) arg11 fullShare (aNext i xq xk xv xp s0 s2)) -∗ K ⟨⟩))
      ⊢ wp frame (wpE (defs₀ (F := F)) Variants.none c none) E (cc0__attn_kernel i arg3 harg3 arg4 harg4 arg5 harg5 arg6 harg6 arg7 harg7 arg8 harg8 arg9 harg9 arg10 harg10 arg11 harg11) K := by
  by_cases h2 : k0_cond2 i = 1#1
  · have h3 : ¬k0_cond3 i = 1#1 := fun h => (hx.mp h) h2
    by_cases h1 : cond1 i
    · exact body_first c i arg3 harg3 arg4 harg4 arg5 harg5 arg6 harg6 arg7 harg7 arg8 harg8 arg9 harg9 arg10 harg10 arg11 harg11 h1 h2 h3 (h1x h1).2 xq xk xv xp y4 y5 s0 s1 s2 E K
    · by_cases h4 : k0_cond4 i = 1#1
      · exact body_last c i arg3 harg3 arg4 harg4 arg5 harg5 arg6 harg6 arg7 harg7 arg8 harg8 arg9 harg9 arg10 harg10 arg11 harg11 h1 h2 h3 h4 xq xk xv xp y4 y5 s0 s1 s2 E K
      · exact body_mid c i arg3 harg3 arg4 harg4 arg5 harg5 arg6 harg6 arg7 harg7 arg8 harg8 arg9 harg9 arg10 harg10 arg11 harg11 h1 h2 h3 h4 xq xk xv xp y4 y5 s0 s1 s2 E K
  · have h3 : k0_cond3 i = 1#1 := hx.mpr h2
    have h1 : ¬cond1 i := fun h => h2 (h1x h).1
    by_cases h4 : k0_cond4 i = 1#1
    · exact body_past_last c i arg3 harg3 arg4 harg4 arg5 harg5 arg6 harg6 arg7 harg7 arg8 harg8 arg9 harg9 arg10 harg10 arg11 harg11 h1 h2 h3 h4 xq xk xv xp y4 y5 s0 s1 s2 E K
    · exact body_past c i arg3 harg3 arg4 harg4 arg5 harg5 arg6 harg6 arg7 harg7 arg8 harg8 arg9 harg9 arg10 harg10 arg11 harg11 h1 h2 h3 h4 xq xk xv xp y4 y5 s0 s1 s2 E K

end Cert.KernelIdeal.Hand

end
-- ==== Proof.Track.lean ====
/-
  What the kernel's buffers hold point by point.  The grid's points are numbered t = 16·(batch·head) + 4·(query tile) +
  (key tile); the key tile is t mod 4 and the query tile (t / 4) mod 4.  The three carried buffers after point t are
  given by recursion on t (each point applies the body's function to what the point before left; a row's first key
  tile resets them, so what they held before point 0 does not matter).  The score block a point leaves is a function
  of that point's input blocks alone; the context block, written at a row's last key tile, is accumulator /
  normalizer of the carried state there.
-/
import proofs.«169443_j85478439125336_2_alg».proof.Proof.Gen.KernelIdeal.Frame
import proofs.«169443_j85478439125336_2_alg».proof.Proof.Gen.KernelIdeal.Skeleton
import Idealize.ShloMosaic.Lib.Pipeline.Value
import proofs.«169443_j85478439125336_2_alg».proof.Proof.BodyDefs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val % 4 ≤ t.val / 4 % 4 :=
  (by decide +kernel : ∀ t : Fin grid0.N, k0_cond2 (grid0.coords t) = 1#1 ↔ t.val % 4 ≤ t.val / 4 % 4)
theorem hcond3 : ∀ t : Fin cfg0.N, k0_cond3 (grid0.coords t) = 1#1 ↔ t.val / 4 % 4 < t.val % 4 :=
  (by decide +kernel : ∀ t : Fin grid0.N, k0_cond3 (grid0.coords t) = 1#1 ↔ t.val / 4 % 4 < t.val % 4)
theorem hcond4 : ∀ t : Fin cfg0.N, k0_cond4 (grid0.coords t) = 1#1 ↔ t.val % 4 = 3 :=
  (by decide +kernel : ∀ t : Fin grid0.N, k0_cond4 (grid0.coords t) = 1#1 ↔ t.val % 4 = 3)

/-- The update and the fill exclude each other and one of them happens. -/
theorem hx (t : Fin cfg0.N) : k0_cond3 (grid0.coords t) = 1#1 ↔ ¬k0_cond2 (grid0.coords t) = 1#1 := by
  rw [hcond3, hcond2]; omega
/-- A row's first key tile is updated and is not the last. -/
theorem h1x (t : Fin cfg0.N) : cond1 (grid0.coords t) → k0_cond2 (grid0.coords t) = 1#1 ∧ ¬k0_cond4 (grid0.coords t) = 1#1 := by
  rw [hcond1, hcond2, hcond4]; omega

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The score window is stored into at every point. -/
theorem live5 : ∀ t : Fin cfg0.N, cfg0.idle 5 (grid0.coords t) = false :=
  (by decide +kernel : ∀ t : Fin grid0.N, cfg0.idle 5 (grid0.coords t) = false)
/-- The context window is stored into exactly at a row's last key tile, and written back exactly there. -/
theorem live4 : ∀ t : Fin cfg0.N, k0_cond4 (grid0.coords t) = 1#1 → cfg0.idle 4 (grid0.coords t) = false :=
  (by decide +kernel : ∀ t : Fin grid0.N, k0_cond4 (grid0.coords t) = 1#1 → cfg0.idle 4 (grid0.coords t) = false)
theorem idle4 : ∀ t : Fin cfg0.N, ¬k0_cond4 (grid0.coords t) = 1#1 → cfg0.idle 4 (grid0.coords t) = true :=
  (by decide +kernel : ∀ t : Fin grid0.N, ¬k0_cond4 (grid0.coords t) = 1#1 → cfg0.idle 4 (grid0.coords t) = true)
theorem noFlush4 : ∀ t : Fin cfg0.N, ¬k0_cond4 (grid0.coords t) = 1#1 → (cfg0.win 4).flush t = false :=
  (by decide +kernel : ∀ t : Fin grid0.N, ¬k0_cond4 (grid0.coords t) = 1#1 → win0_4.flush t = false)

/-! ## The memrefs the body is called with -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x512 .f32 := win0_5.stage (cfg0.slots t 5)
abbrev hs5 (t : Fin cfg0.N) : (ms5 t).IsWhole := hstage0_5 ((cfg0.slots t 5).cast nbuf0_5)
/-- The carried buffers: whole scoped buffers of the kernel's own. -/
abbrev scM0 : Memref sig .tc .vmem S512x1 .f32 := Memref.whole cc0_scratch0
abbrev scM1 : Memref sig .tc .vmem S512x1 .f32 := Memref.whole cc0_scratch1
abbrev scM2 : Memref sig .tc .vmem S512x64 .f32 := Memref.whole cc0_scratch2

/-- What the launch hands the region beside the windows: the three carried buffers at some contents, and the
    generator register. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The input blocks and the carried state -/

/-- The query, key, value and residual blocks at point `t`. -/
abbrev bQ (c : Dev nD) (t : Fin cfg0.N) : Vec F S1x512x64 .f32 := iblk m c 0 t
abbrev bK (c : Dev nD) (t : Fin cfg0.N) : Vec F S1x512x64 .f32 := iblk m c 1 t
abbrev bV (c : Dev nD) (t : Fin cfg0.N) : Vec F S1x512x64 .f32 := iblk m c 2 t
abbrev bP (c : Dev nD) (t : Fin cfg0.N) : Vec F S1x512x512 .f32 := iblk m c 3 t

/-- The carried buffers' contents: row maxima, normalizers, accumulator. -/
abbrev St (F : FTy → Type) := Vec F S512x1 .f32 × Vec F S512x1 .f32 × Vec F S512x64 .f32

/-- One point's action on the carried buffers. -/
def stNext (c : Dev nD) (t : Fin cfg0.N) (s : St F) : St F :=
  (mNext (grid0.coords t) (bQ m c t) (bK m c t) (bP m c t) s.1,
   lNext (grid0.coords t) (bQ m c t) (bK m c t) (bP m c t) s.1 s.2.1,
   aNext (grid0.coords t) (bQ m c t) (bK m c t) (bV m c t) (bP m c t) s.1 s.2.2)

/-- The carried buffers after point `n`. -/
def stAt (c : Dev nD) : (n : ℕ) → n < cfg0.N → St F
  | 0, h => stNext m c ⟨0, h⟩ (k0_pay1, k0_pay2, k0_pay3)
  | n + 1, h => stNext m c ⟨n + 1, h⟩ (stAt c n (Nat.lt_of_succ_lt h))

theorem stAt_pos (c : Dev nD) (t : Fin cfg0.N) (ht : t.val ≠ 0) :
    stAt m c t.val t.isLt = stNext m c t (stAt m c (t.val - 1) (Nat.lt_of_le_of_lt (Nat.sub_le _ _) t.isLt)) := by
  obtain ⟨n, hn⟩ := t
  cases n with
  | zero => exact absurd rfl ht
  | succ n => rfl

/-- At a row's first key tile the point's action does not depend on what the buffers held. -/
theorem stNext_reset (c : Dev nD) (t : Fin cfg0.N) (h : cond1 (grid0.coords t)) (s s' : St F) : stNext m c t s = stNext m c t s' := by
  unfold stNext mNext lNext aNext m1 l1 a1; simp only [if_pos h]

theorem stAt_zero (c : Dev nD) (t : Fin cfg0.N) (ht : t.val = 0) (s : St F) : stAt m c t.val t.isLt = stNext m c t s := by
  obtain ⟨n, hn⟩ := t
  cases n with
  | zero => exact stNext_reset m c ⟨0, hn⟩ ((hcond1 ⟨0, hn⟩).mpr rfl) _ _
  | succ n => exact absurd ht (Nat.succ_ne_zero n)

/-- The context block's staging buffer after a row's last key tile. -/
def ctxAt (c : Dev nD) (t : Fin cfg0.N) : Vec F S1x512x64 .f32 :=
  k0_pay8 (stAt m c t.val t.isLt).2.2 (stAt m c t.val t.isLt).2.1
/-- The score block's staging buffer after point `t`. -/
def scAt (c : Dev nD) (t : Fin cfg0.N) : Vec F S1x512x512 .f32 :=
  scNext (grid0.coords t) (bQ m c t) (bK m c t) (bP m c t) k0_pay7

/-- What the score buffer held before does not matter: every point stores the whole block. -/
theorem scAt_any (c : Dev nD) (t : Fin cfg0.N) (y : Vec F S1x512x512 .f32) :
    scAt m c t = scNext (grid0.coords t) (bQ m c t) (bK m c t) (bP m c t) y := by
  unfold scAt scNext
  by_cases h3 : k0_cond3 (grid0.coords t) = 1#1
  · rw [if_pos h3, if_pos h3]
  · have h2 : k0_cond2 (grid0.coords t) = 1#1 := by
      by_contra h; exact h3 ((hx t).mpr h)
    rw [if_neg h3, if_neg h3, if_pos h2, if_pos h2]

/-! ## The invariant and the proof data -/

/-- The region invariant before position `n`: before the first point what the launch hands over; afterwards the three
    carried buffers at what the point before left, and the generator register. -/
def PhiS (c : Dev nD) : (n : ℕ) → n ≤ cfg0.N → sProp 𝕄
  | 0, _ => Pipeline.ΦA spec0 c
  | n + 1, hn => iprop(iprop(owns (c : Thread nD τ) scM0 fullShare (stAt m c n hn).1 ∗ owns (c : Thread nD τ) scM1 fullShare (stAt m c n hn).2.1 ∗ owns (c : Thread nD τ) scM2 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (stAt m c n hn).1 ∗ owns (c : Thread nD τ) scM1 fullShare (stAt m c n hn).2.1 ∗ owns (c : Thread nD τ) scM2 fullShare (stAt m c n hn).2.2) ∗ (∃ r, prngReg c r)) := rfl
theorem PhiS_pos (c : Dev nD) (n : ℕ) (h : n ≤ cfg0.N) (hz : n ≠ 0) :
    PhiS m c n h = iprop(iprop(owns (c : Thread nD τ) scM0 fullShare (stAt m c (n - 1) (by omega)).1 ∗ owns (c : Thread nD τ) scM1 fullShare (stAt m c (n - 1) (by omega)).2.1 ∗ owns (c : Thread nD τ) scM2 fullShare (stAt m c (n - 1) (by omega)).2.2) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ctxAt m c t
    | ⟨5, _⟩ => scAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = ctxAt m c t := by dsimp only [dats]
theorem after5 (c : Dev nD) (t : Fin cfg0.N) : (dats m 0 c).after 5 t = scAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Hand

end
-- ==== Proof.Oblig.lean ====
/-
  The body obligation of the pipeline, the run of @main, and the frame: at every grid point the body, handed the
  carried buffers at what the point before left and every window's staging buffer at what it then holds, leaves the
  carried buffers at this point's contents, the input blocks in place, the score block at this point's scores, and
  the context block either untouched (before a row's last key tile, where it is neither stored into nor written
  back) or at accumulator / normalizer (at the last key tile).
-/
import proofs.«169443_j85478439125336_2_alg».proof.Proof.Gen.KernelIdeal.Frame
import proofs.«169443_j85478439125336_2_alg».proof.Proof.Gen.KernelIdeal.Skeleton
import Idealize.ShloMosaic.Lib.Pipeline.Value
import proofs.«169443_j85478439125336_2_alg».proof.Proof.BodyRun
import proofs.«169443_j85478439125336_2_alg».proof.Proof.Track
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 5 t = owns (c : Thread nD τ) (ms5 t) fullShare ((dats m 0 c).after 5 t) from by
    unfold Dat.leavesExact; rw [live5 t], after5]
  by_cases h4 : k0_cond4 (grid0.coords t) = 1#1
  · -- a row's last key tile: the context block is stored
    have hz : t.val ≠ 0 := by have := (hcond4 t).mp h4; omega
    rw [show (dats m 0 c).leavesExact 4 t = owns (c : Thread nD τ) (ms4 t) fullShare ((dats m 0 c).after 4 t) from by
      unfold Dat.leavesExact; rw [live4 t h4], after4]
    rw [PhiS_castSucc m c t, PhiS_pos m c _ _ hz]
    unfold ctxAt
    rw [stAt_pos m c t hz]
    unfold stNext
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    rw [scAt_any m c t ((dats m 0 c).before 5 t d5)]
    iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]
    · unfold ctxNext; rw [if_pos h4]; iexact H4
    iexact H5
  · -- any other point: the context block is handed back untouched
    rw [Dat.leavesExact_idle (dats m 0 c) 4 t (idle4 t h4) (noFlush4 t h4)]
    by_cases hz : t.val = 0
    · rw [PhiS_castSucc m c t, PhiS_zero m c _ _ hz, PhiA0_eq]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩⟩
      rw [scAt_any m c t ((dats m 0 c).before 5 t d5), stAt_zero m c t hz (e0, e1, e2)]
      unfold stNext
      iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold ctxNext; rw [if_neg h4]; iexists _; iexact H4
      iexact H5
    · rw [PhiS_castSucc m c t, PhiS_pos m c _ _ hz]
      rw [stAt_pos m c t hz]
      unfold stNext
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      rw [scAt_any m c t ((dats m 0 c).before 5 t d5)]
      iapply (body_spec c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) scM2 (Memref.isWhole_whole _) (hx t) (h1x t) (bQ m c t) (bK m c t) (bV m c t) (bP m c t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold ctxNext; rw [if_neg h4]; iexists _; iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, and ends with every array of the pipeline at what the proof data
    gives it and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.LibOnlineSoftmax.lean ====
/-
  A softmax-weighted sum accumulated tile by tile with a running maximum (the "online" form) equals the
  softmax-weighted sum taken at once, over the extended reals.

  The columns of one row come in `T` tiles of `n`.  Tile `j` has scores `S j k` (each `-∞` or a real) and
  values `V j k` (reals).  The running state is a triple (largest score so far, normalizer, accumulator),
  started at (-∞, 0, 0); a tile updates it by

      m' = max m (max_k s k),   α = exp (m - m'),
      l' = α · l + ∑ k, exp (s k - m'),     a' = α · a + ∑ k, exp (s k - m') · v k.

  If tile 0 holds a real score and the tiles after `J` are all `-∞`, then after tile `J` the quotient
  a / l is  ∑ j k, (exp (S j k - M) / Z) · V j k  with  M = max S  and  Z = ∑ exp (S - M), the sums and the maximum
  over ALL tiles: the masked tiles contribute exp (-∞) = 0.
-/
import Mathlib
import Idealize.ShloMosaic.PureOps.Ideal

noncomputable section

open scoped BigOperators

namespace Cert.Attn.Online

open Idealize.ShloMosaic

/-- One tile's update of (running maximum, normalizer, accumulator). -/
def step {n : ℕ} (s v : Fin n → EReal) (st : EReal × EReal × EReal) : EReal × EReal × EReal :=
  (max st.1 (Finset.univ.sup s),
   Ideal.exp (st.1 - max st.1 (Finset.univ.sup s)) * st.2.1 + ∑ k, Ideal.exp (s k - max st.1 (Finset.univ.sup s)),
   Ideal.exp (st.1 - max st.1 (Finset.univ.sup s)) * st.2.2 + ∑ k, Ideal.exp (s k - max st.1 (Finset.univ.sup s)) * v k)

/-- The state after tiles `0 … j`. -/
def run {T n : ℕ} (S V : Fin T → Fin n → EReal) : (j : ℕ) → j < T → EReal × EReal × EReal
  | 0, h => step (S ⟨0, h⟩) (V ⟨0, h⟩) (⊥, 0, 0)
  | j + 1, h => step (S ⟨j + 1, h⟩) (V ⟨j + 1, h⟩) (run S V j (Nat.lt_of_succ_lt h))

/-- The real weight of a score relative to `μ`: the real whose coercion is `exp (s - μ)` when `s` is `-∞` or real,
    namely `0` at `-∞` and `Real.exp (x - μ)` at the real `x`. -/
def w (s : EReal) (μ : ℝ) : ℝ := (Ideal.exp (s - (μ : EReal))).toReal

/-- `exp (-∞ - μ) = 0`: a masked score has weight `0`. -/
theorem w_bot (μ : ℝ) : w ⊥ μ = 0 := by
  unfold w
  rw [EReal.bot_sub, Ideal.exp_bot, EReal.toReal_zero]

/-- At a real score `x` the weight is `Real.exp (x - μ)`. -/
theorem w_coe (x μ : ℝ) : w (x : EReal) μ = Real.exp (x - μ) := by
  unfold w
  rw [← EReal.coe_sub, Ideal.exp_coe, EReal.toReal_coe]

/-- For a score that is `-∞` or real, `exp (s - μ)` is the coercion of its real weight. -/
theorem exp_sub_coe {s : EReal} (hs : s = ⊥ ∨ ∃ x : ℝ, s = (x : EReal)) (μ : ℝ) :
    Ideal.exp (s - (μ : EReal)) = ((w s μ : ℝ) : EReal) := by
  rcases hs with rfl | ⟨x, rfl⟩
  · rw [w_bot, EReal.bot_sub, Ideal.exp_bot, EReal.coe_zero]
  · rw [w_coe, ← EReal.coe_sub, Ideal.exp_coe]

/-- Moving the reference point from `μ` to `μ'`: `exp (μ - μ') · exp (s - μ) = exp (s - μ')`. -/
theorem w_rescale {s : EReal} (hs : s = ⊥ ∨ ∃ x : ℝ, s = (x : EReal)) (μ μ' : ℝ) :
    Real.exp (μ - μ') * w s μ = w s μ' := by
  rcases hs with rfl | ⟨x, rfl⟩
  · rw [w_bot, w_bot, mul_zero]
  · rw [w_coe, w_coe, ← Real.exp_add]
    congr 1
    ring

/-- Weights are nonnegative. -/
theorem w_nonneg {s : EReal} (hs : s = ⊥ ∨ ∃ x : ℝ, s = (x : EReal)) (μ : ℝ) : 0 ≤ w s μ := by
  rcases hs with rfl | ⟨x, rfl⟩
  · rw [w_bot]
  · rw [w_coe]
    exact (Real.exp_pos _).le

/-- The score equal to the reference point has weight `exp 0 = 1`. -/
theorem w_self (μ : ℝ) : w (μ : EReal) μ = 1 := by
  rw [w_coe, sub_self, Real.exp_zero]

/-- The coercion of reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · rw [Finset.sum_empty, Finset.sum_empty, EReal.coe_zero]
  · intro a t ha ih
    rw [Finset.sum_insert ha, Finset.sum_insert ha, EReal.coe_add, ih]

/-- A sum over the tiles with index `≤ 0` is the single term of tile `0`. -/
theorem sum_guard_zero {T : ℕ} (f : Fin T → ℝ) (h : 0 < T) :
    (∑ j' : Fin T, if j'.val ≤ 0 then f j' else 0) = f ⟨0, h⟩ := by
  rw [Finset.sum_eq_single (⟨0, h⟩ : Fin T)]
  · rw [if_pos (le_refl _)]
  · intro b _ hb
    have hb' : ¬ b.val ≤ 0 := by
      intro hle
      exact hb (Fin.ext (Nat.le_zero.mp hle))
    rw [if_neg hb']
  · intro h'
    exact absurd (Finset.mem_univ _) h'

/-- A sum over the tiles with index `≤ j + 1` is the sum over those with index `≤ j` plus the term of tile `j + 1`. -/
theorem sum_guard_succ {T : ℕ} (f : Fin T → ℝ) (j : ℕ) (h : j + 1 < T) :
    (∑ j' : Fin T, if j'.val ≤ j + 1 then f j' else 0)
      = (∑ j' : Fin T, if j'.val ≤ j then f j' else 0) + f ⟨j + 1, h⟩ := by
  have key : ∀ j' : Fin T, (if j'.val ≤ j + 1 then f j' else 0)
      = (if j'.val ≤ j then f j' else 0) + (if j' = (⟨j + 1, h⟩ : Fin T) then f j' else 0) := by
    intro j'
    by_cases h1 : j'.val ≤ j
    · have h2 : j'.val ≤ j + 1 := Nat.le_succ_of_le h1
      have h3 : j' ≠ (⟨j + 1, h⟩ : Fin T) := by
        intro e
        rw [e] at h1
        exact Nat.not_succ_le_self j h1
      rw [if_pos h1, if_pos h2, if_neg h3, add_zero]
    · by_cases h2 : j'.val = j + 1
      · have h3 : j' = (⟨j + 1, h⟩ : Fin T) := Fin.ext h2
        have h4 : j'.val ≤ j + 1 := le_of_eq h2
        rw [if_neg h1, if_pos h4, if_pos h3, zero_add]
      · have h3 : j' ≠ (⟨j + 1, h⟩ : Fin T) := by
          intro e
          apply h2
          rw [e]
        have h4 : ¬ j'.val ≤ j + 1 := by omega
        rw [if_neg h1, if_neg h4, if_neg h3, add_zero]
  rw [Finset.sum_congr rfl (fun j' _ => key j'), Finset.sum_add_distrib, Finset.sum_ite_eq', if_pos (Finset.mem_univ _)]

/-- Rescaling a guarded double sum term by term. -/
theorem mul_sum_guard {T n : ℕ} (c : ℝ) (F G : Fin T → Fin n → ℝ) (hFG : ∀ j k, c * F j k = G j k) (j : ℕ) :
    c * (∑ j' : Fin T, if j'.val ≤ j then ∑ k, F j' k else 0) = ∑ j' : Fin T, if j'.val ≤ j then ∑ k, G j' k else 0 := by
  rw [Finset.mul_sum]
  refine Finset.sum_congr rfl (fun j' _ => ?_)
  by_cases hj : j'.val ≤ j
  · rw [if_pos hj, if_pos hj, Finset.mul_sum]
    exact Finset.sum_congr rfl (fun k _ => hFG j' k)
  · rw [if_neg hj, if_neg hj, mul_zero]

/-- A finite supremum of scores that are `-∞` or real is not `+∞`. -/
theorem sup_ne_top {ι : Type*} (t : Finset ι) (s : ι → EReal) (hs : ∀ k, s k = ⊥ ∨ ∃ x : ℝ, s k = (x : EReal)) :
    t.sup s ≠ ⊤ := by
  have hlt : t.sup s < ⊤ := by
    rw [Finset.sup_lt_iff bot_lt_top]
    intro k _
    rcases hs k with h | ⟨x, h⟩
    · rw [h]
      exact bot_lt_top
    · rw [h]
      exact EReal.coe_lt_top x
  exact hlt.ne

/-- One update from a state whose normalizer `l` and accumulator `a` are real, when the new maximum is the real `μ'`
    and the rescaling factor `exp (m - μ')` is the real `c`: the new normalizer is `c · l + ∑ k, exp (s k - μ')` and
    the new accumulator `c · a + ∑ k, exp (s k - μ') · v k`, both real. -/
theorem step_coe {n : ℕ} (s v : Fin n → EReal) (hs : ∀ k, s k = ⊥ ∨ ∃ x : ℝ, s k = (x : EReal))
    (hv : ∀ k, ∃ y : ℝ, v k = (y : EReal)) (m : EReal) (l a c μ' : ℝ)
    (hm : max m (Finset.univ.sup s) = (μ' : EReal)) (hc : Ideal.exp (m - (μ' : EReal)) = (c : EReal)) :
    step s v (m, (l : EReal), (a : EReal))
      = ((μ' : EReal), ((c * l + ∑ k, w (s k) μ' : ℝ) : EReal),
          ((c * a + ∑ k, w (s k) μ' * (v k).toReal : ℝ) : EReal)) := by
  have hv' : ∀ k, v k = (((v k).toReal : ℝ) : EReal) := by
    intro k
    obtain ⟨y, hy⟩ := hv k
    rw [hy, EReal.toReal_coe]
  unfold step
  simp only [hm, hc]
  refine Prod.ext rfl (Prod.ext ?_ ?_)
  · show (c : EReal) * (l : EReal) + ∑ k, Ideal.exp (s k - (μ' : EReal)) = ((c * l + ∑ k, w (s k) μ' : ℝ) : EReal)
    have hsum : (∑ k, Ideal.exp (s k - (μ' : EReal))) = ∑ k, ((w (s k) μ' : ℝ) : EReal) :=
      Finset.sum_congr rfl (fun k _ => exp_sub_coe (hs k) μ')
    rw [EReal.coe_add, EReal.coe_mul, coe_finset_sum, hsum]
  · show (c : EReal) * (a : EReal) + ∑ k, Ideal.exp (s k - (μ' : EReal)) * v k
        = ((c * a + ∑ k, w (s k) μ' * (v k).toReal : ℝ) : EReal)
    have hsum : (∑ k, Ideal.exp (s k - (μ' : EReal)) * v k) = ∑ k, ((w (s k) μ' * (v k).toReal : ℝ) : EReal) := by
      refine Finset.sum_congr rfl (fun k _ => ?_)
      rw [exp_sub_coe (hs k) μ', EReal.coe_mul, ← hv' k]
    rw [EReal.coe_add, EReal.coe_mul, coe_finset_sum, hsum]

/-- The invariant of the tile-by-tile accumulation: after tiles `0 … j` the running maximum is a real `μ`, the largest
    score of those tiles (an upper bound that is attained), the normalizer is `∑ exp (S - μ)` and the accumulator
    `∑ exp (S - μ) · V`, the sums over those tiles (written as sums over all tiles guarded by `j' ≤ j`). -/
theorem run_inv {T n : ℕ} (S V : Fin T → Fin n → EReal)
    (hS : ∀ j k, S j k = ⊥ ∨ ∃ x : ℝ, S j k = (x : EReal))
    (hV : ∀ j k, ∃ y : ℝ, V j k = (y : EReal))
    (hT : 0 < T) (h0 : ∃ k, ∃ x : ℝ, S ⟨0, hT⟩ k = (x : EReal)) :
    ∀ (j : ℕ) (h : j < T), ∃ μ : ℝ,
      (run S V j h).1 = (μ : EReal) ∧
      (∀ (j' : Fin T) (k : Fin n), j'.val ≤ j → S j' k ≤ (μ : EReal)) ∧
      (∃ (j' : Fin T) (k : Fin n), j'.val ≤ j ∧ S j' k = (μ : EReal)) ∧
      (run S V j h).2.1 = ((∑ j' : Fin T, if j'.val ≤ j then ∑ k, w (S j' k) μ else 0 : ℝ) : EReal) ∧
      (run S V j h).2.2
        = ((∑ j' : Fin T, if j'.val ≤ j then ∑ k, w (S j' k) μ * (V j' k).toReal else 0 : ℝ) : EReal) := by
  obtain ⟨k0, x0, hk0⟩ := h0
  have hne : (Finset.univ : Finset (Fin n)).Nonempty := ⟨k0, Finset.mem_univ _⟩
  intro j
  induction j with
  | zero =>
    intro h
    -- the largest score of tile 0 is real: not +∞, and at least the real score the tile holds
    have htop : Finset.univ.sup (S ⟨0, h⟩) ≠ ⊤ := sup_ne_top _ _ (hS ⟨0, h⟩)
    have hbot : Finset.univ.sup (S ⟨0, h⟩) ≠ ⊥ := by
      intro hb
      have hle : S ⟨0, h⟩ k0 ≤ Finset.univ.sup (S ⟨0, h⟩) := Finset.le_sup (Finset.mem_univ k0)
      rw [hb, hk0] at hle
      exact EReal.coe_ne_bot x0 (le_bot_iff.mp hle)
    have hμ : Finset.univ.sup (S ⟨0, h⟩) = (((Finset.univ.sup (S ⟨0, h⟩)).toReal : ℝ) : EReal) :=
      (EReal.coe_toReal htop hbot).symm
    generalize (Finset.univ.sup (S ⟨0, h⟩)).toReal = μ0 at hμ
    have hrun : run S V 0 h = step (S ⟨0, h⟩) (V ⟨0, h⟩) (⊥, ((0 : ℝ) : EReal), ((0 : ℝ) : EReal)) := rfl
    have hstep := step_coe (S ⟨0, h⟩) (V ⟨0, h⟩) (hS _) (hV _) ⊥ 0 0 0 μ0
      ((max_eq_right bot_le).trans hμ) (by rw [EReal.bot_sub, Ideal.exp_bot, EReal.coe_zero])
    rw [hrun, hstep]
    refine ⟨μ0, rfl, ?_, ?_, ?_, ?_⟩
    · intro j' k hj'
      have hj0 : j' = (⟨0, h⟩ : Fin T) := Fin.ext (Nat.le_zero.mp hj')
      rw [hj0, ← hμ]
      exact Finset.le_sup (Finset.mem_univ k)
    · obtain ⟨k1, _, hk1⟩ := Finset.exists_mem_eq_sup Finset.univ hne (S ⟨0, h⟩)
      exact ⟨⟨0, h⟩, k1, le_refl _, hk1.symm.trans hμ⟩
    · show ((0 * 0 + ∑ k, w (S ⟨0, h⟩ k) μ0 : ℝ) : EReal) = _
      rw [sum_guard_zero (fun j' => ∑ k, w (S j' k) μ0) h, zero_mul, zero_add]
    · show ((0 * 0 + ∑ k, w (S ⟨0, h⟩ k) μ0 * (V ⟨0, h⟩ k).toReal : ℝ) : EReal) = _
      rw [sum_guard_zero (fun j' => ∑ k, w (S j' k) μ0 * (V j' k).toReal) h, zero_mul, zero_add]
  | succ j ih =>
    intro h
    obtain ⟨μ, hm, hbd, ⟨jw, kw, hjw, hw⟩, hl, ha⟩ := ih (Nat.lt_of_succ_lt h)
    -- the new maximum is real: not +∞, and at least the old real maximum
    have htop : max (μ : EReal) (Finset.univ.sup (S ⟨j + 1, h⟩)) ≠ ⊤ :=
      (max_lt (EReal.coe_lt_top μ) (lt_top_iff_ne_top.mpr (sup_ne_top _ _ (hS ⟨j + 1, h⟩)))).ne
    have hbot : max (μ : EReal) (Finset.univ.sup (S ⟨j + 1, h⟩)) ≠ ⊥ :=
      ((EReal.bot_lt_coe μ).trans_le (le_max_left _ _)).ne'
    have hμ : max (μ : EReal) (Finset.univ.sup (S ⟨j + 1, h⟩))
        = (((max (μ : EReal) (Finset.univ.sup (S ⟨j + 1, h⟩))).toReal : ℝ) : EReal) :=
      (EReal.coe_toReal htop hbot).symm
    generalize (max (μ : EReal) (Finset.univ.sup (S ⟨j + 1, h⟩))).toReal = μ' at hμ
    have hle : (μ : EReal) ≤ (μ' : EReal) := hμ ▸ le_max_left _ _
    have hrun : run S V (j + 1) h
        = step (S ⟨j + 1, h⟩) (V ⟨j + 1, h⟩) (run S V j (Nat.lt_of_succ_lt h)) := rfl
    have hst : run S V j (Nat.lt_of_succ_lt h)
        = ((μ : EReal), ((∑ j' : Fin T, if j'.val ≤ j then ∑ k, w (S j' k) μ else 0 : ℝ) : EReal),
            ((∑ j' : Fin T, if j'.val ≤ j then ∑ k, w (S j' k) μ * (V j' k).toReal else 0 : ℝ) : EReal)) :=
      Prod.ext hm (Prod.ext hl ha)
    have hstep := step_coe (S ⟨j + 1, h⟩) (V ⟨j + 1, h⟩) (hS _) (hV _) (μ : EReal)
      (∑ j' : Fin T, if j'.val ≤ j then ∑ k, w (S j' k) μ else 0)
      (∑ j' : Fin T, if j'.val ≤ j then ∑ k, w (S j' k) μ * (V j' k).toReal else 0)
      (Real.exp (μ - μ')) μ' hμ (by rw [← EReal.coe_sub, Ideal.exp_coe])
    rw [hrun, hst, hstep]
    refine ⟨μ', rfl, ?_, ?_, ?_, ?_⟩
    · intro j' k hj'
      rcases Nat.lt_or_ge j'.val (j + 1) with hlt | hge
      · exact (hbd j' k (Nat.lt_succ_iff.mp hlt)).trans hle
      · have hj1 : j' = (⟨j + 1, h⟩ : Fin T) := Fin.ext (le_antisymm hj' hge)
        rw [hj1, ← hμ]
        exact (Finset.le_sup (f := S ⟨j + 1, h⟩) (Finset.mem_univ k)).trans (le_max_right _ _)
    · rcases max_choice (μ : EReal) (Finset.univ.sup (S ⟨j + 1, h⟩)) with hc | hc
      · exact ⟨jw, kw, Nat.le_succ_of_le hjw, by rw [hw, ← hμ, hc]⟩
      · obtain ⟨k1, _, hk1⟩ := Finset.exists_mem_eq_sup Finset.univ hne (S ⟨j + 1, h⟩)
        exact ⟨⟨j + 1, h⟩, k1, le_refl _, by rw [← hk1, ← hc, ← hμ]⟩
    · show ((Real.exp (μ - μ') * (∑ j' : Fin T, if j'.val ≤ j then ∑ k, w (S j' k) μ else 0)
          + ∑ k, w (S ⟨j + 1, h⟩ k) μ' : ℝ) : EReal) = _
      rw [sum_guard_succ (fun j' => ∑ k, w (S j' k) μ') j h,
        mul_sum_guard (Real.exp (μ - μ')) (fun j' k => w (S j' k) μ) (fun j' k => w (S j' k) μ')
          (fun j' k => w_rescale (hS j' k) μ μ') j]
    · show ((Real.exp (μ - μ') * (∑ j' : Fin T, if j'.val ≤ j then ∑ k, w (S j' k) μ * (V j' k).toReal else 0)
          + ∑ k, w (S ⟨j + 1, h⟩ k) μ' * (V ⟨j + 1, h⟩ k).toReal : ℝ) : EReal) = _
      rw [sum_guard_succ (fun j' => ∑ k, w (S j' k) μ' * (V j' k).toReal) j h,
        mul_sum_guard (Real.exp (μ - μ')) (fun j' k => w (S j' k) μ * (V j' k).toReal)
          (fun j' k => w (S j' k) μ' * (V j' k).toReal)
          (fun j' k => by rw [← mul_assoc, w_rescale (hS j' k) μ μ']) j]

/-- The online quotient after tile `J` is the softmax-weighted sum over all tiles. -/
theorem run_eq_softmax {T n : ℕ} (S V : Fin T → Fin n → EReal) (J : ℕ) (hJ : J < T)
    (hS : ∀ j k, S j k = ⊥ ∨ ∃ x : ℝ, S j k = (x : EReal))
    (hmask : ∀ j : Fin T, J < j.val → ∀ k, S j k = ⊥)
    (h0 : ∃ k, ∃ x : ℝ, S ⟨0, Nat.lt_of_le_of_lt (Nat.zero_le J) hJ⟩ k = (x : EReal))
    (hV : ∀ j k, ∃ y : ℝ, V j k = (y : EReal)) :
    Ideal.div (run S V J hJ).2.2 (run S V J hJ).2.1
      = ∑ j, ∑ k, Ideal.div (Ideal.exp (S j k - Finset.univ.sup fun j' => Finset.univ.sup fun k' => S j' k'))
          (∑ j', ∑ k', Ideal.exp (S j' k' - Finset.univ.sup fun j'' => Finset.univ.sup fun k'' => S j'' k'')) * V j k := by
  have hT : 0 < T := Nat.lt_of_le_of_lt (Nat.zero_le J) hJ
  obtain ⟨μ, _, hbd, ⟨jw, kw, _, hw⟩, hl, ha⟩ := run_inv S V hS hV hT h0 J hJ
  -- the largest score over all tiles is `μ`: the masked tiles are `-∞`, and `μ` is attained
  have hM : (Finset.univ.sup fun j' => Finset.univ.sup fun k' => S j' k') = (μ : EReal) := by
    apply le_antisymm
    · refine Finset.sup_le (fun j' _ => Finset.sup_le (fun k' _ => ?_))
      by_cases hj' : j'.val ≤ J
      · exact hbd j' k' hj'
      · rw [hmask j' (Nat.lt_of_not_le hj') k']
        exact bot_le
    · rw [← hw]
      exact (Finset.le_sup (f := fun k' => S jw k') (Finset.mem_univ kw)).trans
        (Finset.le_sup (f := fun j' => Finset.univ.sup fun k' => S j' k') (Finset.mem_univ jw))
  -- the masked tiles carry weight `0`, so the guard `j' ≤ J` may be dropped
  have hdrop : ∀ g : Fin T → Fin n → ℝ,
      (∑ j' : Fin T, if j'.val ≤ J then ∑ k, w (S j' k) μ * g j' k else 0) = ∑ j' : Fin T, ∑ k, w (S j' k) μ * g j' k := by
    intro g
    refine Finset.sum_congr rfl (fun j' _ => ?_)
    by_cases hj' : j'.val ≤ J
    · rw [if_pos hj']
    · rw [if_neg hj']
      symm
      refine Finset.sum_eq_zero (fun k _ => ?_)
      rw [hmask j' (Nat.lt_of_not_le hj') k, w_bot, zero_mul]
  have hL : (∑ j' : Fin T, if j'.val ≤ J then ∑ k, w (S j' k) μ else 0) = ∑ j' : Fin T, ∑ k, w (S j' k) μ := by
    have h1 := hdrop (fun _ _ => 1)
    simp only [mul_one] at h1
    exact h1
  have hA : (∑ j' : Fin T, if j'.val ≤ J then ∑ k, w (S j' k) μ * (V j' k).toReal else 0)
      = ∑ j' : Fin T, ∑ k, w (S j' k) μ * (V j' k).toReal := hdrop (fun j' k => (V j' k).toReal)
  -- the normalizer is positive: the largest entry contributes `exp 0 = 1`, the others are nonnegative
  have hζpos : 0 < ∑ j' : Fin T, ∑ k, w (S j' k) μ := by
    have h1 : w (S jw kw) μ = 1 := by rw [hw, w_self]
    have h2 : w (S jw kw) μ ≤ ∑ k, w (S jw k) μ :=
      Finset.single_le_sum (f := fun k => w (S jw k) μ) (fun k _ => w_nonneg (hS jw k) μ) (Finset.mem_univ kw)
    have h3 : (∑ k, w (S jw k) μ) ≤ ∑ j' : Fin T, ∑ k, w (S j' k) μ :=
      Finset.single_le_sum (f := fun j' => ∑ k, w (S j' k) μ)
        (fun j' _ => Finset.sum_nonneg (fun k _ => w_nonneg (hS j' k) μ)) (Finset.mem_univ jw)
    linarith
  have hZ : (∑ j', ∑ k', Ideal.exp (S j' k' - (μ : EReal))) = ((∑ j' : Fin T, ∑ k, w (S j' k) μ : ℝ) : EReal) := by
    rw [coe_finset_sum]
    refine Finset.sum_congr rfl (fun j' _ => ?_)
    rw [coe_finset_sum]
    exact Finset.sum_congr rfl (fun k _ => exp_sub_coe (hS j' k) μ)
  rw [hM, hZ, hl, ha, hL, hA, Ideal.div_coe hζpos.ne']
  -- both sides are now coercions of real sums: (∑ e · y) · (1 / ζ) = ∑ (e · (1 / ζ)) · y
  rw [← EReal.coe_mul, Finset.sum_mul, coe_finset_sum]
  refine Finset.sum_congr rfl (fun j _ => ?_)
  rw [Finset.sum_mul, coe_finset_sum]
  refine Finset.sum_congr rfl (fun k _ => ?_)
  obtain ⟨y, hy⟩ := hV j k
  rw [Ideal.div_coe hζpos.ne', exp_sub_coe (hS j k) μ, hy, EReal.toReal_coe, ← EReal.coe_mul, ← EReal.coe_mul]
  congr 1
  ring

/-- Tile `j`, column `k` of a row of `T * n` columns. -/
def tile {T n : ℕ} (f : Fin (T * n) → EReal) (j : Fin T) (k : Fin n) : EReal := f (finProdFinEquiv (j, k))

/-- The same over a row of `T * n` columns laid out tile after tile. -/
theorem run_eq_softmax_flat {T n : ℕ} (f g : Fin (T * n) → EReal) (J : ℕ) (hJ : J < T)
    (hf : ∀ c, f c = ⊥ ∨ ∃ x : ℝ, f c = (x : EReal))
    (hmask : ∀ (j : Fin T) (k : Fin n), J < j.val → tile f j k = ⊥)
    (h0 : ∃ k, ∃ x : ℝ, tile f ⟨0, Nat.lt_of_le_of_lt (Nat.zero_le J) hJ⟩ k = (x : EReal))
    (hg : ∀ c, ∃ y : ℝ, g c = (y : EReal)) :
    Ideal.div (run (tile f) (tile g) J hJ).2.2 (run (tile f) (tile g) J hJ).2.1
      = ∑ c, Ideal.div (Ideal.exp (f c - Finset.univ.sup f)) (∑ c', Ideal.exp (f c' - Finset.univ.sup f)) * g c := by
  have hS : ∀ j k, tile f j k = ⊥ ∨ ∃ x : ℝ, tile f j k = (x : EReal) := fun j k => hf _
  have hV : ∀ j k, ∃ y : ℝ, tile g j k = (y : EReal) := fun j k => hg _
  have hmask' : ∀ j : Fin T, J < j.val → ∀ k, tile f j k = ⊥ := fun j hj k => hmask j k hj
  rw [run_eq_softmax (tile f) (tile g) J hJ hS hmask' h0 hV]
  simp only [tile]
  -- the largest score over tiles and columns is the largest score of the row
  have hsup : (Finset.univ.sup fun j' : Fin T => Finset.univ.sup fun k' : Fin n => f (finProdFinEquiv (j', k')))
      = Finset.univ.sup f := by
    apply le_antisymm
    · exact Finset.sup_le (fun j' _ => Finset.sup_le (fun k' _ => Finset.le_sup (Finset.mem_univ _)))
    · refine Finset.sup_le (fun c _ => ?_)
      have hc : f c = f (finProdFinEquiv ((finProdFinEquiv.symm c).1, (finProdFinEquiv.symm c).2)) := by
        rw [Prod.mk.eta, Equiv.apply_symm_apply]
      rw [hc]
      exact (Finset.le_sup (f := fun k' : Fin n => f (finProdFinEquiv ((finProdFinEquiv.symm c).1, k')))
          (Finset.mem_univ _)).trans
        (Finset.le_sup (f := fun j' : Fin T => Finset.univ.sup fun k' : Fin n => f (finProdFinEquiv (j', k')))
          (Finset.mem_univ _))
  -- a sum over tiles and columns is the sum over the row
  have hsum : ∀ F : Fin (T * n) → EReal, (∑ j : Fin T, ∑ k : Fin n, F (finProdFinEquiv (j, k))) = ∑ c, F c := by
    intro F
    exact (Fintype.sum_prod_type (fun p : Fin T × Fin n => F (finProdFinEquiv p))).symm.trans
      (Equiv.sum_comp finProdFinEquiv F)
  rw [hsup, hsum (fun c => Ideal.exp (f c - Finset.univ.sup f))]
  exact hsum (fun c => Ideal.div (Ideal.exp (f c - Finset.univ.sup f)) (∑ c', Ideal.exp (f c' - Finset.univ.sup f)) * g c)

end Cert.Attn.Online

end
-- ==== Proof.LibMatmulLastAxes.lean ====
/-
  A matrix product that contracts the LAST axis of both operands, read at an entry, at the ideal values.

  The tiled kernels' product of an [M, K] block of activations with an [N, K] block of weights (one weight row per
  output feature: the right operand is NOT transposed first; the dimension numbers contract axis 1 of both) into a
  zero accumulator is, at entry (r, c), the plain sum over d of  l[r, d] · w[c, d]:  at the ideal values no rounding,
  no chunk order and no accumulator are left.  Stated for every M, K, N over the library's record of these dimension
  numbers; a printed record of the same seven lists is that record by definitional unfolding (its well-formedness field
  is a proof).
-/
import Idealize.ShloMosaic.PureOps.Ideal.Laws
import Idealize.ShloMosaic.Lib.ValueIdx

open scoped BigOperators

namespace Cert.LibMatmulLastAxes

open Idealize.ShloMosaic Idealize.ShloMosaic.ValueIdx

/-- A matrix product contracting the last axis of both operands, into the zero accumulator, at (r, c): the sum over
    d of l[r, d] · w[c, d]. -/
theorem matmul_lastAxes_zero_apply {M K N : Nat} {φ₁ φ₂ : FTy} (prec : Option ContractPrecision)
    (l : FVec Ideal ⟨2, ![M, K]⟩ φ₁) (w : FVec Ideal ⟨2, ![N, K]⟩ φ₂) (r : Fin M) (c : Fin N) :
    FloatOps.matmul (DotDims.transposedRhs M K N) prec l w (constant ⟨2, ![M, N]⟩ .f32 0x00000000#32) (ix2 r c)
      = ∑ d : Fin K, l (ix2 r d) * w (ix2 c d) := by
  rw [Ideal.matmul_constant_zero_apply]
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun d _ => ?_
  have hd := contrEquiv1_symm_val (DotDims.transposedRhs M K N) K hr hs d
  congr 1
  · refine congrArg l (funext fun a => Fin.ext ?_)
    match a with
    | ⟨0, _⟩ => rfl
    | ⟨1, _⟩ => exact ((DotDims.transposedRhs M K N).lhsIdx_val_of_single rfl _ _).trans hd
  · refine congrArg w (funext fun a => Fin.ext ?_)
    match a with
    | ⟨0, _⟩ => rfl
    | ⟨1, _⟩ => exact ((DotDims.transposedRhs M K N).rhsIdx_val_of_single rfl _ _).trans hd

end Cert.LibMatmulLastAxes
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.PayRead.lean ====
/-
  The body's arithmetic read one entry at a time, at the ideal instance (floats are extended reals).

  For the grid point's query tile `qi` and key tile `ki`, row `r` and column `k` of the tile, the masked scaled score is

      tsc r k = -∞                                          if 512·ki + k > 512·qi + r
              = (∑ d, q[r,d]·k[k,d]) · (1/8) + p[r,k]         otherwise,

  the reset values are -∞, 0, 0, the context block is accumulator / normalizer, and the update branch acts on each row's
  (largest score, normalizer, accumulator) as one step of the tile-by-tile softmax recursion on the tile's scores and
  one column of the value block.
-/
import proofs.«169443_j85478439125336_2_alg».proof.Proof.BodyDefs
import proofs.«169443_j85478439125336_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import proofs.«169443_j85478439125336_2_alg».proof.Proof.LibMatmulLastAxes
import proofs.«169443_j85478439125336_2_alg».proof.Proof.LibKeepdims

noncomputable section

open scoped BigOperators

namespace Cert.KernelIdeal.PayRead

open Cert.KernelIdeal Cert.KernelIdeal.Gen Cert.KernelIdeal.Hand
open Idealize.ShloMosaic Idealize.ShloMosaic.ValueIdx

/-- The tile's masked, scaled score with the residual term, at row `r` and column `k` of the tile. -/
def tsc (i : grid0.Coords) (xq xk : Vec Ideal S1x512x64 .f32) (xp : Vec Ideal S1x512x512 .f32) (r k : Fin 512) : EReal :=
  if 512 * (i 1).val + r.val < 512 * (i 2).val + k.val then ⊥
  else (∑ d : Fin 64, xq (ix3 (0 : Fin 1) r d) * xk (ix3 (0 : Fin 1) k d)) * ((1 / 8 : ℝ) : EReal) + xp (ix3 (0 : Fin 1) r k)

/-! ## The literals -/

/-- The word 0xFF800000 denotes -∞. -/
theorem ofBits_negInf : Ideal.ofBits .f32 0xFF800000#32 = (⊥ : EReal) := by
  simp [Ideal.ofBits, Ideal.ieee]

/-- The word 0x3E000000 denotes 1/8. -/
theorem ofBits_eighth : Ideal.ofBits .f32 0x3E000000#32 = ((1 / 8 : ℝ) : EReal) := by
  simp [Ideal.ofBits, Ideal.ieee, -EReal.coe_mul]; norm_num

/-! ## The causal mask on 32-bit words -/

/-- A tile's first position plus a position inside the tile, computed on 32-bit words, is the word of 512·a + b
    (a < 4, b < 512: no wrap-around). -/
theorem off_word (a b : Nat) (ha : a < 4) (hb : b < 512) :
    IntOp.addi (Scalar.muli (BitVec.ofNat 32 a) 512#32) (BitVec.ofNat 32 b) = BitVec.ofNat 32 (512 * a + b) := by
  apply BitVec.eq_of_toNat_eq
  simp only [IntOp.addi, Scalar.muli, IntOp.muli, BitVec.toNat_add, BitVec.toNat_mul, BitVec.toNat_ofNat]
  omega

/-- A 32-bit word of a natural below 2048 is that natural as a signed integer. -/
theorem toInt_small (n : Nat) (hn : n < 2048) : (BitVec.ofNat 32 n).toInt = (n : Int) := by
  rw [BitVec.toInt_eq_toNat_of_lt (by rw [BitVec.toNat_ofNat]; omega), BitVec.toNat_ofNat]
  omega

/-- The signed comparison "key position > query position" on the words is the comparison of the positions. -/
theorem mask_bit (qi ki : Nat) (hq : qi < 4) (hk : ki < 4) (r k : Fin 512) :
    IntOp.cmpi .sgt (IntOp.addi (Scalar.muli (BitVec.ofNat 32 ki) 512#32) (BitVec.ofNat 32 k.val))
        (IntOp.addi (Scalar.muli (BitVec.ofNat 32 qi) 512#32) (BitVec.ofNat 32 r.val))
      = if 512 * qi + r.val < 512 * ki + k.val then 1#1 else 0#1 := by
  rw [off_word ki k.val hk k.isLt, off_word qi r.val hq r.isLt]
  unfold IntOp.cmpi
  simp only [BitVec.slt, toInt_small _ (show 512 * qi + r.val < 2048 by have := r.isLt; omega),
    toInt_small _ (show 512 * ki + k.val < 2048 by have := k.isLt; omega)]
  by_cases h : 512 * qi + r.val < 512 * ki + k.val
  · rw [if_pos h, decide_eq_true (by exact_mod_cast h)]; rfl
  · rw [if_neg h, decide_eq_false (by exact_mod_cast h)]; rfl

/-- The mask vector at (r, k): the bit 1 exactly when the key position is past the query position. -/
theorem mask_at (i : grid0.Coords) (r k : Fin 512) :
    cmpi .sgt (addi (broadcast S512x512 (koff i)) (iota .tc S512x512 32 [1] iota_S512x512_d1_w32))
        (addi (broadcast S512x512 (qoff i)) (iota .tc S512x512 32 [0] iota_S512x512_d0_w32)) (ix2 r k)
      = if 512 * (i 1).val + r.val < 512 * (i 2).val + k.val then 1#1 else 0#1 := by
  show IntOp.cmpi .sgt (IntOp.addi (koff i) (iota .tc S512x512 32 [1] iota_S512x512_d1_w32 (ix2 r k)))
      (IntOp.addi (qoff i) (iota .tc S512x512 32 [0] iota_S512x512_d0_w32 (ix2 r k))) = _
  rw [iota_single_apply, iota_single_apply]
  exact mask_bit (i 1).val (i 2).val (i 1).isLt (i 2).isLt r k

/-! ## The two products -/

/-- The query-key product at (r, k): the sum over the features of q[r, d] · k[k, d]. -/
theorem qk_at (xq xk : FVec Ideal S1x512x64 .f32) (r k : Fin 512) :
    matmul dot_S512x64_S512x64_S512x512_1_1_0_0_n_n none (shapeCast S512x64 xq shapeCasts_S1x512x64_S512x64)
        (shapeCast S512x64 xk shapeCasts_S1x512x64_S512x64) (constant (F := Ideal) S512x512 .f32 0x00000000#32) (ix2 r k)
      = ∑ d : Fin 64, xq (ix3 (0 : Fin 1) r d) * xk (ix3 (0 : Fin 1) k d) := by
  refine (Cert.LibMatmulLastAxes.matmul_lastAxes_zero_apply none _ _ r k).trans ?_
  refine Finset.sum_congr rfl fun d _ => ?_
  rw [shapeCast_1ab_ab_apply, shapeCast_1ab_ab_apply]

theorem pay1_at (j : S512x1.Idx) : k0_pay1 (F := Ideal) j = ⊥ := by
  unfold k0_pay1
  simp only [shapeCast_self]
  exact ofBits_negInf
theorem pay2_at (j : S512x1.Idx) : k0_pay2 (F := Ideal) j = 0 := by
  unfold k0_pay2
  simp only [shapeCast_self]
  exact Ideal.ofBits_zero_f32
theorem pay3_at (j : S512x64.Idx) : k0_pay3 (F := Ideal) j = 0 := by
  unfold k0_pay3
  simp only [shapeCast_self]
  exact Ideal.ofBits_zero_f32
theorem pay7_at (j : S1x512x512.Idx) : k0_pay7 (F := Ideal) j = ⊥ := by
  obtain ⟨u, r, k, rfl⟩ : ∃ (u : Fin 1) (r k : Fin 512), j = ix3 u r k := ⟨j 0, j 1, j 2, eq_ix3 j⟩
  unfold k0_pay7
  simp only [shapeCast_ab_1ab_apply]
  exact ofBits_negInf

theorem pay10_at (i : grid0.Coords) (xq xk : Vec Ideal S1x512x64 .f32) (xp : Vec Ideal S1x512x512 .f32) (r k : Fin 512) :
    k0_pay10 (F := Ideal) (qoff i) (koff i) xq xk xp (ix2 r k) = tsc i xq xk xp r k := by
  unfold k0_pay10
  simp only [select_apply, addf_apply, mulf_apply, broadcast_apply, qk_at, shapeCast_1ab_ab_apply]
  rw [mask_at i r k]
  unfold tsc
  by_cases h : 512 * (i 1).val + r.val < 512 * (i 2).val + k.val
  · rw [if_pos h, if_pos h, select_one]
    exact ofBits_negInf
  · rw [if_neg h, if_neg h, select_zero]
    show _ * Ideal.ofBits .f32 0x3E000000#32 + _ = _
    rw [ofBits_eighth]

theorem pay11_at (i : grid0.Coords) (xq xk : Vec Ideal S1x512x64 .f32) (xp : Vec Ideal S1x512x512 .f32) (r k : Fin 512) :
    k0_pay11 (F := Ideal) (qoff i) (koff i) xq xk xp (ix3 (0 : Fin 1) r k) = tsc i xq xk xp r k := by
  unfold k0_pay11
  simp only [shapeCast_ab_1ab_apply]
  exact pay10_at i xq xk xp r k

theorem pay8_at (a : Vec Ideal S512x64 .f32) (l : Vec Ideal S512x1 .f32) (r : Fin 512) (d : Fin 64) :
    k0_pay8 (F := Ideal) a l (ix3 (0 : Fin 1) r d) = Ideal.div (a (ix2 r d)) (l (ix2 r (0 : Fin 1))) := by
  unfold k0_pay8
  simp only [shapeCast_ab_1ab_apply, divf_apply, Cert.LibKeepdims.broadcastTo_a1_ab_apply]

end Cert.KernelIdeal.PayRead

end
-- ==== Proof.Blocks.lean ====
/-
  Where each window's block at a grid point sits in its array.  The grid is [16, 4, 4]: point t stands for the
  merged batch-and-head coordinate t / 16, the query block t / 4 mod 4 and the key step t mod 4.  The query block and
  the first output's block are the 512 rows from 512 · (t / 4 mod 4); the key and value blocks are the 512 rows from
  512 · min (t mod 4) (t / 4 mod 4) (past the diagonal the key step stays on the diagonal block); the residual-score
  block has those rows and those columns; the second output's block has the query block's rows and the 512 columns
  from 512 · (t mod 4).  A coordinate of a block's entry in the array is the block index times the block's extent plus
  the coordinate inside the block.  The blocks written back cover the two output arrays.
-/
import proofs.«169443_j85478439125336_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! ## The grid's points -/

/-- Point `t` of the [16, 4, 4] grid has coordinates (t / 16, t / 4 mod 4, t mod 4). -/
theorem coords_facts : ∀ t : Fin cfg0.N, (grid0.coords t 0).val = t.val / 16 ∧ (grid0.coords t 1).val = t.val / 4 % 4
    ∧ (grid0.coords t 2).val = t.val % 4 :=
  (by decide +kernel : ∀ t : Fin grid0.N, (grid0.coords t 0).val = t.val / 16 ∧ (grid0.coords t 1).val = t.val / 4 % 4
    ∧ (grid0.coords t 2).val = t.val % 4)

/-! ## The windows' block indices, decided over the grid -/

/-- The query window's block index at point `t`: (t / 16, t / 4 mod 4, 0). -/
theorem idxQ : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, win0_0.index t (0 : Fin 3) = t.val / 16 ∧ win0_0.index t (1 : Fin 3) = t.val / 4 % 4
    ∧ win0_0.index t (2 : Fin 3) = 0)

/-- The key window's: (t / 16, min (t mod 4) (t / 4 mod 4), 0). -/
theorem idxK : ∀ t : Fin cfg0.N, win0_1.index t (0 : Fin 3) = t.val / 16
    ∧ win0_1.index t (1 : Fin 3) = min (t.val % 4) (t.val / 4 % 4) ∧ win0_1.index t (2 : Fin 3) = 0 :=
  (by decide +kernel : ∀ t : Fin grid0.N, win0_1.index t (0 : Fin 3) = t.val / 16
    ∧ win0_1.index t (1 : Fin 3) = min (t.val % 4) (t.val / 4 % 4) ∧ win0_1.index t (2 : Fin 3) = 0)

/-- The value window's: the same. -/
theorem idxV : ∀ t : Fin cfg0.N, win0_2.index t (0 : Fin 3) = t.val / 16
    ∧ win0_2.index t (1 : Fin 3) = min (t.val % 4) (t.val / 4 % 4) ∧ win0_2.index t (2 : Fin 3) = 0 :=
  (by decide +kernel : ∀ t : Fin grid0.N, win0_2.index t (0 : Fin 3) = t.val / 16
    ∧ win0_2.index t (1 : Fin 3) = min (t.val % 4) (t.val / 4 % 4) ∧ win0_2.index t (2 : Fin 3) = 0)

/-- The residual-score window's: (t / 16, t / 4 mod 4, min (t mod 4) (t / 4 mod 4)). -/
theorem idxP : ∀ t : Fin cfg0.N, win0_3.index t (0 : Fin 3) = t.val / 16 ∧ win0_3.index t (1 : Fin 3) = t.val / 4 % 4
    ∧ win0_3.index t (2 : Fin 3) = min (t.val % 4) (t.val / 4 % 4) :=
  (by decide +kernel : ∀ t : Fin grid0.N, win0_3.index t (0 : Fin 3) = t.val / 16 ∧ win0_3.index t (1 : Fin 3) = t.val / 4 % 4
    ∧ win0_3.index t (2 : Fin 3) = min (t.val % 4) (t.val / 4 % 4))

/-- The first output window's: (t / 16, t / 4 mod 4, 0). -/
theorem idxO : ∀ t : Fin cfg0.N, win0_4.index t (0 : Fin 3) = t.val / 16 ∧ win0_4.index t (1 : Fin 3) = t.val / 4 % 4
    ∧ win0_4.index t (2 : Fin 3) = 0 :=
  (by decide +kernel : ∀ t : Fin grid0.N, win0_4.index t (0 : Fin 3) = t.val / 16 ∧ win0_4.index t (1 : Fin 3) = t.val / 4 % 4
    ∧ win0_4.index t (2 : Fin 3) = 0)

/-- The second output window's: (t / 16, t / 4 mod 4, t mod 4). -/
theorem idxS : ∀ t : Fin cfg0.N, win0_5.index t (0 : Fin 3) = t.val / 16 ∧ win0_5.index t (1 : Fin 3) = t.val / 4 % 4
    ∧ win0_5.index t (2 : Fin 3) = t.val % 4 :=
  (by decide +kernel : ∀ t : Fin grid0.N, win0_5.index t (0 : Fin 3) = t.val / 16 ∧ win0_5.index t (1 : Fin 3) = t.val / 4 % 4
    ∧ win0_5.index t (2 : Fin 3) = t.val % 4)

/-! ## The input blocks, read off the arrays

A block's coordinate on an axis is the block index times the block's extent there, plus the coordinate inside the block. -/

/-- Row `r`, feature `d` of the query block at point `t`. -/
theorem blkQ_at (m : (ℓ : Loc nD τ sig) → Buf (Elt F) ℓ) (c : Dev nD) (t : Fin cfg0.N) (r : Fin 512) (d : Fin 64) :
    (iblk m c 0 t : S1x512x64.Idx → Elt F .f32) (ix3 (0 : Fin 1) r d)
      = V m c main_v0 (ix3 (⟨t.val / 16, by have := t.isLt; have : cfg0.N = 256 := N_0; omega⟩ : Fin 16)
          (⟨512 * (t.val / 4 % 4) + r.val, by have := r.isLt; omega⟩ : Fin 2048) d) := by
  obtain ⟨e0, e1, e2⟩ := idxQ t
  show V m c main_v0 (((cfg0.win 0).blk t).view.emb (ix3 (0 : Fin 1) r d)) = _
  refine congrArg (V m c main_v0) (funext fun a => Fin.ext ?_)
  match a with
  | ⟨0, _⟩ => show win0_0.index t (0 : Fin 3) * 1 + 1 * 0 = t.val / 16; omega
  | ⟨1, _⟩ => show win0_0.index t (1 : Fin 3) * 512 + 1 * r.val = 512 * (t.val / 4 % 4) + r.val; omega
  | ⟨2, _⟩ => show win0_0.index t (2 : Fin 3) * 64 + 1 * d.val = d.val; omega

/-- Row `k`, feature `d` of the key block at point `t`. -/
theorem blkK_at (m : (ℓ : Loc nD τ sig) → Buf (Elt F) ℓ) (c : Dev nD) (t : Fin cfg0.N) (k : Fin 512) (d : Fin 64) :
    (iblk m c 1 t : S1x512x64.Idx → Elt F .f32) (ix3 (0 : Fin 1) k d)
      = V m c main_v1 (ix3 (⟨t.val / 16, by have := t.isLt; have : cfg0.N = 256 := N_0; omega⟩ : Fin 16)
          (⟨512 * min (t.val % 4) (t.val / 4 % 4) + k.val, by have := k.isLt; omega⟩ : Fin 2048) d) := by
  obtain ⟨e0, e1, e2⟩ := idxK t
  show V m c main_v1 (((cfg0.win 1).blk t).view.emb (ix3 (0 : Fin 1) k d)) = _
  refine congrArg (V m c main_v1) (funext fun a => Fin.ext ?_)
  match a with
  | ⟨0, _⟩ => show win0_1.index t (0 : Fin 3) * 1 + 1 * 0 = t.val / 16; omega
  | ⟨1, _⟩ => show win0_1.index t (1 : Fin 3) * 512 + 1 * k.val = 512 * min (t.val % 4) (t.val / 4 % 4) + k.val; omega
  | ⟨2, _⟩ => show win0_1.index t (2 : Fin 3) * 64 + 1 * d.val = d.val; omega

/-- Row `k`, feature `d` of the value block at point `t`. -/
theorem blkV_at (m : (ℓ : Loc nD τ sig) → Buf (Elt F) ℓ) (c : Dev nD) (t : Fin cfg0.N) (k : Fin 512) (d : Fin 64) :
    (iblk m c 2 t : S1x512x64.Idx → Elt F .f32) (ix3 (0 : Fin 1) k d)
      = V m c main_v2 (ix3 (⟨t.val / 16, by have := t.isLt; have : cfg0.N = 256 := N_0; omega⟩ : Fin 16)
          (⟨512 * min (t.val % 4) (t.val / 4 % 4) + k.val, by have := k.isLt; omega⟩ : Fin 2048) d) := by
  obtain ⟨e0, e1, e2⟩ := idxV t
  show V m c main_v2 (((cfg0.win 2).blk t).view.emb (ix3 (0 : Fin 1) k d)) = _
  refine congrArg (V m c main_v2) (funext fun a => Fin.ext ?_)
  match a with
  | ⟨0, _⟩ => show win0_2.index t (0 : Fin 3) * 1 + 1 * 0 = t.val / 16; omega
  | ⟨1, _⟩ => show win0_2.index t (1 : Fin 3) * 512 + 1 * k.val = 512 * min (t.val % 4) (t.val / 4 % 4) + k.val; omega
  | ⟨2, _⟩ => show win0_2.index t (2 : Fin 3) * 64 + 1 * d.val = d.val; omega

/-- Row `r`, column `k` of the residual-score block at point `t`. -/
theorem blkP_at (m : (ℓ : Loc nD τ sig) → Buf (Elt F) ℓ) (c : Dev nD) (t : Fin cfg0.N) (r k : Fin 512) :
    (iblk m c 3 t : S1x512x512.Idx → Elt F .f32) (ix3 (0 : Fin 1) r k)
      = V m c main_v3 (ix3 (⟨t.val / 16, by have := t.isLt; have : cfg0.N = 256 := N_0; omega⟩ : Fin 16)
          (⟨512 * (t.val / 4 % 4) + r.val, by have := r.isLt; omega⟩ : Fin 2048)
          (⟨512 * min (t.val % 4) (t.val / 4 % 4) + k.val, by have := k.isLt; omega⟩ : Fin 2048)) := by
  obtain ⟨e0, e1, e2⟩ := idxP t
  show V m c main_v3 (((cfg0.win 3).blk t).view.emb (ix3 (0 : Fin 1) r k)) = _
  refine congrArg (V m c main_v3) (funext fun a => Fin.ext ?_)
  match a with
  | ⟨0, _⟩ => show win0_3.index t (0 : Fin 3) * 1 + 1 * 0 = t.val / 16; omega
  | ⟨1, _⟩ => show win0_3.index t (1 : Fin 3) * 512 + 1 * r.val = 512 * (t.val / 4 % 4) + r.val; omega
  | ⟨2, _⟩ => show win0_3.index t (2 : Fin 3) * 512 + 1 * k.val = 512 * min (t.val % 4) (t.val / 4 % 4) + k.val; omega

/-! ## The output blocks inside their arrays -/

/-- Row `r`, feature `d` of the first output's block at point `t`, as an index of its array. -/
theorem emb4_at (t : Fin cfg0.N) (r : Fin 512) (d : Fin 64) :
    ((cfg0.win 4).blk t).view.emb (ix3 (0 : Fin 1) r d)
      = (ix3 (⟨t.val / 16, by have := t.isLt; have : cfg0.N = 256 := N_0; omega⟩ : Fin 16)
          (⟨512 * (t.val / 4 % 4) + r.val, by have := r.isLt; omega⟩ : Fin 2048) d : S16x2048x64.Idx) := by
  obtain ⟨e0, e1, e2⟩ := idxO t
  refine funext fun a => Fin.ext ?_
  match a with
  | ⟨0, _⟩ => show win0_4.index t (0 : Fin 3) * 1 + 1 * 0 = t.val / 16; omega
  | ⟨1, _⟩ => show win0_4.index t (1 : Fin 3) * 512 + 1 * r.val = 512 * (t.val / 4 % 4) + r.val; omega
  | ⟨2, _⟩ => show win0_4.index t (2 : Fin 3) * 64 + 1 * d.val = d.val; omega

/-- Row `r`, column `k` of the second output's block at point `t`, as an index of its array. -/
theorem emb5_at (t : Fin cfg0.N) (r k : Fin 512) :
    ((cfg0.win 5).blk t).view.emb (ix3 (0 : Fin 1) r k)
      = (ix3 (⟨t.val / 16, by have := t.isLt; have : cfg0.N = 256 := N_0; omega⟩ : Fin 16)
          (⟨512 * (t.val / 4 % 4) + r.val, by have := r.isLt; omega⟩ : Fin 2048)
          (⟨512 * (t.val % 4) + k.val, by have := k.isLt; omega⟩ : Fin 2048) : S16x2048x2048.Idx) := by
  obtain ⟨e0, e1, e2⟩ := idxS t
  refine funext fun a => Fin.ext ?_
  match a with
  | ⟨0, _⟩ => show win0_5.index t (0 : Fin 3) * 1 + 1 * 0 = t.val / 16; omega
  | ⟨1, _⟩ => show win0_5.index t (1 : Fin 3) * 512 + 1 * r.val = 512 * (t.val / 4 % 4) + r.val; omega
  | ⟨2, _⟩ => show win0_5.index t (2 : Fin 3) * 512 + 1 * k.val = 512 * (t.val % 4) + k.val; omega

/-- An index of the first output array is in point `t`'s block iff each coordinate is in the block's range. -/
theorem mem_blk4 (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v4_0).slice (win0_4.rect t)).set ↔ _
  rw [View.set_slice_whole, Rect.mem_set_unit]
  exact Iff.rfl

/-- An index of the second output array is in point `t`'s block iff each coordinate is in the block's range. -/
theorem mem_blk5 (t : Fin cfg0.N) (i : S16x2048x2048.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v4_1).slice (win0_5.rect t)).set ↔ _
  rw [View.set_slice_whole, Rect.mem_set_unit]
  exact Iff.rfl

/-- The same with the block index spelt out: (bh, row, feature) is in point `t`'s block of the first output iff
    bh = t / 16 and the row is in the 512 rows from 512 · (t / 4 mod 4). -/
theorem mem_blk4_iff (t : Fin cfg0.N) (i : S16x2048x64.Idx) :
    i ∈ ((cfg0.win 4).blk t).view.set ↔ (i 0).val = t.val / 16 ∧ 512 * (t.val / 4 % 4) ≤ (i 1).val
      ∧ (i 1).val < 512 * (t.val / 4 % 4) + 512 := by
  obtain ⟨e0, e1, e2⟩ := idxO t
  rw [mem_blk4]
  constructor
  · intro hi
    have b0 : win0_4.index t (0 : Fin 3) * 1 ≤ (i 0).val ∧ (i 0).val < win0_4.index t (0 : Fin 3) * 1 + 1 := hi 0
    have b1 : win0_4.index t (1 : Fin 3) * 512 ≤ (i 1).val ∧ (i 1).val < win0_4.index t (1 : Fin 3) * 512 + 512 := hi 1
    omega
  · intro hi a
    have h2 : (i 2).val < 64 := (i 2).isLt
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 512 ≤ (i 1).val ∧ (i 1).val < win0_4.index t (1 : Fin 3) * 512 + 512; omega
    | ⟨2, _⟩ => show win0_4.index t (2 : Fin 3) * 64 ≤ (i 2).val ∧ (i 2).val < win0_4.index t (2 : Fin 3) * 64 + 64; omega

/-- (bh, row, column) is in point `t`'s block of the second output iff bh = t / 16, the row is in the 512 rows from
    512 · (t / 4 mod 4) and the column in the 512 columns from 512 · (t mod 4). -/
theorem mem_blk5_iff (t : Fin cfg0.N) (i : S16x2048x2048.Idx) :
    i ∈ ((cfg0.win 5).blk t).view.set ↔ (i 0).val = t.val / 16 ∧ 512 * (t.val / 4 % 4) ≤ (i 1).val
      ∧ (i 1).val < 512 * (t.val / 4 % 4) + 512 ∧ 512 * (t.val % 4) ≤ (i 2).val ∧ (i 2).val < 512 * (t.val % 4) + 512 := by
  obtain ⟨e0, e1, e2⟩ := idxS t
  rw [mem_blk5]
  constructor
  · intro hi
    have b0 : win0_5.index t (0 : Fin 3) * 1 ≤ (i 0).val ∧ (i 0).val < win0_5.index t (0 : Fin 3) * 1 + 1 := hi 0
    have b1 : win0_5.index t (1 : Fin 3) * 512 ≤ (i 1).val ∧ (i 1).val < win0_5.index t (1 : Fin 3) * 512 + 512 := hi 1
    have b2 : win0_5.index t (2 : Fin 3) * 512 ≤ (i 2).val ∧ (i 2).val < win0_5.index t (2 : Fin 3) * 512 + 512 := hi 2
    omega
  · intro hi a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 512 ≤ (i 1).val ∧ (i 1).val < win0_5.index t (1 : Fin 3) * 512 + 512; omega
    | ⟨2, _⟩ => show win0_5.index t (2 : Fin 3) * 512 ≤ (i 2).val ∧ (i 2).val < win0_5.index t (2 : Fin 3) * 512 + 512; omega

/-! ## The flushed blocks cover the output arrays -/

/-- Every entry (bh, row, feature) of the first output array is in the block written back at the point
    16 · bh + 4 · (row / 512) + 3, the last key step of its query block. -/
theorem cover4 (c : Dev nD) : ∀ i : ((cfg0.win 4).arr.view.loc (c.tc : Thread nD τ)).2.ty.Idx,
    ∃ t : Fin cfg0.N, (cfg0.win 4).flush t = true ∧ i ∈ ((cfg0.win 4).blk t).view.set := by
  intro i
  change S16x2048x64.Idx at i
  have h0 : (i 0).val < 16 := (i 0).isLt
  have h1 : (i 1).val < 2048 := (i 1).isLt
  obtain ⟨t, ht⟩ : ∃ t : Fin cfg0.N, t.val = 16 * (i 0).val + 4 * ((i 1).val / 512) + 3 :=
    ⟨⟨16 * (i 0).val + 4 * ((i 1).val / 512) + 3, by have : cfg0.N = 256 := N_0; omega⟩, rfl⟩
  refine ⟨t, (flush0_4 t).2 (by omega), ?_⟩
  rw [mem_blk4_iff]
  omega

/-- Every entry (bh, row, column) of the second output array is in the block written back at the point
    16 · bh + 4 · (row / 512) + column / 512. -/
theorem cover5 (c : Dev nD) : ∀ i : ((cfg0.win 5).arr.view.loc (c.tc : Thread nD τ)).2.ty.Idx,
    ∃ t : Fin cfg0.N, (cfg0.win 5).flush t = true ∧ i ∈ ((cfg0.win 5).blk t).view.set := by
  intro i
  change S16x2048x2048.Idx at i
  have h0 : (i 0).val < 16 := (i 0).isLt
  have h1 : (i 1).val < 2048 := (i 1).isLt
  have h2 : (i 2).val < 2048 := (i 2).isLt
  obtain ⟨t, ht⟩ : ∃ t : Fin cfg0.N, t.val = 16 * (i 0).val + 4 * ((i 1).val / 512) + (i 2).val / 512 :=
    ⟨⟨16 * (i 0).val + 4 * ((i 1).val / 512) + (i 2).val / 512, by have : cfg0.N = 256 := N_0; omega⟩, rfl⟩
  refine ⟨t, flush0_5 t, ?_⟩
  rw [mem_blk5_iff]
  omega

end Cert.KernelIdeal.Blocks

end
-- ==== Proof.HostEnds.lean ====
/-
  The two ends of the kernel program around its one region.  Before the region the four arguments, of shape
  [2, 8, 2048, n], are reshaped to [16, 2048, n]: batch b and head h merge into the one coordinate 8·b + h, since
  both arrays list their entries in the same row-major order.  After the region the two arrays it wrote are
  reshaped back the same way.  So entry (8·b + h, r, d) of an array the region reads is entry (b, h, r, d) of the
  argument, and entry (b, h, r, d) of a result is entry (8·b + h, r, d) of the array the region wrote.
-/
import proofs.«169443_j85478439125336_2_alg».proof.Proof.Gen.KernelIdeal.Frame
import Idealize.ShloMosaic.Lib.Pipeline.Value
import Idealize.ShloMosaic.Lib.ValueIdx

noncomputable section

namespace Cert.KernelIdeal.HostEnds

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]

/-! ## The results after the region -/

/-- After the region the first result is the region's fourth array, reshaped. -/
theorem W_main_v5_fn (m : (ℓ : Loc nD τ sig) → Buf (Elt F) ℓ)
    (dats : (p : Fin 1) → (c : Dev nD) → Dat τ (Elt F) Unit ℕ (UR sig nD τ) ℕ (cfgs p) c) (c : Dev nD) :
    (Pipeline.afterTail₀ cfgs dats 0 (V0 m) [hostOps1] c main_v5 : S2x8x2048x64.Idx → Elt F .f32)
      = shapeCast S2x8x2048x64 ((dats 0 c).arrAt 4 cfg0.N : S16x2048x64.Idx → Elt F .f32) shapeCasts_S16x2048x64_S2x8x2048x64 := by
  unfold Pipeline.afterTail₀
  show StableHlo.after hostOps1 _ (Proc.devRef .tc main_v5) = _
  after_results
  rw [Pipeline.withArrays_arr spec0 launch0.win.arr_inj c _ _ 4]
  rfl

/-- After the region the second result is the region's fifth array, reshaped. -/
theorem W_main_v6_fn (m : (ℓ : Loc nD τ sig) → Buf (Elt F) ℓ)
    (dats : (p : Fin 1) → (c : Dev nD) → Dat τ (Elt F) Unit ℕ (UR sig nD τ) ℕ (cfgs p) c) (c : Dev nD) :
    (Pipeline.afterTail₀ cfgs dats 0 (V0 m) [hostOps1] c main_v6 : S2x8x2048x2048.Idx → Elt F .f32)
      = shapeCast S2x8x2048x2048 ((dats 0 c).arrAt 5 cfg0.N : S16x2048x2048.Idx → Elt F .f32) shapeCasts_S16x2048x2048_S2x8x2048x2048 := by
  unfold Pipeline.afterTail₀
  show StableHlo.after hostOps1 _ (Proc.devRef .tc main_v6) = _
  after_results
  rw [Pipeline.withArrays_arr spec0 launch0.win.arr_inj c _ _ 5]
  rfl

/-- Entry (b, h, r, d) of the first result is entry (8·b + h, r, d) of the region's fourth array: the two have the
    same row-major position. -/
theorem W_main_v5_at (m : (ℓ : Loc nD τ sig) → Buf (Elt F) ℓ)
    (dats : (p : Fin 1) → (c : Dev nD) → Dat τ (Elt F) Unit ℕ (UR sig nD τ) ℕ (cfgs p) c) (c : Dev nD)
    (b : Fin 2) (h : Fin 8) (r : Fin 2048) (d : Fin 64) :
    Pipeline.afterTail₀ cfgs dats 0 (V0 m) [hostOps1] c main_v5 (ix4 b h r d)
      = (dats 0 c).arrAt 4 cfg0.N (ix3 (⟨8 * b.val + h.val, by have := b.isLt; have := h.isLt; omega⟩ : Fin 16) r d) := by
  refine (congrFun (W_main_v5_fn m dats c) (ix4 b h r d)).trans ?_
  refine shapeCast_apply (s := S16x2048x64) (t := S2x8x2048x64) _ _ _ _ ?_
  rw [Shape.rowMajor_val_three, Shape.rowMajor_val_four]
  show ((8 * b.val + h.val) * 2048 + r.val) * 64 + d.val = ((b.val * 8 + h.val) * 2048 + r.val) * 64 + d.val
  omega

/-- Entry (b, h, r, k) of the second result is entry (8·b + h, r, k) of the region's fifth array. -/
theorem W_main_v6_at (m : (ℓ : Loc nD τ sig) → Buf (Elt F) ℓ)
    (dats : (p : Fin 1) → (c : Dev nD) → Dat τ (Elt F) Unit ℕ (UR sig nD τ) ℕ (cfgs p) c) (c : Dev nD)
    (b : Fin 2) (h : Fin 8) (r k : Fin 2048) :
    Pipeline.afterTail₀ cfgs dats 0 (V0 m) [hostOps1] c main_v6 (ix4 b h r k)
      = (dats 0 c).arrAt 5 cfg0.N (ix3 (⟨8 * b.val + h.val, by have := b.isLt; have := h.isLt; omega⟩ : Fin 16) r k) := by
  refine (congrFun (W_main_v6_fn m dats c) (ix4 b h r k)).trans ?_
  refine shapeCast_apply (s := S16x2048x2048) (t := S2x8x2048x2048) _ _ _ _ ?_
  rw [Shape.rowMajor_val_three, Shape.rowMajor_val_four]
  show ((8 * b.val + h.val) * 2048 + r.val) * 2048 + k.val = ((b.val * 8 + h.val) * 2048 + r.val) * 2048 + k.val
  omega

/-! ## The region's input arrays as the region finds them -/

/-- The region finds its first array as the query argument, reshaped. -/
theorem V_main_v0_fn (m : (ℓ : Loc nD τ sig) → Buf (Elt F) ℓ) (c : Dev nD) :
    (V m c main_v0 : S16x2048x64.Idx → Elt F .f32)
      = shapeCast S16x2048x64 (m ((c : Thread nD τ).loc main_arg0) : S2x8x2048x64.Idx → Elt F .f32) shapeCasts_S2x8x2048x64_S16x2048x64 := by
  show StableHlo.after hostOps0 (fun b => m (c, b)) (Proc.devRef .tc main_v0) = _
  after_results
  rfl

/-- The region finds its second array as the key argument, reshaped. -/
theorem V_main_v1_fn (m : (ℓ : Loc nD τ sig) → Buf (Elt F) ℓ) (c : Dev nD) :
    (V m c main_v1 : S16x2048x64.Idx → Elt F .f32)
      = shapeCast S16x2048x64 (m ((c : Thread nD τ).loc main_arg1) : S2x8x2048x64.Idx → Elt F .f32) shapeCasts_S2x8x2048x64_S16x2048x64 := by
  show StableHlo.after hostOps0 (fun b => m (c, b)) (Proc.devRef .tc main_v1) = _
  after_results
  rfl

/-- The region finds its third array as the value argument, reshaped. -/
theorem V_main_v2_fn (m : (ℓ : Loc nD τ sig) → Buf (Elt F) ℓ) (c : Dev nD) :
    (V m c main_v2 : S16x2048x64.Idx → Elt F .f32)
      = shapeCast S16x2048x64 (m ((c : Thread nD τ).loc main_arg2) : S2x8x2048x64.Idx → Elt F .f32) shapeCasts_S2x8x2048x64_S16x2048x64 := by
  show StableHlo.after hostOps0 (fun b => m (c, b)) (Proc.devRef .tc main_v2) = _
  after_results
  rfl

/-- The region finds its fourth array as the residual-score argument, reshaped. -/
theorem V_main_v3_fn (m : (ℓ : Loc nD τ sig) → Buf (Elt F) ℓ) (c : Dev nD) :
    (V m c main_v3 : S16x2048x2048.Idx → Elt F .f32)
      = shapeCast S16x2048x2048 (m ((c : Thread nD τ).loc main_arg3) : S2x8x2048x2048.Idx → Elt F .f32) shapeCasts_S2x8x2048x2048_S16x2048x2048 := by
  show StableHlo.after hostOps0 (fun b => m (c, b)) (Proc.devRef .tc main_v3) = _
  after_results
  rfl

/-- A [2, 8, 2048, n] array reshaped to [16, 2048, n], read at (8·b + h, r, d), is its entry (b, h, r, d): the two
    have the same row-major position. -/
theorem merge_heads_64 {α : Type} (x : S2x8x2048x64.Idx → α) (hc : S2x8x2048x64.ShapeCasts S16x2048x64)
    (b : Fin 2) (h : Fin 8) (r : Fin 2048) (d : Fin 64) :
    shapeCast S16x2048x64 x hc (ix3 (⟨8 * b.val + h.val, by have := b.isLt; have := h.isLt; omega⟩ : Fin 16) r d)
      = x (ix4 b h r d) := by
  refine shapeCast_apply (s := S2x8x2048x64) (t := S16x2048x64) _ _ _ _ ?_
  rw [Shape.rowMajor_val_three, Shape.rowMajor_val_four]
  show ((b.val * 8 + h.val) * 2048 + r.val) * 64 + d.val = ((8 * b.val + h.val) * 2048 + r.val) * 64 + d.val
  omega

theorem merge_heads_2048 {α : Type} (x : S2x8x2048x2048.Idx → α) (hc : S2x8x2048x2048.ShapeCasts S16x2048x2048)
    (b : Fin 2) (h : Fin 8) (r k : Fin 2048) :
    shapeCast S16x2048x2048 x hc (ix3 (⟨8 * b.val + h.val, by have := b.isLt; have := h.isLt; omega⟩ : Fin 16) r k)
      = x (ix4 b h r k) := by
  refine shapeCast_apply (s := S2x8x2048x2048) (t := S16x2048x2048) _ _ _ _ ?_
  rw [Shape.rowMajor_val_three, Shape.rowMajor_val_four]
  show ((b.val * 8 + h.val) * 2048 + r.val) * 2048 + k.val = ((8 * b.val + h.val) * 2048 + r.val) * 2048 + k.val
  omega

/-- Entry (8·b + h, r, d) of the region's first array is the query argument's entry (b, h, r, d). -/
theorem V_main_v0_at (m : (ℓ : Loc nD τ sig) → Buf (Elt F) ℓ) (c : Dev nD) (b : Fin 2) (h : Fin 8) (r : Fin 2048) (d : Fin 64) :
    V m c main_v0 (ix3 (⟨8 * b.val + h.val, by have := b.isLt; have := h.isLt; omega⟩ : Fin 16) r d)
      = m ((c : Thread nD τ).loc main_arg0) (ix4 b h r d) :=
  (congrFun (V_main_v0_fn m c) _).trans (merge_heads_64 _ _ b h r d)

/-- Entry (8·b + h, r, d) of the region's second array is the key argument's entry (b, h, r, d). -/
theorem V_main_v1_at (m : (ℓ : Loc nD τ sig) → Buf (Elt F) ℓ) (c : Dev nD) (b : Fin 2) (h : Fin 8) (r : Fin 2048) (d : Fin 64) :
    V m c main_v1 (ix3 (⟨8 * b.val + h.val, by have := b.isLt; have := h.isLt; omega⟩ : Fin 16) r d)
      = m ((c : Thread nD τ).loc main_arg1) (ix4 b h r d) :=
  (congrFun (V_main_v1_fn m c) _).trans (merge_heads_64 _ _ b h r d)

/-- Entry (8·b + h, r, d) of the region's third array is the value argument's entry (b, h, r, d). -/
theorem V_main_v2_at (m : (ℓ : Loc nD τ sig) → Buf (Elt F) ℓ) (c : Dev nD) (b : Fin 2) (h : Fin 8) (r : Fin 2048) (d : Fin 64) :
    V m c main_v2 (ix3 (⟨8 * b.val + h.val, by have := b.isLt; have := h.isLt; omega⟩ : Fin 16) r d)
      = m ((c : Thread nD τ).loc main_arg2) (ix4 b h r d) :=
  (congrFun (V_main_v2_fn m c) _).trans (merge_heads_64 _ _ b h r d)

/-- Entry (8·b + h, r, k) of the region's fourth array is the residual-score argument's entry (b, h, r, k). -/
theorem V_main_v3_at (m : (ℓ : Loc nD τ sig) → Buf (Elt F) ℓ) (c : Dev nD) (b : Fin 2) (h : Fin 8) (r k : Fin 2048) :
    V m c main_v3 (ix3 (⟨8 * b.val + h.val, by have := b.isLt; have := h.isLt; omega⟩ : Fin 16) r k)
      = m ((c : Thread nD τ).loc main_arg3) (ix4 b h r k) :=
  (congrFun (V_main_v3_fn m c) _).trans (merge_heads_2048 _ _ b h r k)

end Cert.KernelIdeal.HostEnds

end
-- ==== Proof.Spec.lean ====
/-
  Causal attention with a residual score term, as one function of the four argument arrays over the
  extended reals.  For a batch entry `b`, a head `h`, a query row `r` and a key column `c`:

    score r c   = -∞                                        if c > r   (the causal mask)
                = (∑ d, Q[r,d] · K[c,d]) · (1/8) + P[r,c]   otherwise  (1/8 = 1/√64)

  and, with  M r = max_c score r c,  e r c = exp (score r c - M r),  Z r = ∑ c, e r c:

    context r d = ∑ c, (e r c / Z r) · V[c,d].

  The second result is the score array itself.  Both programs are compared against these two functions.
-/
import Idealize.ShloMosaic.PureOps.Ideal
import Idealize.ShloMosaic.Lib.ValueIdx

noncomputable section

open scoped BigOperators

namespace Cert.Attn

open Idealize.ShloMosaic Idealize.ShloMosaic.ValueIdx

/-- The shape of the query, key and value arrays: batch, head, position, feature. -/
abbrev SQ : Shape := ⟨4, ![2, 8, 2048, 64]⟩
/-- The shape of the score arrays: batch, head, query position, key position. -/
abbrev SP : Shape := ⟨4, ![2, 8, 2048, 2048]⟩

variable (Q K V : SQ.Idx → EReal) (P : SP.Idx → EReal)

/-- The masked score of key column `c` for query row `r`. -/
def score (b : Fin 2) (h : Fin 8) (r c : Fin 2048) : EReal :=
  if r.val < c.val then ⊥
  else (∑ d : Fin 64, Q (ix4 b h r d) * K (ix4 b h c d)) * ((1 / 8 : ℝ) : EReal) + P (ix4 b h r c)

/-- A row's largest score. -/
def rowMax (b : Fin 2) (h : Fin 8) (r : Fin 2048) : EReal :=
  Finset.univ.sup fun c : Fin 2048 => score Q K P b h r c

/-- The exponential of a score less its row's largest. -/
def expo (b : Fin 2) (h : Fin 8) (r c : Fin 2048) : EReal :=
  Ideal.exp (score Q K P b h r c - rowMax Q K P b h r)

/-- A row's normalizer. -/
def rowSum (b : Fin 2) (h : Fin 8) (r : Fin 2048) : EReal :=
  ∑ c : Fin 2048, expo Q K P b h r c

/-- The score array: the second result. -/
def scores (i : SP.Idx) : EReal := score Q K P (i 0) (i 1) (i 2) (i 3)

/-- The attention-weighted values: the first result. -/
def context (i : SQ.Idx) : EReal :=
  ∑ c : Fin 2048, Ideal.div (expo Q K P (i 0) (i 1) (i 2) c) (rowSum Q K P (i 0) (i 1) (i 2)) * V (ix4 (i 0) (i 1) c (i 3))

end Cert.Attn

end
-- ==== Proof.ScoresValue.lean ====
/-
  The score array the kernel leaves is the specification's.  At grid point t = 16·bh + 4·qi + ki the score block the
  body stores is -∞ everywhere when the key tile is past the diagonal (qi < ki: every column 512·ki + k is beyond every
  row 512·qi + r), and otherwise the tile's masked scaled scores with the residual term, whose mask compares the very
  row 512·qi + r and column 512·ki + k the specification's does.  Every point writes its block back, the blocks cover
  the array, and the reshape after the region splits the merged coordinate 8·b + h back into batch b and head h.
-/
import proofs.«169443_j85478439125336_2_alg».proof.Proof.Track
import proofs.«169443_j85478439125336_2_alg».proof.Proof.PayRead
import proofs.«169443_j85478439125336_2_alg».proof.Proof.Blocks
import proofs.«169443_j85478439125336_2_alg».proof.Proof.HostEnds
import proofs.«169443_j85478439125336_2_alg».proof.Proof.Spec

set_option maxRecDepth 16384

noncomputable section

open scoped BigOperators

namespace Cert.KernelIdeal.ScoresValue

open Cert.KernelIdeal Cert.KernelIdeal.Gen Cert.KernelIdeal.Hand Cert.KernelIdeal.PayRead
open Idealize.ShloMosaic Idealize.ShloMosaic.TcCoe Idealize.SL.Sem Idealize.ShloMosaic.ValueIdx
open Idealize.ShloMosaic.Pipeline (Dat)

/-! ## One tile's scores -/

/-- A tile's masked, scaled score at row `r`, column `k` is the specification's score at the row 512·qi + r and the
    column 512·ki + k, when the tile's blocks are the arrays' entries there. -/
theorem tile_score (Q K : Cert.Attn.SQ.Idx → EReal) (P : Cert.Attn.SP.Idx → EReal)
    (xq xk : Vec Ideal S1x512x64 .f32) (xp : Vec Ideal S1x512x512 .f32) (i : grid0.Coords)
    (b : Fin 2) (h : Fin 8) (qi ki : Nat) (hq : qi < 4) (hk : ki < 4) (hi1 : (i 1).val = qi) (hi2 : (i 2).val = ki)
    (r k : Fin 512)
    (hxq : ∀ d : Fin 64, xq (ix3 (0 : Fin 1) r d) = Q (ix4 b h (⟨512 * qi + r.val, by have := r.isLt; omega⟩ : Fin 2048) d))
    (hxk : ∀ d : Fin 64, xk (ix3 (0 : Fin 1) k d) = K (ix4 b h (⟨512 * ki + k.val, by have := k.isLt; omega⟩ : Fin 2048) d))
    (hxp : xp (ix3 (0 : Fin 1) r k) = P (ix4 b h (⟨512 * qi + r.val, by have := r.isLt; omega⟩ : Fin 2048)
      (⟨512 * ki + k.val, by have := k.isLt; omega⟩ : Fin 2048))) :
    tsc i xq xk xp r k = Cert.Attn.score Q K P b h (⟨512 * qi + r.val, by have := r.isLt; omega⟩ : Fin 2048)
      (⟨512 * ki + k.val, by have := k.isLt; omega⟩ : Fin 2048) := by
  unfold tsc Cert.Attn.score
  rw [hi1, hi2, hxp]
  simp only [hxq, hxk]

/-! ## The region's arrays at a merged batch-and-head coordinate -/

section
variable (m : (ℓ : Loc nD τ sig) → Buf (Elt Ideal) ℓ) (c : Dev nD)

/-- The merged coordinate bh is 8 · (bh / 8) + bh mod 8. -/
theorem split_bh (bh : Fin 16) :
    bh = (⟨8 * (⟨bh.val / 8, by have := bh.isLt; omega⟩ : Fin 2).val + (⟨bh.val % 8, by omega⟩ : Fin 8).val,
      by have := bh.isLt; show 8 * (bh.val / 8) + bh.val % 8 < 16; omega⟩ : Fin 16) :=
  Fin.ext (by show bh.val = 8 * (bh.val / 8) + bh.val % 8; omega)

/-- Entry (bh, row, d) of the region's query array is the query argument's entry (bh / 8, bh mod 8, row, d). -/
theorem Vq_at (bh : Fin 16) (row : Fin 2048) (d : Fin 64) :
    V m c main_v0 (ix3 bh row d) = m ((c : Thread nD τ).loc main_arg0)
      (ix4 (⟨bh.val / 8, by have := bh.isLt; omega⟩ : Fin 2) (⟨bh.val % 8, by omega⟩ : Fin 8) row d) :=
  (congrArg (fun x : Fin 16 => V m c main_v0 (ix3 x row d)) (split_bh bh)).trans
    (HostEnds.V_main_v0_at m c (⟨bh.val / 8, by have := bh.isLt; omega⟩ : Fin 2) (⟨bh.val % 8, by omega⟩ : Fin 8) row d)

/-- The same for the key array. -/
theorem Vk_at (bh : Fin 16) (row : Fin 2048) (d : Fin 64) :
    V m c main_v1 (ix3 bh row d) = m ((c : Thread nD τ).loc main_arg1)
      (ix4 (⟨bh.val / 8, by have := bh.isLt; omega⟩ : Fin 2) (⟨bh.val % 8, by omega⟩ : Fin 8) row d) :=
  (congrArg (fun x : Fin 16 => V m c main_v1 (ix3 x row d)) (split_bh bh)).trans
    (HostEnds.V_main_v1_at m c (⟨bh.val / 8, by have := bh.isLt; omega⟩ : Fin 2) (⟨bh.val % 8, by omega⟩ : Fin 8) row d)

/-- The same for the residual-score array. -/
theorem Vp_at (bh : Fin 16) (row col : Fin 2048) :
    V m c main_v3 (ix3 bh row col) = m ((c : Thread nD τ).loc main_arg3)
      (ix4 (⟨bh.val / 8, by have := bh.isLt; omega⟩ : Fin 2) (⟨bh.val % 8, by omega⟩ : Fin 8) row col) :=
  (congrArg (fun x : Fin 16 => V m c main_v3 (ix3 x row col)) (split_bh bh)).trans
    (HostEnds.V_main_v3_at m c (⟨bh.val / 8, by have := bh.isLt; omega⟩ : Fin 2) (⟨bh.val % 8, by omega⟩ : Fin 8) row col)

/-! ## The score array the region leaves -/

/-- The score array over the merged coordinate: entry (bh, r, k) is the specification's score for batch bh / 8, head
    bh mod 8, row r, column k, of the query, key and residual-score arguments. -/
def G5 : S16x2048x2048.Idx → EReal := fun i =>
  Cert.Attn.score (m ((c : Thread nD τ).loc main_arg0)) (m ((c : Thread nD τ).loc main_arg1)) (m ((c : Thread nD τ).loc main_arg3))
    (⟨(i 0).val / 8, by have : (i 0).val < 16 := (i 0).isLt; omega⟩ : Fin 2) (⟨(i 0).val % 8, by omega⟩ : Fin 8) (i 1) (i 2)

/-- The specification's score at explicit coordinates is `G5` there. -/
theorem G5_at (bh : Fin 16) (row col : Fin 2048) :
    G5 m c (ix3 bh row col) = Cert.Attn.score (m ((c : Thread nD τ).loc main_arg0)) (m ((c : Thread nD τ).loc main_arg1))
      (m ((c : Thread nD τ).loc main_arg3)) (⟨bh.val / 8, by have := bh.isLt; omega⟩ : Fin 2) (⟨bh.val % 8, by omega⟩ : Fin 8) row col := rfl

/-- What point `t` writes back into the score array is block `t` of `G5`. -/
theorem flushed5_eq (t : Fin cfg0.N) :
    (dats (F := Ideal) m 0 c).flushed 5 t = ((cfg0.win 5).blk t).view.read (Elt Ideal) (G5 m c) := by
  show (cfg0.win 5).cut (grid0.coords t) ((dats (F := Ideal) m 0 c).after 5 t) = _
  rw [after5]
  funext y
  change S1x512x512.Idx at y
  obtain ⟨u, r, k, rfl⟩ : ∃ (u : Fin 1) (r k : Fin 512), y = ix3 u r k := ⟨y 0, y 1, y 2, eq_ix3 y⟩
  obtain rfl : u = 0 := Subsingleton.elim _ _
  show scAt m c t (ix3 (0 : Fin 1) r k) = G5 m c (((cfg0.win 5).blk t).view.emb (ix3 (0 : Fin 1) r k))
  rw [Blocks.emb5_at, G5_at]
  have ht : t.val < 256 := by have := t.isLt; have : cfg0.N = 256 := N_0; omega
  obtain ⟨c0, c1, c2⟩ := Blocks.coords_facts t
  unfold scAt scNext
  by_cases h3 : k0_cond3 (grid0.coords t) = 1#1
  · rw [if_pos h3, pay7_at]
    have hlt := (hcond3 t).1 h3
    unfold Cert.Attn.score
    rw [if_pos (by show 512 * (t.val / 4 % 4) + r.val < 512 * (t.val % 4) + k.val; have := r.isLt; omega)]
  · have h2 : k0_cond2 (grid0.coords t) = 1#1 := by
      by_contra hn; exact h3 ((hx t).mpr hn)
    have hle := (hcond2 t).1 h2
    rw [if_neg h3, if_pos h2]
    refine (pay11_at (grid0.coords t) (bQ m c t) (bK m c t) (bP m c t) r k).trans ?_
    refine (tile_score (m ((c : Thread nD τ).loc main_arg0)) (m ((c : Thread nD τ).loc main_arg1)) (m ((c : Thread nD τ).loc main_arg3))
      (bQ m c t) (bK m c t) (bP m c t) (grid0.coords t)
      (⟨t.val / 16 / 8, by omega⟩ : Fin 2) (⟨t.val / 16 % 8, by omega⟩ : Fin 8)
      (t.val / 4 % 4) (min (t.val % 4) (t.val / 4 % 4)) (by omega) (by omega) c1 (by omega) r k
      (fun d => (Blocks.blkQ_at m c t r d).trans (Vq_at m c _ _ d))
      (fun d => (Blocks.blkK_at m c t k d).trans (Vk_at m c _ _ d))
      ((Blocks.blkP_at m c t r k).trans (Vp_at m c _ _ _))).trans ?_
    have e : (⟨512 * min (t.val % 4) (t.val / 4 % 4) + k.val, by have := k.isLt; omega⟩ : Fin 2048)
        = ⟨512 * (t.val % 4) + k.val, by have := k.isLt; omega⟩ := Fin.ext (by show 512 * min (t.val % 4) (t.val / 4 % 4) + k.val = 512 * (t.val % 4) + k.val; omega)
    rw [e]

/-- The score array after the run. -/
theorem final5 : (dats (F := Ideal) m 0 c).arrAt 5 cfg0.N = G5 m c :=
  (dats (F := Ideal) m 0 c).arrAt_eq_of_cover 5 (G5 m c) (fun t _ => flushed5_eq m c t) (Blocks.cover5 c)

/-- The kernel program's second result is the specification's score array of the query, key and residual-score
    arguments. -/
theorem out_scores :
    (Pipeline.afterTail₀ cfgs (dats (F := Ideal) m) 0 (V0 m) [hostOps1] c main_v6 : Cert.Attn.SP.Idx → EReal)
      = Cert.Attn.scores (m ((c : Thread nD τ).loc main_arg0)) (m ((c : Thread nD τ).loc main_arg1))
          (m ((c : Thread nD τ).loc main_arg3)) := by
  funext i
  obtain ⟨b, h, r, k, rfl⟩ : ∃ b h r k, i = ix4 b h r k := ⟨i 0, i 1, i 2, i 3, eq_ix4 i⟩
  refine (HostEnds.W_main_v6_at m (dats (F := Ideal) m) c b h r k).trans ?_
  rw [final5, G5_at]
  have hb : (⟨(⟨8 * b.val + h.val, by have := b.isLt; have := h.isLt; omega⟩ : Fin 16).val / 8, by
      have := b.isLt; have := h.isLt; show (8 * b.val + h.val) / 8 < 2; omega⟩ : Fin 2) = b :=
    Fin.ext (by have := h.isLt; show (8 * b.val + h.val) / 8 = b.val; omega)
  have hh : (⟨(⟨8 * b.val + h.val, by have := b.isLt; have := h.isLt; omega⟩ : Fin 16).val % 8, by
      show (8 * b.val + h.val) % 8 < 8; omega⟩ : Fin 8) = h :=
    Fin.ext (by have := h.isLt; show (8 * b.val + h.val) % 8 = h.val; omega)
  rw [hb, hh]
  rfl

end

end Cert.KernelIdeal.ScoresValue

end
-- ==== Proof.KernelValue.lean ====
/-
  The kernel program's run at the ideal instance, assembled: every weakly fair execution of @main terminates, and ends
  with the first result at the specification's attention-weighted values, the second at its score array, and the four
  arguments as launched.

  The run of @main leaves every buffer outside the pipeline's windows at what the host lines after the region compute
  from the region's arrays.  Read at the two results, those are the specification's two functions of the arguments (the
  score array by the score blocks' value; the context array by the hypothesis `hctx`, the context blocks' value); read
  at the four arguments, no line writes them.
-/
import proofs.«169443_j85478439125336_2_alg».proof.Proof.Oblig
import proofs.«169443_j85478439125336_2_alg».proof.Proof.ScoresValue
import proofs.«169443_j85478439125336_2_alg».proof.Proof.Spec

noncomputable section

namespace Cert.KernelIdeal.KernelValue

open Cert.KernelIdeal Cert.KernelIdeal.Gen Cert.KernelIdeal.Hand
open Idealize.ShloMosaic Idealize.ShloMosaic.TcCoe Idealize.SL.Sem

/-- The context blocks' value, as a statement: for argument arrays whose every entry is a real, what the host lines
    after the region leave in the first result is the specification's attention-weighted values of the arguments. -/
def ContextValueHyp : Prop :=
  ∀ (m : (ℓ : Loc nD τ sig) → Buf (Elt Ideal) ℓ) (c : Dev nD),
    (∀ i : Cert.Attn.SQ.Idx, ∃ y : ℝ, m ((c : Thread nD τ).loc main_arg0) i = (y : EReal)) →
    (∀ i : Cert.Attn.SQ.Idx, ∃ y : ℝ, m ((c : Thread nD τ).loc main_arg1) i = (y : EReal)) →
    (∀ i : Cert.Attn.SQ.Idx, ∃ y : ℝ, m ((c : Thread nD τ).loc main_arg2) i = (y : EReal)) →
    (∀ i : Cert.Attn.SP.Idx, ∃ y : ℝ, m ((c : Thread nD τ).loc main_arg3) i = (y : EReal)) →
    (Pipeline.afterTail₀ cfgs (Hand.dats (F := Ideal) m) 0 (V0 m) [hostOps1] c main_v5 : Cert.Attn.SQ.Idx → EReal)
      = Cert.Attn.context (m ((c : Thread nD τ).loc main_arg0)) (m ((c : Thread nD τ).loc main_arg1))
          (m ((c : Thread nD τ).loc main_arg2)) (m ((c : Thread nD τ).loc main_arg3))

/-- The kernel program's run: both results at the specification's functions of the arguments, the arguments unchanged. -/
theorem kernel_run (m : (ℓ : Loc nD τ sig) → Buf (Elt Ideal) ℓ) (ρ : Dev nD → PrngReg)
    (hctx : ∀ c : Dev nD,
      (Pipeline.afterTail₀ cfgs (Hand.dats (F := Ideal) m) 0 (V0 m) [hostOps1] c main_v5 : Cert.Attn.SQ.Idx → EReal)
        = Cert.Attn.context (m ((c.tc : Thread nD τ).loc main_arg0)) (m ((c.tc : Thread nD τ).loc main_arg1))
            (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v5)
          = Cert.Attn.context (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = Cert.Attn.scores (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (hctx c),
      ((h c).2 main_v6 (Pipeline.mem_restRefs_of main_v6 (by decide) (by decide))).trans (ScoresValue.out_scores m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (Hand.run_main (F := Ideal) m ρ)

/-- The same from the context blocks' value and the arguments' finiteness. -/
theorem kernel_run_of_finite (hout : ContextValueHyp) (m : (ℓ : Loc nD τ sig) → Buf (Elt Ideal) ℓ) (ρ : Dev nD → PrngReg)
    (h0 : ∀ (c : Dev nD) (i : Cert.Attn.SQ.Idx), ∃ y : ℝ, m ((c : Thread nD τ).loc main_arg0) i = (y : EReal))
    (h1 : ∀ (c : Dev nD) (i : Cert.Attn.SQ.Idx), ∃ y : ℝ, m ((c : Thread nD τ).loc main_arg1) i = (y : EReal))
    (h2 : ∀ (c : Dev nD) (i : Cert.Attn.SQ.Idx), ∃ y : ℝ, m ((c : Thread nD τ).loc main_arg2) i = (y : EReal))
    (h3 : ∀ (c : Dev nD) (i : Cert.Attn.SP.Idx), ∃ y : ℝ, m ((c : Thread nD τ).loc main_arg3) i = (y : EReal)) :
    θ_run (defs (F := Ideal)) (onTc (τ := τ) (main (F := Ideal))) ⟨m, fun _ => 0, ρ⟩ (fun r => ∀ c : Dev nD,
      r.2.mem ((c.tc : Thread nD τ).loc main_v5)
          = Cert.Attn.context (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = Cert.Attn.scores (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kernel_run m ρ (fun c => hout m c (h0 c) (h1 c) (h2 c) (h3 c))

end Cert.KernelIdeal.KernelValue

end
-- ==== Proof.RefIsSpec.lean ====
/-
  The reference's two results, read one operation at a time, are the specification's two functions of the
  argument arrays.

  Each operation of the reference is a stage; read at an index (b, h, r, c) the stages compose as follows.
  The mask bit is 1 exactly when r < c (a signed comparison of 32-bit words of positions below 2048), so the
  masked score is -∞ above the diagonal and (∑ d, Q[r,d] · K[c,d]) · (1/8) + P[r,c] on and below it: division by the
  real 8 is the product with 1/8.  The row maximum is a fold of the binary maximum from -∞ along the last axis,
  which is the supremum over the row, and the later maximum with -∞ changes nothing.  The exponential stage
  subtracts that maximum; the row sum starts from the zero word, which adds nothing; the weight is the quotient
  of the two; and the last contraction sums weight times value over the key positions.
-/
import proofs.«169443_j85478439125336_2_alg».proof.Proof.Gen.ReferenceIdeal.Run
import proofs.«169443_j85478439125336_2_alg».proof.Proof.Gen.ReferenceIdeal.Read
import proofs.«169443_j85478439125336_2_alg».proof.Proof.Spec

noncomputable section

open scoped BigOperators

namespace Cert.Attn.Ref

open Idealize.ShloMosaic Idealize.ShloMosaic.ValueIdx Cert.ReferenceIdeal Cert.ReferenceIdeal.Gen Cert.ReferenceIdeal.Read

/-! ## The literals -/

/-- The word 0x41000000 denotes the real 8. -/
theorem ofBits_eight : Ideal.ofBits .f32 0x41000000#32 = ((8 : ℝ) : EReal) := by
  simp [Ideal.ofBits, Ideal.ieee, -EReal.coe_mul]; norm_num

/-- The word 0xFF800000 denotes -∞. -/
theorem ofBits_negInf : Ideal.ofBits .f32 0xFF800000#32 = (⊥ : EReal) := by
  simp [Ideal.ofBits, Ideal.ieee]

/-! ## The causal mask -/

/-- A 32-bit word of a natural below 2048 is that natural as a signed integer. -/
theorem toInt_small (n : Nat) (hn : n < 2048) : (BitVec.ofNat 32 n).toInt = (n : Int) := by
  rw [BitVec.toInt_eq_toNat_of_lt (by rw [BitVec.toNat_ofNat]; omega), BitVec.toNat_ofNat]
  omega

/-- On 32-bit words, for positions below 2048: the signed comparison "row + 0 ≥ column" is the bit 1 exactly
    when the column is at most the row. -/
theorem mask_bit (r c : Fin 2048) :
    IntOp.cmpi .sge (IntOp.addi (BitVec.ofNat 32 r.val) 0#32) (BitVec.ofNat 32 c.val)
      = if c.val ≤ r.val then 1#1 else 0#1 := by
  unfold IntOp.cmpi IntOp.addi
  simp only [BitVec.add_zero, BitVec.sle, toInt_small _ r.isLt, toInt_small _ c.isLt]
  by_cases hcr : c.val ≤ r.val
  · rw [if_pos hcr, decide_eq_true (by exact_mod_cast hcr)]; rfl
  · rw [if_neg hcr, decide_eq_false (by exact_mod_cast hcr)]; rfl

/-- The mask's bit: selecting 0 where "row ≥ column" and 1 elsewhere is the bit 1 exactly above the diagonal. -/
theorem mask_select (r c : Fin 2048) :
    Scalar.select (IntOp.cmpi .sge (IntOp.addi (BitVec.ofNat 32 r.val) 0#32) (BitVec.ofNat 32 c.val)) (0#1) (1#1)
      = if r.val < c.val then 1#1 else 0#1 := by
  rw [mask_bit]
  unfold Scalar.select
  by_cases hcr : c.val ≤ r.val
  · rw [if_pos hcr, if_pos (by decide), if_neg (by omega)]
  · rw [if_neg hcr, if_neg (by decide), if_pos (by omega)]

/-! ## The index maps at coordinates -/

/-- The third coordinate of (b, h, r, c) is r. -/
theorem coord2 (b : Fin 2) (h : Fin 8) (r c : Fin 2048) : (ix4 b h r c : S2x8x2048x2048.Idx) 2 = r := rfl

/-- The fourth coordinate of (b, h, r, c) is c. -/
theorem coord3 (b : Fin 2) (h : Fin 8) (r c : Fin 2048) : (ix4 b h r c : S2x8x2048x2048.Idx) 3 = c := rfl

theorem idx_mask (b : Fin 2) (h : Fin 8) (r c : Fin 2048) : idx_main_call1_v1 (ix4 b h r c) = ix2 r c :=
  funext fun a => Fin.ext (by match a with | ⟨0, _⟩ => rfl | ⟨1, _⟩ => rfl)

theorem lidx_v0 (b : Fin 2) (h : Fin 8) (r c : Fin 2048) (k : Fin 64) : lidx_main_v0 (ix4 b h r c) k = ix4 b h r k :=
  funext fun a => Fin.ext (by match a with | ⟨0, _⟩ => rfl | ⟨1, _⟩ => rfl | ⟨2, _⟩ => rfl | ⟨3, _⟩ => rfl)

theorem ridx_v0 (b : Fin 2) (h : Fin 8) (r c : Fin 2048) (k : Fin 64) : ridx_main_v0 (ix4 b h r c) k = ix4 b h c k :=
  funext fun a => Fin.ext (by match a with | ⟨0, _⟩ => rfl | ⟨1, _⟩ => rfl | ⟨2, _⟩ => rfl | ⟨3, _⟩ => rfl)

/-! ## The score array -/

/-- The masked-score stage at (b, h, r, c) is the specification's score. -/
theorem v6_at (x0 x1 : (⟨S2x8x2048x64, .f32⟩ : BufTy).Contents (Elt Ideal))
    (x3 : (⟨S2x8x2048x2048, .f32⟩ : BufTy).Contents (Elt Ideal)) (b : Fin 2) (h : Fin 8) (r c : Fin 2048) :
    val_main_v6 (F := Ideal) x0 x1 x3 (ix4 b h r c) = Cert.Attn.score x0 x1 x3 b h r c := by
  rw [val_main_v6_apply, val_main_call1_v1_apply, val_main_v5_apply, val_main_call0_v4_apply, val_main_call0_v2_apply,
    val_main_call0_v0_apply, val_main_call0_v1_apply, val_main_call0_c_apply, val_main_call0_v3_apply,
    val_main_call0_v5_apply, val_main_call0_c_0_apply, val_main_v4_apply, val_main_c_apply,
    val_main_call1_v2_apply, val_main_call1_v0_apply, val_main_cst_0_apply,
    val_main_v3_apply, val_main_v2_apply, val_main_v0_apply, val_main_v1_apply, val_main_cst_apply]
  simp only [idx_mask, lidx_v0, ridx_v0, coord2, coord3, mask_select, Ideal.ofBits_def, ofBits_eight, ofBits_negInf,
    Ideal.addf_def, Ideal.hostDivf_def]
  rw [Ideal.div_coe (by norm_num : (8 : ℝ) ≠ 0)]
  unfold Cert.Attn.score Scalar.select
  by_cases hrc : r.val < c.val
  · rw [if_pos hrc, if_pos hrc, if_pos (by decide)]
  · rw [if_neg hrc, if_neg hrc, if_neg (by decide)]

/-! ## The row maximum -/

/-- The score array reduces along its last axis to the row array. -/
theorem reduces_last : S2x8x2048x2048.Reduces [3] S2x8x2048 := by decide

/-- The row index (b, h, r) with the column `k` put back is (b, h, r, k). -/
theorem lift_ix3 (b : Fin 2) (h : Fin 8) (r : Fin 2048) (k : Fin (S2x8x2048x2048.size 3)) :
    reduces_last.lift (ix3 b h r) k = ix4 b h r (⟨k.val, k.isLt⟩ : Fin 2048) := by
  funext c; apply Fin.ext
  fin_cases c <;> rfl

/-- A fold of the binary maximum from -∞ over a whole finite range is the supremum over it. -/
theorem fold_max_eq_sup {n : Nat} (f : Fin n → EReal) :
    Finset.fold (FloatOps.maximumf (F := Ideal) (φ := .f32)) (⊥ : EReal) f Finset.univ = Finset.univ.sup f := rfl

/-- The maximum-reduce stage at row (b, h, r), from -∞, is the supremum of the row's scores. -/
theorem v7_at (x0 x1 : (⟨S2x8x2048x64, .f32⟩ : BufTy).Contents (Elt Ideal))
    (x3 : (⟨S2x8x2048x2048, .f32⟩ : BufTy).Contents (Elt Ideal)) (b : Fin 2) (h : Fin 8) (r : Fin 2048) :
    val_main_v7 (F := Ideal) x0 x1 x3 (ix3 b h r) = Cert.Attn.rowMax x0 x1 x3 b h r := by
  unfold val_main_v7
  rw [Host.reduce_eq_fold_single FloatOps.maximumf _ _ reducesTo_S2x8x2048x2048_S2x8x2048_d3 reduces_last h_S_]
  have hf : (val_main_v6 (F := Ideal) x0 x1 x3 ∘ reduces_last.lift (ix3 b h r))
      = fun k : Fin 2048 => Cert.Attn.score x0 x1 x3 b h r k :=
    funext fun k => (congrArg (val_main_v6 (F := Ideal) x0 x1 x3) (lift_ix3 b h r k)).trans (v6_at x0 x1 x3 b h r k)
  rw [hf, val_main_cst_1_apply, Ideal.ofBits_def, ofBits_negInf]
  exact fold_max_eq_sup _

/-! ## The broadcast index maps at coordinates -/

theorem idx_v10_v11 (b : Fin 2) (h : Fin 8) (r c : Fin 2048) : idx_main_v10 (idx_main_v11 (ix4 b h r c)) = ix3 b h r :=
  funext fun a => Fin.ext (by match a with | ⟨0, _⟩ => rfl | ⟨1, _⟩ => rfl | ⟨2, _⟩ => rfl)

theorem idx_v15_v16 (b : Fin 2) (h : Fin 8) (r c : Fin 2048) : idx_main_v15 (idx_main_v16 (ix4 b h r c)) = ix3 b h r :=
  funext fun a => Fin.ext (by match a with | ⟨0, _⟩ => rfl | ⟨1, _⟩ => rfl | ⟨2, _⟩ => rfl)

theorem idx_v14 (b : Fin 2) (h : Fin 8) (r k : Fin 2048) : idx_main_v14 (ix3 b h r) k = ix4 b h r k :=
  funext fun a => Fin.ext (by match a with | ⟨0, _⟩ => rfl | ⟨1, _⟩ => rfl | ⟨2, _⟩ => rfl | ⟨3, _⟩ => rfl)

theorem lidx_v18 (b : Fin 2) (h : Fin 8) (r : Fin 2048) (d : Fin 64) (k : Fin 2048) :
    lidx_main_v18 (ix4 b h r d) k = ix4 b h r k :=
  funext fun a => Fin.ext (by match a with | ⟨0, _⟩ => rfl | ⟨1, _⟩ => rfl | ⟨2, _⟩ => rfl | ⟨3, _⟩ => rfl)

theorem ridx_v18 (b : Fin 2) (h : Fin 8) (r : Fin 2048) (d : Fin 64) (k : Fin 2048) :
    ridx_main_v18 (ix4 b h r d) k = ix4 b h k d :=
  funext fun a => Fin.ext (by match a with | ⟨0, _⟩ => rfl | ⟨1, _⟩ => rfl | ⟨2, _⟩ => rfl | ⟨3, _⟩ => rfl)

/-! ## The softmax stages -/

/-- The stage after the maximum with the -∞ row: still the row's largest score. -/
theorem v9_at (x0 x1 : (⟨S2x8x2048x64, .f32⟩ : BufTy).Contents (Elt Ideal))
    (x3 : (⟨S2x8x2048x2048, .f32⟩ : BufTy).Contents (Elt Ideal)) (b : Fin 2) (h : Fin 8) (r : Fin 2048) :
    val_main_v9 (F := Ideal) x0 x1 x3 (ix3 b h r) = Cert.Attn.rowMax x0 x1 x3 b h r := by
  rw [val_main_v9_apply, val_main_v8_apply, val_main_cst_2_apply, v7_at, Ideal.ofBits_def, ofBits_negInf,
    Ideal.maximumf_def]
  exact bot_sup_eq _

/-- The exponential stage at (b, h, r, c) is the specification's shifted exponential. -/
theorem v13_at (x0 x1 : (⟨S2x8x2048x64, .f32⟩ : BufTy).Contents (Elt Ideal))
    (x3 : (⟨S2x8x2048x2048, .f32⟩ : BufTy).Contents (Elt Ideal)) (b : Fin 2) (h : Fin 8) (r c : Fin 2048) :
    val_main_v13 (F := Ideal) x0 x1 x3 (ix4 b h r c) = Cert.Attn.expo x0 x1 x3 b h r c := by
  rw [val_main_v13_apply, val_main_v12_apply, val_main_v11_apply, val_main_v10_apply, idx_v10_v11, v9_at, v6_at,
    Ideal.hostUnary_exp_def, Ideal.subf_def]
  rfl

/-- The sum stage at row (b, h, r), from 0, is the specification's normalizer. -/
theorem v14_at (x0 x1 : (⟨S2x8x2048x64, .f32⟩ : BufTy).Contents (Elt Ideal))
    (x3 : (⟨S2x8x2048x2048, .f32⟩ : BufTy).Contents (Elt Ideal)) (b : Fin 2) (h : Fin 8) (r : Fin 2048) :
    val_main_v14 (F := Ideal) x0 x1 x3 (ix3 b h r) = Cert.Attn.rowSum x0 x1 x3 b h r := by
  rw [val_main_v14_apply, val_main_cst_3_apply, Ideal.ofBits_def, Ideal.ofBits_zero_f32, zero_add]
  unfold Cert.Attn.rowSum
  exact Finset.sum_congr rfl fun k _ => by rw [idx_v14, v13_at]

/-- The normalized weight at (b, h, r, c). -/
theorem v17_at (x0 x1 : (⟨S2x8x2048x64, .f32⟩ : BufTy).Contents (Elt Ideal))
    (x3 : (⟨S2x8x2048x2048, .f32⟩ : BufTy).Contents (Elt Ideal)) (b : Fin 2) (h : Fin 8) (r c : Fin 2048) :
    val_main_v17 (F := Ideal) x0 x1 x3 (ix4 b h r c)
      = Ideal.div (Cert.Attn.expo x0 x1 x3 b h r c) (Cert.Attn.rowSum x0 x1 x3 b h r) := by
  rw [val_main_v17_apply, val_main_v16_apply, val_main_v15_apply, idx_v15_v16, v14_at, v13_at, Ideal.hostDivf_def]

/-! ## The two results -/

/-- The second result, the masked score array, is the specification's. -/
theorem scores_eq (x0 x1 : (⟨S2x8x2048x64, .f32⟩ : BufTy).Contents (Elt Ideal))
    (x3 : (⟨S2x8x2048x2048, .f32⟩ : BufTy).Contents (Elt Ideal)) :
    val_main_v6 (F := Ideal) x0 x1 x3 = Cert.Attn.scores x0 x1 x3 := by
  funext i
  obtain ⟨b, h, r, c, rfl⟩ : ∃ b h r c, i = ix4 b h r c := ⟨i 0, i 1, i 2, i 3, eq_ix4 i⟩
  rw [v6_at]
  rfl

/-- The first result, the attention-weighted values, is the specification's. -/
theorem context_eq (x0 x1 x2 : (⟨S2x8x2048x64, .f32⟩ : BufTy).Contents (Elt Ideal))
    (x3 : (⟨S2x8x2048x2048, .f32⟩ : BufTy).Contents (Elt Ideal)) :
    val_main_v18 (F := Ideal) x0 x1 x2 x3 = Cert.Attn.context x0 x1 x2 x3 := by
  funext i
  obtain ⟨b, h, r, d, rfl⟩ : ∃ b h r d, i = ix4 b h r d := ⟨i 0, i 1, i 2, i 3, eq_ix4 i⟩
  rw [val_main_v18_apply]
  unfold Cert.Attn.context
  exact Finset.sum_congr rfl fun k _ => by rw [lidx_v18, ridx_v18, v17_at]

/-! ## The run's two results -/

section Run

open Idealize.SL.Sem Idealize.ShloMosaic.TcCoe Idealize.ShloMosaic.StableHlo

/-- The run's first result, as a term of the launch contents, is the specification's attention-weighted values of
    the four argument arrays. -/
theorem res_context (m : (ℓ : Loc nD τ sig) → Buf (Elt Ideal) ℓ) (c : Dev nD) :
    Cert.ReferenceIdeal.Value.res_main_v18 (F := Ideal) m c
      = Cert.Attn.context (m ((c.tc : Thread nD τ).loc main_arg0)) (m ((c.tc : Thread nD τ).loc main_arg1))
          (m ((c.tc : Thread nD τ).loc main_arg2)) (m ((c.tc : Thread nD τ).loc main_arg3)) :=
  (val_main_v18_eq (F := Ideal) m c).trans (context_eq _ _ _ _)

/-- The run's second result is the masked-score stage of the launch contents, hence the specification's score array
    of the query, key and residual-score arrays. -/
theorem res_scores (m : (ℓ : Loc nD τ sig) → Buf (Elt Ideal) ℓ) (c : Dev nD) :
    val_main_v6 (F := Ideal) (m ((c.tc : Thread nD τ).loc main_arg0)) (m ((c.tc : Thread nD τ).loc main_arg1))
        (m ((c.tc : Thread nD τ).loc main_arg3))
      = Cert.Attn.scores (m ((c.tc : Thread nD τ).loc main_arg0)) (m ((c.tc : Thread nD τ).loc main_arg1))
          (m ((c.tc : Thread nD τ).loc main_arg3)) :=
  scores_eq _ _ _

/-- The reference's run, restated: every weakly fair execution terminates with the first result the specification's
    attention-weighted values and the second its score array, of the arguments' launch contents, the arguments
    unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = Cert.Attn.context (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v6)
          = Cert.Attn.scores (m ((c.tc : Thread nD τ).loc main_arg0)) (m ((c.tc : Thread nD τ).loc main_arg1))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ hr c => ⟨(hr c).1.trans (res_context m c),
      (hr c).2.1.trans ((val_main_v6_eq (F := Ideal) _ _ _).trans (res_scores m c)), (hr c).2.2⟩)
    (Cert.ReferenceIdeal.Value.run (F := Ideal) m ρ)

end Run

end Cert.Attn.Ref

end
-- ==== Proof.FiniteInputs.lean ====
/-
  The finiteness precondition, read back.  The precondition compares the absolute value of every entry of the four
  argument arrays with +∞ and takes the conjunction of all the comparisons.  When that conjunction is the bit 1,
  every single comparison is, and an extended real x with max x (-x) < +∞ is neither +∞ nor -∞: it is a real.
-/
import proofs.«169443_j85478439125336_2_alg».proof.Proof.Gen.Pre_finite_inputs
import proofs.«169443_j85478439125336_2_alg».proof.Proof.Spec
import Idealize.ShloMosaic.Lib.ReduceAll
import Idealize.ShloMosaic.Lib.ValueIdx

noncomputable section

namespace Cert.Attn.Finite

open Idealize.ShloMosaic Idealize.ShloMosaic.ValueIdx

/-- The scalar shape has one index. -/
instance : Subsingleton Cert.Pre_finite_inputs.S_.Idx := ⟨fun a b => funext fun d => d.elim0⟩

/-- The word 0x7F800000 denotes +∞. -/
theorem ofBits_posInf : Ideal.ofBits .f32 0x7F800000#32 = (⊤ : EReal) := by
  simp [Ideal.ofBits, Ideal.ieee]

/-- An extended real whose absolute value is below +∞, as the ordered comparison of the two reads it, is a real. -/
theorem real_of_abs_lt (x : EReal)
    (hx : FloatOps.cmpf (F := Ideal) .olt (FloatOps.hostAbsf x) (FloatOps.ofBits (F := Ideal) .f32 0x7F800000#32) = 1#1) :
    ∃ y : ℝ, x = (y : EReal) := by
  have hc : BitVec.ofBool (decide (max x (-x) < Ideal.ofBits .f32 0x7F800000#32)) = 1#1 := hx
  rw [ofBits_posInf] at hc
  have hlt : max x (-x) < (⊤ : EReal) := by
    by_contra hn
    rw [decide_eq_false hn] at hc
    exact absurd hc (by decide)
  induction x using EReal.rec with
  | bot => simp at hlt
  | top => simp at hlt
  | coe y => exact ⟨y, rfl⟩

/-- Under the finiteness precondition every entry of the four argument arrays is a real. -/
theorem finite_of_pre [Cert.Pre_finite_inputs.Facts] (x0 x1 x2 : Cert.Attn.SQ.Idx → EReal) (x3 : Cert.Attn.SP.Idx → EReal)
    (h : Cert.Pre_finite_inputs.fn (F := Ideal) x0 x1 x2 x3 = fun _ => 1#1) :
    (∀ i, ∃ y : ℝ, x0 i = (y : EReal)) ∧ (∀ i, ∃ y : ℝ, x1 i = (y : EReal)) ∧ (∀ i, ∃ y : ℝ, x2 i = (y : EReal))
      ∧ (∀ i, ∃ y : ℝ, x3 i = (y : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt (x0 i) (Host.reduce_andi_all _ _ _ _ ix0 h0' i),
    fun i => real_of_abs_lt (x1 i) (Host.reduce_andi_all _ _ _ _ ix0 h1 i),
    fun i => real_of_abs_lt (x2 i) (Host.reduce_andi_all _ _ _ _ ix0 h2 i),
    fun i => real_of_abs_lt (x3 i) (Host.reduce_andi_all _ _ _ _ ix0 h3 i)⟩

end Cert.Attn.Finite

end
-- ==== Proof.Claims.lean ====
/-
  The certificate's five conjuncts, over the kernel program's run, the reference's run and the specification.

  Both programs, at the ideal instance and from memories that agree on the four arguments, end with the first result at
  the specification's attention-weighted values and the second at its score array, of the same arguments: so the results
  are equal.  The finiteness precondition makes every argument entry a real, which the context blocks' value needs.
-/
import proofs.«169443_j85478439125336_2_alg».proof.Defs
import proofs.«169443_j85478439125336_2_alg».proof.Proof.Gen.Kernel
import proofs.«169443_j85478439125336_2_alg».proof.Proof.KernelValue
import proofs.«169443_j85478439125336_2_alg».proof.Proof.RefIsSpec
import proofs.«169443_j85478439125336_2_alg».proof.Proof.FiniteInputs

noncomputable section

namespace Cert.Proof.Claims

open Idealize.ShloMosaic Idealize.SL.Sem

/-- The idealized kernel program runs and leaves its arguments as launched. -/
theorem frame_KernelIdeal : Cert.frame_KernelIdeal := fun m ρ _ => Cert.KernelIdeal.Hand.frame m ρ

/-- The idealized reference runs and leaves its arguments as launched. -/
theorem frame_ReferenceIdeal : Cert.frame_ReferenceIdeal := fun m ρ _ =>
  (θ_run Cert.ReferenceIdeal.defs _ _).mono (fun _ h c => (h c).2.2) (Cert.Attn.Ref.run_spec m ρ)

/-- The ideal pass rewrote no operation. -/
theorem preserves : Cert.preserves_Kernel_KernelIdeal := trivial

/-- Both programs end at the specification's two functions of the arguments, hence with equal results. -/
theorem algebraic (hout : Cert.KernelIdeal.KernelValue.ContextValueHyp) : Cert.algebraic_KernelIdeal_ReferenceIdeal := by
  intro m ρ m' ρ' hpre hagree
  refine ⟨fun c => Cert.Attn.context
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Attn.scores
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)), ?_, ?_⟩
  · refine Cert.KernelIdeal.KernelValue.kernel_run m ρ (fun c => ?_)
    obtain ⟨h0, h1, h2, h3⟩ := Cert.Attn.Finite.finite_of_pre _ _ _ _ (hpre c)
    exact hout m c h0 h1 h2 h3
  · refine (θ_run Cert.ReferenceIdeal.defs _ _).mono (fun _ h c => ?_) (Cert.Attn.Ref.run_spec m' ρ')
    obtain ⟨e0, e1, e2, e3⟩ := hagree c
    obtain ⟨r0, r1, r2⟩ := h c
    refine ⟨r0.trans ?_, r1.trans ?_, r2⟩
    · rw [e0, e1, e2, e3]
    · rw [e0, e1, e3]

/-- The five conjuncts, from the word-level program's frame and the context blocks' value. -/
theorem conjuncts (hframeK : Cert.frame_Kernel) (hout : Cert.KernelIdeal.KernelValue.ContextValueHyp) :
    Cert.frame_Kernel ∧ Cert.frame_KernelIdeal ∧ Cert.frame_ReferenceIdeal ∧ Cert.preserves_Kernel_KernelIdeal
      ∧ Cert.algebraic_KernelIdeal_ReferenceIdeal :=
  ⟨hframeK, frame_KernelIdeal, frame_ReferenceIdeal, preserves, algebraic hout⟩

end Cert.Proof.Claims

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«169443_j85478439125336_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.PayUpdate.lean ====
/-
  The update branch of the body read one entry at a time, at the ideal instance (floats are extended reals).

  With s the tile's masked scaled scores (row r: k ↦ s r k), m the row's running maximum, l its normalizer and a its
  accumulator before the branch, the branch leaves, per row r and feature d,

      m' = max m (max_k s r k),
      l' = exp (m - m') · l + ∑ k, exp (s r k - m'),
      a' = exp (m - m') · a + ∑ k, exp (s r k - m') · v[k, d],

  one step of the tile-by-tile softmax recursion: the row maximum is the fold of the binary maximum from -∞ along the
  row, which is the supremum of the row; the row sum is the sum along the row; the second product is the plain matrix
  product of the weights with the value block (the narrowing to 16 bits is the identity on extended reals).
-/
import proofs.«169443_j85478439125336_2_alg».proof.Proof.PayRead
import proofs.«169443_j85478439125336_2_alg».proof.Proof.LibMatmulRead

noncomputable section

open scoped BigOperators

namespace Cert.KernelIdeal.PayRead

open Cert.KernelIdeal Cert.KernelIdeal.Gen Cert.KernelIdeal.Hand
open Idealize.ShloMosaic Idealize.ShloMosaic.ValueIdx

/-! ## Row reductions, the exponential and the second product at an entry -/

/-- A fold of the binary maximum from -∞ over a finite set is the supremum over the set. -/
theorem fold_max_bot_eq_sup {ι : Type*} (s : Finset ι) (f : ι → EReal) : s.fold max ⊥ f = s.sup f := by
  classical
  refine Finset.induction_on s ?_ ?_
  · rw [Finset.fold_empty, Finset.sup_empty]
  · intro a s ha ih
    rw [Finset.fold_insert ha, Finset.sup_insert, ih]

/-- The row index r with the column k put back is (r, k). -/
theorem lift_row (r : Fin 512) (k : Fin (S512x512.size 1)) :
    reduces_S512x512_S512.lift (ix1 r) k = ix2 r (⟨k.val, k.isLt⟩ : Fin 512) := by
  funext c; apply Fin.ext
  fin_cases c <;> rfl

/-- The row maximum, kept as a column, at (r, 0): the supremum of row r. -/
theorem rowmax_at (v : FVec Ideal S512x512 .f32) (r : Fin 512) :
    shapeCast S512x1 (multiReduction .maximumf [1] S512 v 0xFF800000#32 reduces_S512x512_S512 (.inl rfl) rfl)
        shapeCasts_S512_S512x1 (ix2 r (0 : Fin 1))
      = Finset.univ.sup fun k : Fin 512 => v (ix2 r k) := by
  refine (Cert.LibKeepdims.shapeCast_a_a1_apply _ shapeCasts_S512_S512x1 r 0).trans ?_
  refine (Ideal.multiReduction_maximumf_single v 0xFF800000#32 reduces_S512x512_S512 (.inl rfl) rfl (ix1 r)).trans ?_
  rw [Ideal.ofBits_def, ofBits_negInf, fold_max_bot_eq_sup]
  exact Finset.sup_congr rfl fun k _ => congrArg v (lift_row r k)

/-- The row sum, kept as a column, at (r, 0): the sum of row r. -/
theorem rowsum_at (v : FVec Ideal S512x512 .f32) (r : Fin 512) :
    shapeCast S512x1 (multiReduction .add [1] S512 v 0x00000000#32 reduces_S512x512_S512 (.inl rfl) rfl)
        shapeCasts_S512_S512x1 (ix2 r (0 : Fin 1))
      = ∑ k : Fin 512, v (ix2 r k) := by
  refine (Cert.LibKeepdims.shapeCast_a_a1_apply _ shapeCasts_S512_S512x1 r 0).trans ?_
  refine (Ideal.multiReduction_add_single v 0x00000000#32 reduces_S512x512_S512 (.inl rfl) rfl (ix1 r)).trans ?_
  exact Finset.sum_congr rfl fun k _ => congrArg v (lift_row r k)

/-- The exponential of a vector at an index is the exponential of the element. -/
theorem exp_apply {s : Shape} {φ : FTy} (v : FVec Ideal s φ) (j : s.Idx) : exp v j = Ideal.exp (v j) := rfl

/-- The value block without its unit axis, at (k, d). -/
theorem pay9_at (xv : FVec Ideal S1x512x64 .f32) (k : Fin 512) (d : Fin 64) :
    k0_pay9 (F := Ideal) xv (ix2 k d) = xv (ix3 (0 : Fin 1) k d) := by
  unfold k0_pay9
  exact shapeCast_1ab_ab_apply xv shapeCasts_S1x512x64_S512x64 k d

/-- The weights-values product at (r, d): the sum over the tile's columns of p[r, k] · v[k, d]. -/
theorem pv_at (p : FVec Ideal S512x512 .f32) (w : FVec Ideal S512x64 .f32) (r : Fin 512) (d : Fin 64) :
    matmul dot_S512x512_S512x64_S512x64_1_0_0_1_n_n none (truncf .bf16 p bitsLt_bf16_f32) (truncf .bf16 w bitsLt_bf16_f32)
        (constant (F := Ideal) S512x64 .f32 0x00000000#32) (ix2 r d)
      = ∑ k : Fin 512, p (ix2 r k) * w (ix2 k d) :=
  Cert.GCN.matmul_plain_zero_apply none _ _ r d

/-! ## The update branch's payloads at an entry -/

/-- The new running maximum of row r: the larger of the old one and the tile's largest score in the row. -/
theorem pay12_at (i : grid0.Coords) (xq xk : Vec Ideal S1x512x64 .f32) (xp : Vec Ideal S1x512x512 .f32)
    (m : Vec Ideal S512x1 .f32) (r : Fin 512) :
    k0_pay12 (F := Ideal) (qoff i) (koff i) xq xk xp m (ix2 r (0 : Fin 1))
      = max (m (ix2 r (0 : Fin 1))) (Finset.univ.sup fun k : Fin 512 => tsc i xq xk xp r k) := by
  unfold k0_pay12
  refine (maximumf_apply _ _ _).trans ?_
  exact congrArg (max (m (ix2 r (0 : Fin 1))))
    ((rowmax_at _ r).trans (Finset.sup_congr rfl fun k _ => pay10_at i xq xk xp r k))

/-- The rescaling factor of row r: exp (old maximum - new maximum). -/
theorem pay13_at (i : grid0.Coords) (xq xk : Vec Ideal S1x512x64 .f32) (xp : Vec Ideal S1x512x512 .f32)
    (m : Vec Ideal S512x1 .f32) (r : Fin 512) :
    k0_pay13 (F := Ideal) (qoff i) (koff i) xq xk xp m (ix2 r (0 : Fin 1))
      = Ideal.exp (m (ix2 r (0 : Fin 1))
          - max (m (ix2 r (0 : Fin 1))) (Finset.univ.sup fun k : Fin 512 => tsc i xq xk xp r k)) := by
  unfold k0_pay13
  refine (exp_apply _ _).trans (congrArg Ideal.exp ?_)
  refine (subf_apply _ _ _).trans ?_
  rw [pay12_at]

/-- The tile's weights at (r, k): exp (score - new maximum of row r). -/
theorem pay14_at (i : grid0.Coords) (xq xk : Vec Ideal S1x512x64 .f32) (xp : Vec Ideal S1x512x512 .f32)
    (m : Vec Ideal S512x1 .f32) (r k : Fin 512) :
    k0_pay14 (F := Ideal) (qoff i) (koff i) xq xk xp m (ix2 r k)
      = Ideal.exp (tsc i xq xk xp r k
          - max (m (ix2 r (0 : Fin 1))) (Finset.univ.sup fun k : Fin 512 => tsc i xq xk xp r k)) := by
  unfold k0_pay14
  refine (exp_apply _ _).trans (congrArg Ideal.exp ?_)
  refine (subf_apply _ _ _).trans ?_
  rw [pay10_at, Cert.LibKeepdims.broadcastTo_a1_ab_apply, pay12_at]

/-- The rescaled old normalizer of row r. -/
theorem pay15_at (i : grid0.Coords) (xq xk : Vec Ideal S1x512x64 .f32) (xp : Vec Ideal S1x512x512 .f32)
    (m l : Vec Ideal S512x1 .f32) (r : Fin 512) :
    k0_pay15 (F := Ideal) (qoff i) (koff i) xq xk xp m l (ix2 r (0 : Fin 1))
      = Ideal.exp (m (ix2 r (0 : Fin 1))
          - max (m (ix2 r (0 : Fin 1))) (Finset.univ.sup fun k : Fin 512 => tsc i xq xk xp r k)) * l (ix2 r (0 : Fin 1)) := by
  unfold k0_pay15
  refine (mulf_apply _ _ _).trans ?_
  rw [pay13_at]

/-- The new normalizer of row r: the rescaled old one plus the row sum of the tile's weights. -/
theorem pay4_at (p : FVec Ideal S512x512 .f32) (c : FVec Ideal S512x1 .f32) (r : Fin 512) :
    k0_pay4 (F := Ideal) p c (ix2 r (0 : Fin 1)) = c (ix2 r (0 : Fin 1)) + ∑ k : Fin 512, p (ix2 r k) := by
  unfold k0_pay4
  rw [shapeCast_self]
  refine (addf_apply _ _ _).trans ?_
  rw [rowsum_at]

/-- The new accumulator at (r, d): the rescaled old one plus the weights-values product. -/
theorem pay5_at (w : FVec Ideal S512x64 .f32) (c : FVec Ideal S512x1 .f32) (p : FVec Ideal S512x512 .f32)
    (a : Vec Ideal S512x64 .f32) (r : Fin 512) (d : Fin 64) :
    k0_pay5 (F := Ideal) w c p a (ix2 r d)
      = c (ix2 r (0 : Fin 1)) * a (ix2 r d) + ∑ k : Fin 512, p (ix2 r k) * w (ix2 k d) := by
  unfold k0_pay5
  rw [shapeCast_self]
  refine (addf_apply _ _ _).trans ?_
  rw [pv_at]
  refine congrArg (· + _) ?_
  refine (mulf_apply _ _ _).trans ?_
  rw [Cert.LibKeepdims.broadcastTo_a1_ab_apply]

/-- The update branch, row by row and feature by feature, is one step of the tile-by-tile recursion. -/
theorem update_at (i : grid0.Coords) (h2 : k0_cond2 i = 1#1) (xq xk xv : Vec Ideal S1x512x64 .f32) (xp : Vec Ideal S1x512x512 .f32)
    (s0 s1 : Vec Ideal S512x1 .f32) (s2 : Vec Ideal S512x64 .f32) (r : Fin 512) (d : Fin 64) :
    (mNext i xq xk xp s0 (ix2 r (0 : Fin 1)), lNext i xq xk xp s0 s1 (ix2 r (0 : Fin 1)), aNext i xq xk xv xp s0 s2 (ix2 r d))
      = Cert.Attn.Online.step (fun k : Fin 512 => tsc i xq xk xp r k) (fun k : Fin 512 => xv (ix3 (0 : Fin 1) k d))
          (m1 i s0 (ix2 r (0 : Fin 1)), l1 i s1 (ix2 r (0 : Fin 1)), a1 i s2 (ix2 r d)) := by
  unfold mNext lNext aNext Cert.Attn.Online.step
  rw [if_pos h2, if_pos h2, if_pos h2]
  refine Prod.ext ?_ (Prod.ext ?_ ?_)
  · show k0_pay6 (F := Ideal) (k0_pay12 (qoff i) (koff i) xq xk xp (m1 i s0)) (ix2 r (0 : Fin 1)) = _
    unfold k0_pay6
    rw [shapeCast_self, pay12_at]
  · show k0_pay4 (F := Ideal) (k0_pay14 (qoff i) (koff i) xq xk xp (m1 i s0))
        (k0_pay15 (qoff i) (koff i) xq xk xp (m1 i s0) (l1 i s1)) (ix2 r (0 : Fin 1)) = _
    rw [pay4_at, pay15_at]
    simp only [pay14_at]
  · show k0_pay5 (F := Ideal) (k0_pay9 xv) (k0_pay13 (qoff i) (koff i) xq xk xp (m1 i s0))
        (k0_pay14 (qoff i) (koff i) xq xk xp (m1 i s0)) (a1 i s2) (ix2 r d) = _
    rw [pay5_at, pay13_at]
    simp only [pay14_at, pay9_at]

end Cert.KernelIdeal.PayRead

end
-- ==== Proof.RowState.lean ====
/-
  One row's carried state along its key tiles.  Fix a head bh, a query tile qi, a row r of the tile and a feature d.
  The grid points 16·bh + 4·qi + n, n = 0 … 3, visit the row's four key tiles in order.  At n = 0 the body resets the
  row's state to (-∞, 0, 0) whatever it held; at a tile n ≤ qi it updates the state by one step of the tile-by-tile
  softmax recursion on tile n of the row's scores and values; at a tile past the diagonal it leaves the state alone.
  So after point n the state is the recursion run over the tiles 0 … min n qi.
-/
import proofs.«169443_j85478439125336_2_alg».proof.Proof.Track
import proofs.«169443_j85478439125336_2_alg».proof.Proof.PayRead
import proofs.«169443_j85478439125336_2_alg».proof.Proof.PayUpdate
import proofs.«169443_j85478439125336_2_alg».proof.Proof.LibOnlineSoftmax
import proofs.«169443_j85478439125336_2_alg».proof.Proof.Blocks
import proofs.«169443_j85478439125336_2_alg».proof.Proof.HostEnds
import proofs.«169443_j85478439125336_2_alg».proof.Proof.ScoresValue
import proofs.«169443_j85478439125336_2_alg».proof.Proof.Spec

set_option maxRecDepth 16384

noncomputable section

open scoped BigOperators

namespace Cert.KernelIdeal.RowState

open Cert.KernelIdeal Cert.KernelIdeal.Gen Cert.KernelIdeal.Hand Cert.KernelIdeal.PayRead Cert.KernelIdeal.ScoresValue
open Idealize.ShloMosaic Idealize.ShloMosaic.TcCoe Idealize.SL.Sem Idealize.ShloMosaic.ValueIdx
open Idealize.ShloMosaic.Pipeline (Dat)
open Cert.Attn (Online.step Online.run Online.tile)

variable (m : (ℓ : Loc nD τ sig) → Buf (Elt Ideal) ℓ) (c : Dev nD)

/-! ## The arguments and one row's scores and values -/

/-- The four argument arrays. -/
abbrev argQ : Cert.Attn.SQ.Idx → EReal := m ((c : Thread nD τ).loc main_arg0)
abbrev argK : Cert.Attn.SQ.Idx → EReal := m ((c : Thread nD τ).loc main_arg1)
abbrev argV : Cert.Attn.SQ.Idx → EReal := m ((c : Thread nD τ).loc main_arg2)
abbrev argP : Cert.Attn.SP.Idx → EReal := m ((c : Thread nD τ).loc main_arg3)

/-- Entry (bh, row, d) of the region's value array is the value argument's entry (bh / 8, bh mod 8, row, d). -/
theorem Vv_at (bh : Fin 16) (row : Fin 2048) (d : Fin 64) :
    V m c main_v2 (ix3 bh row d) = m ((c : Thread nD τ).loc main_arg2)
      (ix4 (⟨bh.val / 8, by have := bh.isLt; omega⟩ : Fin 2) (⟨bh.val % 8, by omega⟩ : Fin 8) row d) :=
  (congrArg (fun x : Fin 16 => V m c main_v2 (ix3 x row d)) (split_bh bh)).trans
    (HostEnds.V_main_v2_at m c (⟨bh.val / 8, by have := bh.isLt; omega⟩ : Fin 2) (⟨bh.val % 8, by omega⟩ : Fin 8) row d)

/-- The scores of row `R` of head `bh`, over all 2048 key positions. -/
def rowF (bh : Fin 16) (R : Fin 2048) : Fin 2048 → EReal := fun c' =>
  Cert.Attn.score (argQ m c) (argK m c) (argP m c) (⟨bh.val / 8, by have := bh.isLt; omega⟩ : Fin 2) (⟨bh.val % 8, by omega⟩ : Fin 8) R c'

/-- Feature `d` of head `bh`'s values, over all 2048 key positions. -/
def rowG (bh : Fin 16) (d : Fin 64) : Fin 2048 → EReal := fun c' =>
  argV m c (ix4 (⟨bh.val / 8, by have := bh.isLt; omega⟩ : Fin 2) (⟨bh.val % 8, by omega⟩ : Fin 8) c' d)

/-- Column `k` of tile `n` is key position 512·n + k. -/
theorem tile_pos (n : Fin 4) (k : Fin 512) :
    (finProdFinEquiv (n, k) : Fin (4 * 512)) = (⟨512 * n.val + k.val, by have := n.isLt; have := k.isLt; omega⟩ : Fin 2048) :=
  Fin.ext (by show k.val + 512 * n.val = 512 * n.val + k.val; omega)

/-! ## A grid point's tile, as a tile of the row -/

/-- A point's merged batch-and-head coordinate is below 16. -/
theorem bh_lt (t : Fin cfg0.N) : t.val / 16 < 16 := by
  have := t.isLt; have : cfg0.N = 256 := N_0; omega

/-- At a point whose key tile `n` is not past the diagonal, the body's masked scaled scores of tile row `r` are tile
    `n` of the row's scores. -/
theorem tile_f (t : Fin cfg0.N) (bh : Fin 16) (qi n : ℕ) (hqi : qi < 4) (hn4 : n < 4) (hb : t.val / 16 = bh.val)
    (hq : t.val / 4 % 4 = qi) (hn : t.val % 4 = n) (hle : n ≤ qi) (r k : Fin 512) :
    tsc (grid0.coords t) (bQ m c t) (bK m c t) (bP m c t) r k
      = Online.tile (T := 4) (n := 512) (rowF m c bh (⟨512 * qi + r.val, by have := r.isLt; omega⟩ : Fin 2048)) ⟨n, hn4⟩ k := by
  obtain rfl : bh = ⟨t.val / 16, bh_lt t⟩ := Fin.ext hb.symm
  subst hq hn
  obtain ⟨c0, c1, c2⟩ := Blocks.coords_facts t
  refine (tile_score (argQ m c) (argK m c) (argP m c) (bQ m c t) (bK m c t) (bP m c t) (grid0.coords t)
      (⟨t.val / 16 / 8, by omega⟩ : Fin 2) (⟨t.val / 16 % 8, by omega⟩ : Fin 8)
      (t.val / 4 % 4) (min (t.val % 4) (t.val / 4 % 4)) (by omega) (by omega) c1 (by omega) r k
      (fun d => (Blocks.blkQ_at m c t r d).trans (Vq_at m c _ _ d))
      (fun d => (Blocks.blkK_at m c t k d).trans (Vk_at m c _ _ d))
      ((Blocks.blkP_at m c t r k).trans (Vp_at m c _ _ _))).trans ?_
  unfold Online.tile rowF
  rw [tile_pos]
  have e : (⟨512 * min (t.val % 4) (t.val / 4 % 4) + k.val, by have := k.isLt; omega⟩ : Fin 2048)
      = ⟨512 * (t.val % 4) + k.val, by have := k.isLt; omega⟩ :=
    Fin.ext (by show 512 * min (t.val % 4) (t.val / 4 % 4) + k.val = 512 * (t.val % 4) + k.val; omega)
  rw [e]

/-- There, feature `d` of the value block's rows is tile `n` of the row's values. -/
theorem tile_g (t : Fin cfg0.N) (bh : Fin 16) (qi n : ℕ) (hqi : qi < 4) (hn4 : n < 4) (hb : t.val / 16 = bh.val)
    (hq : t.val / 4 % 4 = qi) (hn : t.val % 4 = n) (hle : n ≤ qi) (k : Fin 512) (d : Fin 64) :
    bV m c t (ix3 (0 : Fin 1) k d) = Online.tile (T := 4) (n := 512) (rowG m c bh d) ⟨n, hn4⟩ k := by
  obtain rfl : bh = ⟨t.val / 16, bh_lt t⟩ := Fin.ext hb.symm
  subst hq hn
  refine ((Blocks.blkV_at m c t k d).trans (Vv_at m c _ _ d)).trans ?_
  unfold Online.tile rowG
  rw [tile_pos]
  have e : (⟨512 * min (t.val % 4) (t.val / 4 % 4) + k.val, by have := k.isLt; omega⟩ : Fin 2048)
      = ⟨512 * (t.val % 4) + k.val, by have := k.isLt; omega⟩ :=
    Fin.ext (by show 512 * min (t.val % 4) (t.val / 4 % 4) + k.val = 512 * (t.val % 4) + k.val; omega)
  rw [e]

/-! ## One grid point's action on a row's carried state -/

/-- Row `r` (and feature `d`) of the carried buffers: largest score so far, normalizer, accumulator. -/
def rowOf (s : St Ideal) (r : Fin 512) (d : Fin 64) : EReal × EReal × EReal :=
  (s.1 (ix2 r (0 : Fin 1)), s.2.1 (ix2 r (0 : Fin 1)), s.2.2 (ix2 r d))

/-- At a point whose key tile `n` is not past the diagonal the body updates the row's state by one step of the
    tile-by-tile recursion on tile `n` of the row's scores and values, from the state the reset branch left. -/
theorem point_update (t : Fin cfg0.N) (bh : Fin 16) (qi n : ℕ) (hqi : qi < 4) (hn4 : n < 4) (hb : t.val / 16 = bh.val)
    (hq : t.val / 4 % 4 = qi) (hn : t.val % 4 = n) (hle : n ≤ qi) (s : St Ideal) (r : Fin 512) (d : Fin 64) :
    rowOf (stNext m c t s) r d
      = Online.step (Online.tile (T := 4) (n := 512) (rowF m c bh (⟨512 * qi + r.val, by have := r.isLt; omega⟩ : Fin 2048)) ⟨n, hn4⟩)
          (Online.tile (T := 4) (n := 512) (rowG m c bh d) ⟨n, hn4⟩)
          (m1 (grid0.coords t) s.1 (ix2 r (0 : Fin 1)), l1 (grid0.coords t) s.2.1 (ix2 r (0 : Fin 1)), a1 (grid0.coords t) s.2.2 (ix2 r d)) := by
  have h2 : k0_cond2 (grid0.coords t) = 1#1 := (hcond2 t).2 (by omega)
  have hS : (fun k : Fin 512 => tsc (grid0.coords t) (bQ m c t) (bK m c t) (bP m c t) r k)
      = Online.tile (T := 4) (n := 512) (rowF m c bh (⟨512 * qi + r.val, by have := r.isLt; omega⟩ : Fin 2048)) ⟨n, hn4⟩ :=
    funext fun k => tile_f m c t bh qi n hqi hn4 hb hq hn hle r k
  have hV : (fun k : Fin 512 => bV m c t (ix3 (0 : Fin 1) k d)) = Online.tile (T := 4) (n := 512) (rowG m c bh d) ⟨n, hn4⟩ :=
    funext fun k => tile_g m c t bh qi n hqi hn4 hb hq hn hle k d
  refine (update_at (grid0.coords t) h2 (bQ m c t) (bK m c t) (bV m c t) (bP m c t) s.1 s.2.1 s.2.2 r d).trans ?_
  exact congrArg₂ (fun S V => Online.step S V (m1 (grid0.coords t) s.1 (ix2 r (0 : Fin 1)), l1 (grid0.coords t) s.2.1 (ix2 r (0 : Fin 1)), a1 (grid0.coords t) s.2.2 (ix2 r d))) hS hV

/-- At a row's first key tile the reset branch leaves (-∞, 0, 0). -/
theorem reset_row (t : Fin cfg0.N) (h1 : cond1 (grid0.coords t)) (s : St Ideal) (r : Fin 512) (d : Fin 64) :
    (m1 (grid0.coords t) s.1 (ix2 r (0 : Fin 1)), l1 (grid0.coords t) s.2.1 (ix2 r (0 : Fin 1)), a1 (grid0.coords t) s.2.2 (ix2 r d))
      = ((⊥ : EReal), (0 : EReal), (0 : EReal)) := by
  unfold m1 l1 a1
  rw [if_pos h1, if_pos h1, if_pos h1, pay1_at, pay2_at, pay3_at]

/-- Elsewhere it leaves the state as it was. -/
theorem keep_row (t : Fin cfg0.N) (h1 : ¬cond1 (grid0.coords t)) (s : St Ideal) (r : Fin 512) (d : Fin 64) :
    (m1 (grid0.coords t) s.1 (ix2 r (0 : Fin 1)), l1 (grid0.coords t) s.2.1 (ix2 r (0 : Fin 1)), a1 (grid0.coords t) s.2.2 (ix2 r d))
      = rowOf s r d := by
  unfold m1 l1 a1 rowOf
  rw [if_neg h1, if_neg h1, if_neg h1]

/-- At a key tile past the diagonal, not the row's first, the carried state does not change. -/
theorem point_skip (t : Fin cfg0.N) (h1 : ¬cond1 (grid0.coords t)) (h2 : ¬k0_cond2 (grid0.coords t) = 1#1) (s : St Ideal) :
    stNext m c t s = s := by
  unfold stNext mNext lNext aNext m1 l1 a1
  rw [if_neg h2, if_neg h2, if_neg h2, if_neg h1, if_neg h1, if_neg h1]

/-- The state after a point does not depend on how the point's number is presented. -/
theorem stAt_congr (a b : ℕ) (hab : a = b) (ha : a < cfg0.N) (hb : b < cfg0.N) : stAt m c a ha = stAt m c b hb := by
  subst hab; rfl

/-- At a row's first key tile the state after the point is the point's action on anything. -/
theorem stAt_reset (t : Fin cfg0.N) (h1 : cond1 (grid0.coords t)) (s : St Ideal) :
    stAt m c t.val t.isLt = stNext m c t s := by
  by_cases ht : t.val = 0
  · exact stAt_zero m c t ht s
  · exact (stAt_pos m c t ht).trans (stNext_reset m c t h1 _ s)

/-! ## The row's carried state along its key tiles -/

/-- The tile-by-tile recursion does not depend on how the tile's number is presented. -/
theorem run_congr {T n : ℕ} (S V : Fin T → Fin n → EReal) (a b : ℕ) (hab : a = b) (ha : a < T) (hb : b < T) :
    Online.run S V a ha = Online.run S V b hb := by
  subst hab; rfl

theorem run_zero {T n : ℕ} (S V : Fin T → Fin n → EReal) (h : 0 < T) :
    Online.run S V 0 h = Online.step (S ⟨0, h⟩) (V ⟨0, h⟩) (⊥, 0, 0) := rfl

theorem run_succ {T n : ℕ} (S V : Fin T → Fin n → EReal) (j : ℕ) (h : j + 1 < T) :
    Online.run S V (j + 1) h = Online.step (S ⟨j + 1, h⟩) (V ⟨j + 1, h⟩) (Online.run S V j (Nat.lt_of_succ_lt h)) := rfl

/-- After the point (bh, qi, n) the carried state of row `r`, feature `d` is the tile-by-tile recursion over the row's
    tiles 0 … min n qi: the tiles past the diagonal change nothing. -/
theorem row_state (bh : Fin 16) (qi : ℕ) (hqi : qi < 4) (r : Fin 512) (d : Fin 64) :
    ∀ (n : ℕ) (hn4 : n < 4) (N : ℕ) (hN : N < cfg0.N), N = 16 * bh.val + 4 * qi + n →
      rowOf (stAt m c N hN) r d
        = Online.run (Online.tile (T := 4) (n := 512) (rowF m c bh (⟨512 * qi + r.val, by have := r.isLt; omega⟩ : Fin 2048)))
            (Online.tile (T := 4) (n := 512) (rowG m c bh d)) (min n qi) (by omega) := by
  intro n
  induction n with
  | zero =>
    intro hn4 N hN hNe
    have h1 : cond1 (grid0.coords ⟨N, hN⟩) := (hcond1 ⟨N, hN⟩).2 (by show N % 4 = 0; omega)
    have e : stAt m c N hN = stNext m c ⟨N, hN⟩ ((k0_pay1 (F := Ideal), k0_pay2 (F := Ideal), k0_pay3 (F := Ideal)) : St Ideal) := stAt_reset m c ⟨N, hN⟩ h1 _
    rw [e, point_update m c ⟨N, hN⟩ bh qi 0 hqi hn4 (by show N / 16 = bh.val; omega) (by show N / 4 % 4 = qi; omega)
      (by show N % 4 = 0; omega) (Nat.zero_le _) _ r d, reset_row _ h1]
    exact ((run_congr _ _ (min 0 qi) 0 (by omega) _ hn4).trans (run_zero _ _ hn4)).symm
  | succ n ih =>
    intro hn4 N hN hNe
    have hNpos : N ≠ 0 := by omega
    have hprev := ih (by omega) (N - 1) (by omega) (by omega)
    have h1 : ¬cond1 (grid0.coords ⟨N, hN⟩) := fun h => by
      have h' : N % 4 = 0 := (hcond1 ⟨N, hN⟩).1 h
      omega
    have e : stAt m c N hN = stNext m c ⟨N, hN⟩ (stAt m c (N - 1) (by omega)) := stAt_pos m c ⟨N, hN⟩ hNpos
    by_cases hle : n + 1 ≤ qi
    · rw [e, point_update m c ⟨N, hN⟩ bh qi (n + 1) hqi hn4 (by show N / 16 = bh.val; omega) (by show N / 4 % 4 = qi; omega)
        (by show N % 4 = n + 1; omega) hle _ r d, keep_row _ h1, hprev]
      refine ((run_congr _ _ (min (n + 1) qi) (n + 1) (by omega) _ hn4).trans ((run_succ _ _ n hn4).trans ?_)).symm
      exact congrArg _ (run_congr _ _ n (min n qi) (by omega) _ _)
    · have h2 : ¬k0_cond2 (grid0.coords ⟨N, hN⟩) = 1#1 := fun h => by
        have h' : N % 4 ≤ N / 4 % 4 := (hcond2 ⟨N, hN⟩).1 h
        omega
      rw [e, point_skip m c ⟨N, hN⟩ h1 h2, hprev]
      exact run_congr _ _ _ _ (by omega) _ _

end Cert.KernelIdeal.RowState

end
-- ==== Proof.ContextValue.lean ====
/-
  The context array the kernel leaves is the specification's, when every entry of the four arguments is a real.
  At a row's last key tile the body stores accumulator / normalizer of the row's carried state, which is the
  tile-by-tile softmax recursion run over the row's tiles up to the diagonal.  A score is -∞ (masked) or a real, the
  tiles past the diagonal are all -∞, and the row's first score is a real, so that quotient is the softmax-weighted
  sum of the values over the whole row: the specification's context entry.  The blocks written back at the last key
  tiles cover the array, and the reshape after the region splits the merged coordinate 8·b + h back into b and h.
-/
import proofs.«169443_j85478439125336_2_alg».proof.Proof.RowState

set_option maxRecDepth 16384

noncomputable section

open scoped BigOperators

namespace Cert.KernelIdeal.ContextValue

open Cert.KernelIdeal Cert.KernelIdeal.Gen Cert.KernelIdeal.Hand Cert.KernelIdeal.PayRead Cert.KernelIdeal.ScoresValue
open Cert.KernelIdeal.RowState
open Idealize.ShloMosaic Idealize.ShloMosaic.TcCoe Idealize.SL.Sem Idealize.ShloMosaic.ValueIdx
open Idealize.ShloMosaic.Pipeline (Dat)
open Cert.Attn (Online.step Online.run Online.tile)

/-! ## A score is -∞ or a real -/

/-- On or below the diagonal, with real inputs, the score is a real. -/
theorem score_real (Q K : Cert.Attn.SQ.Idx → EReal) (P : Cert.Attn.SP.Idx → EReal)
    (hQ : ∀ i, ∃ y : ℝ, Q i = (y : EReal)) (hK : ∀ i, ∃ y : ℝ, K i = (y : EReal)) (hP : ∀ i, ∃ y : ℝ, P i = (y : EReal))
    (b : Fin 2) (h : Fin 8) (R c' : Fin 2048) (hle : ¬R.val < c'.val) :
    ∃ x : ℝ, Cert.Attn.score Q K P b h R c' = (x : EReal) := by
  choose q hq using hQ
  choose k hk using hK
  choose p hp using hP
  refine ⟨(∑ d : Fin 64, q (ix4 b h R d) * k (ix4 b h c' d)) * (1 / 8) + p (ix4 b h R c'), ?_⟩
  unfold Cert.Attn.score
  rw [if_neg hle, EReal.coe_add, EReal.coe_mul, Cert.Attn.Online.coe_finset_sum]
  simp only [EReal.coe_mul, hq, hk, hp]

/-- With real inputs a score is -∞ (masked) or a real. -/
theorem score_cases (Q K : Cert.Attn.SQ.Idx → EReal) (P : Cert.Attn.SP.Idx → EReal)
    (hQ : ∀ i, ∃ y : ℝ, Q i = (y : EReal)) (hK : ∀ i, ∃ y : ℝ, K i = (y : EReal)) (hP : ∀ i, ∃ y : ℝ, P i = (y : EReal))
    (b : Fin 2) (h : Fin 8) (R c' : Fin 2048) :
    Cert.Attn.score Q K P b h R c' = ⊥ ∨ ∃ x : ℝ, Cert.Attn.score Q K P b h R c' = (x : EReal) := by
  by_cases hlt : R.val < c'.val
  · left; unfold Cert.Attn.score; rw [if_pos hlt]
  · right; exact score_real Q K P hQ hK hP b h R c' hlt

section
variable (m : (ℓ : Loc nD τ sig) → Buf (Elt Ideal) ℓ) (c : Dev nD)

/-! ## The context block at a row's last key tile -/

/-- The softmax-weighted sum over a row's scores `rowF` and values `rowG` is the specification's context entry. -/
theorem softmax_row (bh : Fin 16) (R : Fin 2048) (d : Fin 64) :
    (∑ c' : Fin 2048, Ideal.div (Ideal.exp (rowF m c bh R c' - Finset.univ.sup (rowF m c bh R)))
        (∑ c'' : Fin 2048, Ideal.exp (rowF m c bh R c'' - Finset.univ.sup (rowF m c bh R))) * rowG m c bh d c')
      = Cert.Attn.context (argQ m c) (argK m c) (argV m c) (argP m c)
          (ix4 (⟨bh.val / 8, by have := bh.isLt; omega⟩ : Fin 2) (⟨bh.val % 8, by omega⟩ : Fin 8) R d) := rfl

/-- At a row's last key tile the context block's entry (r, d) is the specification's context entry of the row
    512 · qi + r, when the four inputs are real. -/
theorem ctx_row (hQ : ∀ i, ∃ y : ℝ, argQ m c i = (y : EReal)) (hK : ∀ i, ∃ y : ℝ, argK m c i = (y : EReal))
    (hV : ∀ i, ∃ y : ℝ, argV m c i = (y : EReal)) (hP : ∀ i, ∃ y : ℝ, argP m c i = (y : EReal))
    (t : Fin cfg0.N) (ht3 : t.val % 4 = 3) (r : Fin 512) (d : Fin 64) :
    ctxAt m c t (ix3 (0 : Fin 1) r d)
      = Cert.Attn.context (argQ m c) (argK m c) (argV m c) (argP m c)
          (ix4 (⟨t.val / 16 / 8, by have := bh_lt t; omega⟩ : Fin 2) (⟨t.val / 16 % 8, by omega⟩ : Fin 8)
            (⟨512 * (t.val / 4 % 4) + r.val, by have := r.isLt; omega⟩ : Fin 2048) d) := by
  have hqi : t.val / 4 % 4 < 4 := by omega
  have hA := (row_state m c ⟨t.val / 16, bh_lt t⟩ (t.val / 4 % 4) hqi r d 3 (by omega) t.val t.isLt
    (by show t.val = 16 * (t.val / 16) + 4 * (t.val / 4 % 4) + 3; omega)).trans
    (run_congr _ _ (min 3 (t.val / 4 % 4)) (t.val / 4 % 4) (by omega) _ hqi)
  have e2 : (stAt m c t.val t.isLt).2.2 (ix2 r d) = _ := congrArg (fun x : EReal × EReal × EReal => x.2.2) hA
  have e1 : (stAt m c t.val t.isLt).2.1 (ix2 r (0 : Fin 1)) = _ := congrArg (fun x : EReal × EReal × EReal => x.2.1) hA
  unfold ctxAt
  rw [pay8_at, e2, e1]
  refine (Cert.Attn.Online.run_eq_softmax_flat (T := 4) (n := 512)
    (rowF m c ⟨t.val / 16, bh_lt t⟩ (⟨512 * (t.val / 4 % 4) + r.val, by have := r.isLt; omega⟩ : Fin 2048))
    (rowG m c ⟨t.val / 16, bh_lt t⟩ d) (t.val / 4 % 4) hqi
    (fun c' => score_cases _ _ _ hQ hK hP _ _ _ c') ?_ ?_ (fun c' => hV _)).trans
    (softmax_row m c ⟨t.val / 16, bh_lt t⟩ _ d)
  · intro j k hj
    unfold Online.tile rowF
    rw [tile_pos]
    unfold Cert.Attn.score
    rw [if_pos (by show 512 * (t.val / 4 % 4) + r.val < 512 * j.val + k.val; have := r.isLt; omega)]
  · refine ⟨(0 : Fin 512), ?_⟩
    unfold Online.tile rowF
    rw [tile_pos]
    exact score_real _ _ _ hQ hK hP _ _ _ _ (by show ¬(512 * (t.val / 4 % 4) + r.val < 512 * 0 + 0); omega)

/-! ## The context array the region leaves -/

/-- The context array over the merged coordinate: entry (bh, r, d) is the specification's context entry for batch
    bh / 8, head bh mod 8, row r, feature d. -/
def G4 : S16x2048x64.Idx → EReal := fun i =>
  Cert.Attn.context (argQ m c) (argK m c) (argV m c) (argP m c)
    (ix4 (⟨(i 0).val / 8, by have : (i 0).val < 16 := (i 0).isLt; omega⟩ : Fin 2) (⟨(i 0).val % 8, by omega⟩ : Fin 8) (i 1) (i 2))

theorem G4_at (bh : Fin 16) (row : Fin 2048) (d : Fin 64) :
    G4 m c (ix3 bh row d) = Cert.Attn.context (argQ m c) (argK m c) (argV m c) (argP m c)
      (ix4 (⟨bh.val / 8, by have := bh.isLt; omega⟩ : Fin 2) (⟨bh.val % 8, by omega⟩ : Fin 8) row d) := rfl

/-- What a row's last key tile writes back into the context array is its block of `G4`. -/
theorem flushed4_eq (hQ : ∀ i, ∃ y : ℝ, argQ m c i = (y : EReal)) (hK : ∀ i, ∃ y : ℝ, argK m c i = (y : EReal))
    (hV : ∀ i, ∃ y : ℝ, argV m c i = (y : EReal)) (hP : ∀ i, ∃ y : ℝ, argP m c i = (y : EReal))
    (t : Fin cfg0.N) (ht : (cfg0.win 4).flush t = true) :
    (dats (F := Ideal) m 0 c).flushed 4 t = ((cfg0.win 4).blk t).view.read (Elt Ideal) (G4 m c) := by
  have ht3 : t.val % 4 = 3 := (flush0_4 t).1 ht
  show (cfg0.win 4).cut (grid0.coords t) ((dats (F := Ideal) m 0 c).after 4 t) = _
  rw [after4]
  funext y
  change S1x512x64.Idx at y
  obtain ⟨u, r, d, rfl⟩ : ∃ (u : Fin 1) (r : Fin 512) (d : Fin 64), y = ix3 u r d := ⟨y 0, y 1, y 2, eq_ix3 y⟩
  obtain rfl : u = 0 := Subsingleton.elim _ _
  show ctxAt m c t (ix3 (0 : Fin 1) r d) = G4 m c (((cfg0.win 4).blk t).view.emb (ix3 (0 : Fin 1) r d))
  rw [Blocks.emb4_at, G4_at]
  exact ctx_row m c hQ hK hV hP t ht3 r d

/-- The context array after the run. -/
theorem final4 (hQ : ∀ i, ∃ y : ℝ, argQ m c i = (y : EReal)) (hK : ∀ i, ∃ y : ℝ, argK m c i = (y : EReal))
    (hV : ∀ i, ∃ y : ℝ, argV m c i = (y : EReal)) (hP : ∀ i, ∃ y : ℝ, argP m c i = (y : EReal)) :
    (dats (F := Ideal) m 0 c).arrAt 4 cfg0.N = G4 m c :=
  (dats (F := Ideal) m 0 c).arrAt_eq_of_cover 4 (G4 m c) (fun t ht => flushed4_eq m c hQ hK hV hP t ht) (Blocks.cover4 c)

/-- The kernel program's first result is the specification's attention-weighted values of the four arguments, when
    every entry of the four arguments is a real. -/
theorem out_context (hQ : ∀ i, ∃ y : ℝ, argQ m c i = (y : EReal)) (hK : ∀ i, ∃ y : ℝ, argK m c i = (y : EReal))
    (hV : ∀ i, ∃ y : ℝ, argV m c i = (y : EReal)) (hP : ∀ i, ∃ y : ℝ, argP m c i = (y : EReal)) :
    (Pipeline.afterTail₀ cfgs (dats (F := Ideal) m) 0 (V0 m) [hostOps1] c main_v5 : Cert.Attn.SQ.Idx → EReal)
      = Cert.Attn.context (argQ m c) (argK m c) (argV m c) (argP m c) := by
  funext i
  obtain ⟨b, h, r, d, rfl⟩ : ∃ b h r d, i = ix4 b h r d := ⟨i 0, i 1, i 2, i 3, eq_ix4 i⟩
  refine (HostEnds.W_main_v5_at m (dats (F := Ideal) m) c b h r d).trans ?_
  rw [final4 m c hQ hK hV hP, G4_at]
  have hb : (⟨(⟨8 * b.val + h.val, by have := b.isLt; have := h.isLt; omega⟩ : Fin 16).val / 8, by
      have := b.isLt; have := h.isLt; show (8 * b.val + h.val) / 8 < 2; omega⟩ : Fin 2) = b :=
    Fin.ext (by have := h.isLt; show (8 * b.val + h.val) / 8 = b.val; omega)
  have hh : (⟨(⟨8 * b.val + h.val, by have := b.isLt; have := h.isLt; omega⟩ : Fin 16).val % 8, by
      show (8 * b.val + h.val) % 8 < 8; omega⟩ : Fin 8) = h :=
    Fin.ext (by have := h.isLt; show (8 * b.val + h.val) % 8 = h.val; omega)
  rw [hb, hh]

end

end Cert.KernelIdeal.ContextValue

end
-- ==== Proof.lean ====
/-
  Causal attention with a residual score term — scores = (Q·Kᵀ)/8 + P, masked to -∞ above the diagonal; context =
  softmax(scores)·V — computed by a tiled kernel against the plain formula.

  The kernel walks a grid (batch·head, query tile, key tile) of 512-row and 512-column tiles.  A key tile on or
  before the diagonal gets its masked scaled scores computed and stored, and folded into three buffers carried
  along the row of key tiles: each query row's largest score so far, its normalizer and its accumulator, rescaled by
  exp(old maximum - new maximum) at every tile; a key tile past the diagonal is filled with -∞ and skipped; the last
  key tile stores accumulator / normalizer.  The reference computes the whole score matrix, masks it, and takes
  exp(s - max)/∑ exp(s - max) times V.

  • The three frames.  Each kernel program's run is the pipeline's launch theorem over the proof data of Track (what
    every staging buffer and carried buffer holds after every grid point, by recursion on the point) and the body's run
    at one point (BodyRun), the same text at both float instances; the reference's is its run, the results dropped.
  • The idealization rewrote nothing, so there is nothing to preserve.
  • The two programs' results.  Scores: block (qi, ki) of the kernel's array is, entry by entry, the specification's
    masked score (the scale 1/8 is the exact word 0x3E000000; the reference divides by 8).  Context: along a row the
    carried state after key tile j is the tile-by-tile softmax recursion's state (RowState), whose final quotient is
    the softmax-weighted sum over all 2048 columns (LibOnlineSoftmax: masked columns contribute exp(-∞) = 0; the
    rescaling distributes over the sums because every unmasked score and every value is a real, which is where the
    precondition that the inputs are finite is used; the normalizer is at least exp 0 = 1, so the quotient is a
    real quotient).  The reference's results are the same two functions, read one operation at a time (RefIsSpec).
-/
import proofs.«169443_j85478439125336_2_alg».proof.Defs
import proofs.«169443_j85478439125336_2_alg».proof.Proof.Gen.Kernel
import proofs.«169443_j85478439125336_2_alg».proof.Proof.Gen.KernelIdeal
import proofs.«169443_j85478439125336_2_alg».proof.Proof.Gen.ReferenceIdeal
import proofs.«169443_j85478439125336_2_alg».proof.Proof.Gen.Pre_finite_inputs
import proofs.«169443_j85478439125336_2_alg».proof.Proof.ObligK
import proofs.«169443_j85478439125336_2_alg».proof.Proof.Claims
import proofs.«169443_j85478439125336_2_alg».proof.Proof.ContextValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.conjuncts (fun m ρ _ => Cert.Kernel.Hand.frame m ρ) Cert.KernelIdeal.ContextValue.out_context⟩

end Cert.Proof

end
